-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1x1024x1024 : Shape := ⟨4, ![8, 1, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x1x1024x1024 : S_.BroadcastsInDim S8x1x1024x1024 (![] : Fin 0 → Fin S8x1x1024x1024.rank)
  reducesTo_S8x1x1024x1024_S_d0_1_2_3 : S8x1x1024x1024.ReducesTo [0, 1, 2, 3] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024 .f32) (main_arg7 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8x1024x1024 .f32) (main_arg1 : FVec F S8x1x1024x1024 .f32) (main_arg2 : FVec F S1024x3072 .f32) (main_arg3 : FVec F S3072 .f32) (main_arg4 : FVec F S1024x1024 .f32) (main_arg5 : FVec F S1024 .f32) (main_arg6 : FVec F S1024 .f32) (main_arg7 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1x1024x1024 .f32 := Host.absf main_arg1
  let main_cst_0 : FVec F S_ .f32 := constant S_ .f32 0x7F800000#32
  let main_v5 : FVec F S8x1x1024x1024 .f32 := broadcastInDim S8x1x1024x1024 ![] bcast_S_S8x1x1024x1024 main_cst_0
  let main_v6 : IVec S8x1x1024x1024 1 := cmpf .olt main_v4 main_v5
  let main_c_1 : IVec S_ 1 := constantI S_ 1 1#1
  let main_v7 : IVec S_ 1 := (fun x v => Host.reduce IntOp.andi x v reducesTo_S8x1x1024x1024_S_d0_1_2_3 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_arg7 main_v13 main_v16
-- ==== Kernel.lean ====
abbrev S8x1024x1024 : Shape := ⟨3, ![8, 1024, 1024]⟩
abbrev S8x1x1024x1024 : Shape := ⟨4, ![8, 1, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S8x1024x3072 : Shape := ⟨3, ![8, 1024, 3072]⟩
abbrev S8x16x1024x1024 : Shape := ⟨4, ![8, 16, 1024, 1024]⟩
abbrev S1x256x128 : Shape := ⟨3, ![1, 256, 128]⟩
abbrev S1x1024x128 : Shape := ⟨3, ![1, 1024, 128]⟩
abbrev S1x1x256x1024 : Shape := ⟨4, ![1, 1, 256, 1024]⟩
abbrev S1x2x256x1024 : Shape := ⟨4, ![1, 2, 256, 1024]⟩
abbrev S256x128 : Shape := ⟨2, ![256, 128]⟩
abbrev S1024x128 : Shape := ⟨2, ![1024, 128]⟩
abbrev S256x1024 : Shape := ⟨2, ![256, 1024]⟩
abbrev S256x64 : Shape := ⟨2, ![256, 64]⟩
abbrev S1024x64 : Shape := ⟨2, ![1024, 64]⟩
abbrev S256 : Shape := ⟨1, ![256]⟩
abbrev S256x1 : Shape := ⟨2, ![256, 1]⟩
abbrev S1x256x64 : Shape := ⟨3, ![1, 256, 64]⟩
abbrev S1x1024 : Shape := ⟨2, ![1, 1024]⟩
abbrev S512 : Shape := ⟨1, ![512]⟩
abbrev S512x1 : Shape := ⟨2, ![512, 1]⟩

abbrev nBuf : Space → Nat
  | .hbm => 24
  | .vmem => 28
  | .smem => 0
  | _ => 0

abbrev bufTy : (tb : Table) → Fin (tcTables nBuf tb) → BufTy
  | .hbm, ⟨0, _⟩ => ⟨S8x1024x1024, .f32⟩
  | .hbm, ⟨1, _⟩ => ⟨S8x1x1024x1024, .f32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8x1024x1024, .bf16⟩
  | .hbm, ⟨9, _⟩ => ⟨S8192x1024, .bf16⟩
  | .hbm, ⟨10, _⟩ => ⟨S1024x3072, .bf16⟩
  | .hbm, ⟨11, _⟩ => ⟨S1x3072, .f32⟩
  | .hbm, ⟨12, _⟩ => ⟨S8192x3072, .bf16⟩
  | .hbm, ⟨13, _⟩ => ⟨S8x1024x3072, .bf16⟩
  | .hbm, ⟨14, _⟩ => ⟨S8x1024x1024, .bf16⟩
  | .hbm, ⟨15, _⟩ => ⟨S8x16x1024x1024, .f32⟩
  | .hbm, ⟨16, _⟩ => ⟨S8192x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8x1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x256x128, .bf16⟩
  | .local _ .vmem, ⟨7, _⟩ => ⟨S1x256x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1x256x1024, .f32⟩
  | .local _ .vmem, ⟨13, _⟩ => ⟨S1x1x256x1024, .f32⟩
  | .local _ .vmem, ⟨14, _⟩ => ⟨S1x256x128, .bf16⟩
  | .local _ .vmem, ⟨15, _⟩ => ⟨S1x256x128, .bf16⟩
  | .local _ .vmem, ⟨16, _⟩ => ⟨S1x2x256x1024, .f32⟩
  | .local _ .vmem, ⟨17, _⟩ => ⟨S1x2x256x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![arg0.toNat, c0_i32.toNat, v0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x2x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bitsLt_bf16_f32 : FTy.bits .bf16 < FTy.bits .f32
  shapeCasts_S8x1024x1024_S8192x1024 : S8x1024x1024.ShapeCasts S8192x1024
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S8x1024x3072 : S8192x3072.ShapeCasts S8x1024x3072
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  shapeCasts_S1x1x256x1024_S256x1024 : S1x1x256x1024.ShapeCasts S256x1024
  slices_S256x128_o0_0_S256x64 : S256x128.Slices ![0, 0] S256x64
  slices_S1024x128_o0_0_S1024x64 : S1024x128.Slices ![0, 0] S1024x64
  reduces_S256x1024_S256 : S256x1024.Reduces [1] S256
  shapeCasts_S256_S256x1 : S256.ShapeCasts S256x1
  broadcasts_S256x1_S256x1024 : S256x1.Broadcasts S256x1024
  inb_S1x2x256x1024_S1x1x256x1024_0_0_0_0 : ∀ a, (![0, 0, 0, 0] : Fin 4 → Nat) a + S1x1x256x1024.size a ≤ S1x2x256x1024.size a
  shapeCasts_S256x1024_S1x1x256x1024 : S256x1024.ShapeCasts S1x1x256x1024
  inb_S1x256x128_S1x256x64_0_0_0 : ∀ a, (![0, 0, 0] : Fin 3 → Nat) a + S1x256x64.size a ≤ S1x256x128.size a
  h_S1x256x64 : 0 < S1x256x64.numel
  shapeCasts_S1x256x64_S256x64 : S1x256x64.ShapeCasts S256x64
  shapeCasts_S256x64_S1x256x64 : S256x64.ShapeCasts S1x256x64
  packedbf16_S1x256x128_S1x256x64_0_0_0 : (Rect.unit (s := S1x256x128) ![0, 0, 0] S1x256x64.size inb_S1x256x128_S1x256x64_0_0_0).PackedRows (EltTy.packing .bf16)
  slices_S256x128_o0_64_S256x64 : S256x128.Slices ![0, 64] S256x64
  slices_S1024x128_o0_64_S1024x64 : S1024x128.Slices ![0, 64] S1024x64
  inb_S1x2x256x1024_S1x1x256x1024_0_1_0_0 : ∀ a, (![0, 1, 0, 0] : Fin 4 → Nat) a + S1x1x256x1024.size a ≤ S1x2x256x1024.size a
  inb_S1x256x128_S1x256x64_0_0_64 : ∀ a, (![0, 0, 64] : Fin 3 → Nat) a + S1x256x64.size a ≤ S1x256x128.size a
  packedbf16_S1x256x128_S1x256x64_0_0_64 : (Rect.unit (s := S1x256x128) ![0, 0, 64] S1x256x64.size inb_S1x256x128_S1x256x64_0_0_64).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S8192x1024_S8x1024x1024 : S8192x1024.ShapeCasts S8x1024x1024
  dot_S512x1024_S1024x3072_S512x3072_1_0_0_1_n_n_wf : DotDims.WF S512x1024 S1024x3072 S512x3072 [1] [0] [0] [1] [] []
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S8x1024x3072.size a
  hwx1_0 : ∀ i : grid1.Coords, EltTy.bits .bf16 = 32 ∨ (Rect.block (s := S8x1024x3072) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x3072.size a
  hwx1_1 : ∀ i : grid1.Coords, EltTy.bits .bf16 = 32 ∨ (Rect.block (s := S8x1024x3072) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x3072.size a
  hwx1_2 : ∀ i : grid1.Coords, EltTy.bits .bf16 = 32 ∨ (Rect.block (s := S8x1024x3072) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256x1024.size a ≤ S8x1x1024x1024.size a
  hwx1_3 : ∀ i : grid1.Coords, EltTy.bits .f32 = 32 ∨ (Rect.block (s := S8x1x1024x1024) S1x1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x128.size a ≤ S8x1024x1024.size a
  hwx1_4 : ∀ i : grid1.Coords, EltTy.bits .bf16 = 32 ∨ (Rect.block (s := S8x1024x1024) S1x256x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2x256x1024.size a ≤ S8x16x1024x1024.size a
  hwx1_5 : ∀ i : grid1.Coords, EltTy.bits .f32 = 32 ∨ (Rect.block (s := S8x16x1024x1024) S1x2x256x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S8192x1024.size a
  hwx2_6 : ∀ i : grid2.Coords, EltTy.bits .f32 = 32 ∨ (Rect.block (s := S8192x1024) S512x1024.size (cc2_transform_6 i) (hinb2_6 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_0) S1x256x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S1x2x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S8x1x1024x1024 : Shape := ⟨4, ![8, 1, 1024, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8x1024x3072 : Shape := ⟨3, ![8, 1024, 3072]⟩
abbrev S1x1x3072 : Shape := ⟨3, ![1, 1, 3072]⟩
abbrev S8x1024x16x64 : Shape := ⟨4, ![8, 1024, 16, 64]⟩
abbrev S8x16x1024x64 : Shape := ⟨4, ![8, 16, 1024, 64]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩
abbrev S1x1x1024 : Shape := ⟨3, ![1, 1, 1024]⟩
abbrev S8x1024 : Shape := ⟨2, ![8, 1024]⟩
abbrev S8x1024x1 : Shape := ⟨3, ![8, 1024, 1]⟩

abbrev nBuf : Space → Nat
  | .hbm => 86
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1x1024x1024, .f32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8x1024x3072, .f32⟩
  | .hbm, ⟨9, _⟩ => ⟨S1x1x3072, .f32⟩
  | .hbm, ⟨10, _⟩ => ⟨S8x1024x3072, .f32⟩
  | .hbm, ⟨11, _⟩ => ⟨S8x1024x3072, .f32⟩
  | .hbm, ⟨12, _⟩ => ⟨S8x1024x1024, .f32⟩
  | .hbm, ⟨13, _⟩ => ⟨S8x1024x1024, .f32⟩
  | .hbm, ⟨14, _⟩ => ⟨S8x1024x1024, .f32⟩
  | .hbm, ⟨15, _⟩ => ⟨S8x1024x16x64, .f32⟩
  | .hbm, ⟨16, _⟩ => ⟨S8x16x1024x64, .f32⟩
  | .hbm, ⟨17, _⟩ => ⟨S8x1024x16x64, .f32⟩
  | .hbm, ⟨18, _⟩ => ⟨S8x16x1024x64, .f32⟩
  | .hbm, ⟨19, _⟩ => ⟨S8x1024x16x64, .f32⟩
  | .hbm, ⟨20, _⟩ => ⟨S8x16x1024x64, .f32⟩
  | .hbm, ⟨21, _⟩ => ⟨S8x16x1024x1024, .f32⟩
  | .hbm, ⟨22, _⟩ => ⟨S_, .f32⟩
  | .hbm, ⟨23, _⟩ => ⟨S8x16x1024x1024, .f32⟩
  | .hbm, ⟨24, _⟩ => ⟨S8x16x1024x1024, .f32⟩
  | .hbm, ⟨25, _⟩ => ⟨S8x16x1024x1024, .f32⟩
  | .hbm, ⟨26, _⟩ => ⟨S8x16x1024x1024, .f32⟩
  | .hbm, ⟨27, _⟩ => ⟨S_, .f32⟩
  | .hbm, ⟨28, _⟩ => ⟨S8x1x1024x1024, .f32⟩
  | .hbm, ⟨29, _⟩ => ⟨S8x1x1024x1024, .f32⟩
  | .hbm, ⟨30, _⟩ => ⟨S_, .f32⟩
  | .hbm, ⟨31, _⟩ => ⟨S8x1x1024x1024, .f32⟩
  | .hbm, ⟨32, _⟩ => ⟨S8x1x1024x1024, .f32⟩
  | .hbm, ⟨33, _⟩ => ⟨S8x16x1024x1024, .f32⟩
  | .hbm, ⟨34, _⟩ => ⟨S8x16x1024x1024, .f32⟩
  | .hbm, ⟨35, _⟩ => ⟨S_, .f32⟩
  | .hbm, ⟨36, _⟩ => ⟨S8x16x1024, .f32⟩
  | .hbm, ⟨37, _⟩ => ⟨S_, .f32⟩
  | .hbm, ⟨38, _⟩ => ⟨S8x16x1024, .f32⟩
  | .hbm, ⟨39, _⟩ => ⟨S8x16x1024, .f32⟩
  | .hbm, ⟨40, _⟩ => ⟨S8x16x1024x1, .f32⟩
  | .hbm, ⟨41, _⟩ => ⟨S8x16x1024x1024, .f32⟩
  | .hbm, ⟨42, _⟩ => ⟨S8x16x1024x1024, .f32⟩
  | .hbm, ⟨43, _⟩ => ⟨S8x16x1024x1024, .f32⟩
  | .hbm, ⟨44, _⟩ => ⟨S_, .f32⟩
  | .hbm, ⟨45, _⟩ => ⟨S8x16x1024, .f32⟩
  | .hbm, ⟨46, _⟩ => ⟨S8x16x1024x1, .f32⟩
  | .hbm, ⟨47, _⟩ => ⟨S8x16x1024x1024, .f32⟩
  | .hbm, ⟨48, _⟩ => ⟨S8x16x1024x1024, .f32⟩
  | .hbm, ⟨49, _⟩ => ⟨S8x16x1024x64, .f32⟩
  | .hbm, ⟨50, _⟩ => ⟨S8x1024x16x64, .f32⟩
  | .hbm, ⟨51, _⟩ => ⟨S8x1024x1024, .f32⟩
  | .hbm, ⟨52, _⟩ => ⟨S8x1024x1024, .f32⟩
  | .hbm, ⟨53, _⟩ => ⟨S1x1x1024, .f32⟩
  | .hbm, ⟨54, _⟩ => ⟨S8x1024x1024, .f32⟩
  | .hbm, ⟨55, _⟩ => ⟨S8x1024x1024, .f32⟩
  | .hbm, ⟨56, _⟩ => ⟨S8x1024x1024, .f32⟩
  | .hbm, ⟨57, _⟩ => ⟨S_, .f32⟩
  | .hbm, ⟨58, _⟩ => ⟨S8x1024, .f32⟩
  | .hbm, ⟨59, _⟩ => ⟨S8x1024x1, .f32⟩
  | .hbm, ⟨60, _⟩ => ⟨S_, .f32⟩
  | .hbm, ⟨61, _⟩ => ⟨S8x1024x1, .f32⟩
  | .hbm, ⟨62, _⟩ => ⟨S8x1024x1, .f32⟩
  | .hbm, ⟨63, _⟩ => ⟨S8x1024x1024, .f32⟩
  | .hbm, ⟨64, _⟩ => ⟨S8x1024x1024, .f32⟩
  | .hbm, ⟨65, _⟩ => ⟨S8x1024x1024, .f32⟩
  | .hbm, ⟨66, _⟩ => ⟨S_, .f32⟩
  | .hbm, ⟨67, _⟩ => ⟨S8x1024, .f32⟩
  | .hbm, ⟨68, _⟩ => ⟨S8x1024x1, .f32⟩
  | .hbm, ⟨69, _⟩ => ⟨S_, .f32⟩
  | .hbm, ⟨70, _⟩ => ⟨S8x1024x1, .f32⟩
  | .hbm, ⟨71, _⟩ => ⟨S8x1024x1, .f32⟩
  | .hbm, ⟨72, _⟩ => ⟨S8x1024x1024, .f32⟩
  | .hbm, ⟨73, _⟩ => ⟨S8x1024x1024, .f32⟩
  | .hbm, ⟨74, _⟩ => ⟨S1x1x1024, .f32⟩
  | .hbm, ⟨75, _⟩ => ⟨S8x1024x1024, .f32⟩
  | .hbm, ⟨76, _⟩ => ⟨S8x1024x1024, .f32⟩
  | .hbm, ⟨77, _⟩ => ⟨S_, .f32⟩
  | .hbm, ⟨78, _⟩ => ⟨S8x1024x1, .f32⟩
  | .hbm, ⟨79, _⟩ => ⟨S8x1024x1, .f32⟩
  | .hbm, ⟨80, _⟩ => ⟨S8x1024x1, .f32⟩
  | .hbm, ⟨81, _⟩ => ⟨S8x1024x1024, .f32⟩
  | .hbm, ⟨82, _⟩ => ⟨S8x1024x1024, .f32⟩
  | .hbm, ⟨83, _⟩ => ⟨S1x1x1024, .f32⟩
  | .hbm, ⟨84, _⟩ => ⟨S8x1024x1024, .f32⟩
  | .hbm, ⟨85, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S8x1024x3072_0_1_2 : S1x1x3072.BroadcastsInDim S8x1024x3072 (![0, 1, 2] : Fin 3 → Fin S8x1024x3072.rank)
  slices_S8x1024x3072_S8x1024x1024_0_0_0 : S8x1024x3072.Slices ![0, 0, 0] S8x1024x1024
  slices_S8x1024x3072_S8x1024x1024_0_0_1024 : S8x1024x3072.Slices ![0, 0, 1024] S8x1024x1024
  slices_S8x1024x3072_S8x1024x1024_0_0_2048 : S8x1024x3072.Slices ![0, 0, 2048] S8x1024x1024
  shapeCasts_S8x1024x1024_S8x1024x16x64 : S8x1024x1024.ShapeCasts S8x1024x16x64
  transposes_S8x1024x16x64_S8x16x1024x64_0_2_1_3 : S8x1024x16x64.Transposes [0, 2, 1, 3] S8x16x1024x64
  bcast_S_S8x16x1024x1024 : S_.BroadcastsInDim S8x16x1024x1024 (![] : Fin 0 → Fin S8x16x1024x1024.rank)
  bcast_S8x1x1024x1024_S8x16x1024x1024_0_1_2_3 : S8x1x1024x1024.BroadcastsInDim S8x16x1024x1024 (![0, 1, 2, 3] : Fin 4 → Fin S8x16x1024x1024.rank)
  bcast_S_S8x1x1024x1024 : S_.BroadcastsInDim S8x1x1024x1024 (![] : Fin 0 → Fin S8x1x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x16x1024x64_S8x1024x16x64_0_2_1_3 : S8x16x1024x64.Transposes [0, 2, 1, 3] S8x1024x16x64
  shapeCasts_S8x1024x16x64_S8x1024x1024 : S8x1024x16x64.ShapeCasts S8x1024x1024
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  reducesTo_S8x1024x1024_S8x1024_d2 : S8x1024x1024.ReducesTo [2] S8x1024
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x1024_0_1_2 : S8x1024x1.BroadcastsInDim S8x1024x1024 (![0, 1, 2] : Fin 3 → Fin S8x1024x1024.rank)
  dot_S8x1024x1024_S1024x3072_S8x1024x3072_2_0_01_1_n_n_wf : DotDims.WF S8x1024x1024 S1024x3072 S8x1024x3072 [2] [0] [0, 1] [1] [] []
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]
  dot_S8x1024x1024_S1024x1024_S8x1024x1024_2_0_01_1_n_n_wf : DotDims.WF S8x1024x1024 S1024x1024 S8x1024x1024 [2] [0] [0, 1] [1] [] []

variable [Facts₀]

def dot_S8x1024x1024_S1024x3072_S8x1024x3072_2_0_01_1_n_n : DotDims S8x1024x1024 S1024x3072 S8x1024x3072 where
  lhsContracting := [2]
  rhsContracting := [0]
  lhsNonContracting := [0, 1]
  rhsNonContracting := [1]
  lhsBatch := []
  rhsBatch := []
  wf := dot_S8x1024x1024_S1024x3072_S8x1024x3072_2_0_01_1_n_n_wf
def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf
def dot_S8x1024x1024_S1024x1024_S8x1024x1024_2_0_01_1_n_n : DotDims S8x1024x1024 S1024x1024 S8x1024x1024 where
  lhsContracting := [2]
  rhsContracting := [0]
  lhsNonContracting := [0, 1]
  rhsNonContracting := [1]
  lhsBatch := []
  rhsBatch := []
  wf := dot_S8x1024x1024_S1024x1024_S8x1024x1024_2_0_01_1_n_n_wf

class Facts : Prop extends Facts₀ where

variable [Facts]
-- ==== Proof.KernelRegion0.lean ====
import proofs.«113321_j206158430385_2_alg».proof.Proof.Gen.Kernel.Launch
import proofs.«113321_j206158430385_2_alg».proof.Proof.Gen.Kernel.Skeleton
import proofs.«113321_j206158430385_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 of @main: the projection `x · W + b` over 16 row blocks, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not the block was moved in
    there: where it was not, the block index has not changed since the point where it was. Stated for any proof data
    whose array is `V`'s (`hA`) and whose body leaves the block in place (`hafter`). Window 0 (the row block of `x`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (the whole weight matrix: one block, the same at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2 (the bias row: one block, the same at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole block -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store, of the payload
    `k0_pay1` of the three loaded blocks, over the whole block. What the body loads of the output buffer
    beforehand enters no payload. -/
def out0_3 (x0 : Vec F S512x1024 .bf16) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The store's rectangle is the whole block, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords)
    (arg0 : Memref sig .tc .vmem S512x1024 .bf16) (harg0 : arg0.IsWhole)
    (arg1 : Memref sig .tc .vmem S1024x3072 .bf16) (harg1 : arg1.IsWhole)
    (arg2 : Memref sig .tc .vmem S1x3072 .f32) (harg2 : arg2.IsWhole)
    (arg3 : Memref sig .tc .vmem S512x3072 .bf16) (harg3 : arg3.IsWhole)
    (x0 : Vec F S512x1024 .bf16) (x1 : Vec F S1024x3072 .bf16) (x2 : Vec F S1x3072 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__qkv_proj_kernel i arg0 harg0 arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelRegion1.lean ====
/-
  Region 1 of the program: causal-mask softmax attention for one batch entry, one tile of 256 query rows and one pair
  of heads. The body reads four blocks — the query rows' 128 columns of the pair, the same 128 columns of all 1024
  key rows and of all 1024 value rows (three windows of ONE array, at column offsets 0, 1024 and 2048), and the 256
  mask rows — and writes two: the pair's 128 output columns of the 256 rows, stored as two halves of 64 columns (one
  head each), and the pair's two 256 x 1024 tiles of attention weights, stored one head at a time.
  Stated here, at any contents `V` of the core's buffers when the region is entered: what each output's staging
  buffer holds after the body, as the overlay of its two stores; that the body run on whole staging buffers ends with
  exactly that and the inputs untouched; the proof data of the pipeline (the three windows of the shared array hold
  three disjoint shares of it that make the full share); and the body obligation at every grid point.
-/
import proofs.«113321_j206158430385_2_alg».proof.Proof.Gen.Kernel.Launch
import proofs.«113321_j206158430385_2_alg».proof.Proof.Gen.Kernel.Skeleton
import proofs.«113321_j206158430385_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from the point before (the block index has not moved then). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole query block, the whole key (and value) block, the whole mask block. -/
abbrev r1_q : Rect S1x256x128 := Rect.unit (s := S1x256x128) ![0, 0, 0] S1x256x128.size inb_S1x256x128_S1x256x128_0_0_0
abbrev r1_kv : Rect S1x1024x128 := Rect.unit (s := S1x1024x128) ![0, 0, 0] S1x1024x128.size inb_S1x1024x128_S1x1024x128_0_0_0
abbrev r1_m : Rect S1x1x256x1024 := Rect.unit (s := S1x1x256x1024) ![0, 0, 0, 0] S1x1x256x1024.size inb_S1x1x256x1024_S1x1x256x1024_0_0_0_0
/-- The two heads' halves of the output block: columns 0..63 and 64..127. -/
abbrev r1_o0 : Rect S1x256x128 := Rect.unit (s := S1x256x128) ![0, 0, 0] S1x256x64.size inb_S1x256x128_S1x256x64_0_0_0
abbrev r1_o1 : Rect S1x256x128 := Rect.unit (s := S1x256x128) ![0, 0, 64] S1x256x64.size inb_S1x256x128_S1x256x64_0_0_64
/-- The two heads' tiles of the attention-weights block. -/
abbrev r1_a0 : Rect S1x2x256x1024 := Rect.unit (s := S1x2x256x1024) ![0, 0, 0, 0] S1x1x256x1024.size inb_S1x2x256x1024_S1x1x256x1024_0_0_0_0
abbrev r1_a1 : Rect S1x2x256x1024 := Rect.unit (s := S1x2x256x1024) ![0, 1, 0, 0] S1x1x256x1024.size inb_S1x2x256x1024_S1x1x256x1024_0_1_0_0

/-! ## What the body leaves in each output window's buffer -/

/-- The output block after the body: the second head's 64 columns over the first head's, each the product of that head's
    attention weights with its value columns. -/
def out1_4 (x0 : Vec F S1x256x128 .bf16) (x1 x2 : Vec F S1x1024x128 .bf16) (x3 : Vec F S1x1x256x1024 .f32) : Vec F S1x256x128 .bf16 :=
  View.canon [⟨r1_o1, k1_pay4 (k1_pay5 (View.ld x0 r1_q)) (k1_pay6 (View.ld x1 r1_kv)) (k1_pay7 (View.ld x2 r1_kv)) (k1_pay8 (View.ld x3 r1_m))⟩,
    ⟨r1_o0, k1_pay1 (k1_pay9 (View.ld x2 r1_kv)) (k1_pay12 (View.ld x0 r1_q) (View.ld x1 r1_kv) (View.ld x3 r1_m))⟩]

/-- The attention-weights block after the body: the second head's tile over the first head's. -/
def out1_5 (x0 : Vec F S1x256x128 .bf16) (x1 : Vec F S1x1024x128 .bf16) (x3 : Vec F S1x1x256x1024 .f32) : Vec F S1x2x256x1024 .f32 :=
  View.canon [⟨r1_a1, k1_pay3 (k1_pay5 (View.ld x0 r1_q)) (k1_pay6 (View.ld x1 r1_kv)) (k1_pay8 (View.ld x3 r1_m))⟩,
    ⟨r1_a0, k1_pay11 (View.ld x0 r1_q) (View.ld x1 r1_kv) (View.ld x3 r1_m)⟩]

/-- The two halves tile the output block, -/
theorem cover1_4 (p0 p1 : Vec F S1x256x64 .bf16) (y : S1x256x128.Idx) :
    ∃ pc ∈ ([⟨r1_o1, p0⟩, ⟨r1_o0, p1⟩] : List (View.Piece (Elt F) S1x256x128 .bf16)), y ∈ pc.1.set :=
  View.cover_of_tiled [⟨r1_o1, p0⟩, ⟨r1_o0, p1⟩] S1x256x64.size (by rfl) y

/-- and the two tiles the weights block. -/
theorem cover1_5 (p0 p1 : Vec F S1x1x256x1024 .f32) (y : S1x2x256x1024.Idx) :
    ∃ pc ∈ ([⟨r1_a1, p0⟩, ⟨r1_a0, p1⟩] : List (View.Piece (Elt F) S1x2x256x1024 .f32)), y ∈ pc.1.set :=
  View.cover_of_tiled [⟨r1_a1, p0⟩, ⟨r1_a0, p1⟩] S1x1x256x1024.size (by rfl) y

/-! ## The body's triple -/

set_option maxHeartbeats 4000000 in
/-- The body on whole staging buffers — the four inputs' at read contents, the two outputs' at anything — runs to a
    continuation that holds the inputs' as they were, the output block at `out1_4` and the weights block at `out1_5` of
    the inputs: every store's value is a function of the four loads alone (what the body loads from an output buffer
    before overwriting it feeds nothing). -/
theorem sound_kernel1 (c : Dev nD) (E : Set ℕ) (i : grid1.Coords)
    (arg3 : Memref sig .tc .vmem S1x256x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1x256x1024 .f32) (harg6 : arg6.IsWhole)
    (arg7 : Memref sig .tc .vmem S1x256x128 .bf16) (harg7 : arg7.IsWhole) (arg8 : Memref sig .tc .vmem S1x2x256x1024 .f32) (harg8 : arg8.IsWhole)
    (x0 : Vec F S1x256x128 .bf16) (x1 x2 : Vec F S1x1024x128 .bf16) (x3 : Vec F S1x1x256x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (out1_4 x0 x1 x2 x3) ∗ owns (c : Thread nD τ) arg8 fullShare (out1_5 x0 x1 x3)) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _ _)
  iexists _; isplitr
  swap; · iexact H5
  ipureintro
  exact View.read_writes_eq_canon _ _ _ (cover1_5 _ _)

/-! ## The pipeline's proof data -/

/-- The proof data of the attention pipeline on core `c`: the arrays as the region finds them; after the body at point
    `t` each input's buffer still at its block, the output block at `out1_4` and the weights block at `out1_5` of the
    four input blocks; the invariant is the scoped rest and the generator register, untouched; nothing owed. The query,
    key and value windows read ONE array: they hold the left half, the left quarter of the right half and the right
    quarter of the right half of its full share; the mask window holds its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem after1_5 (c : Dev nD) (t : Fin cfg1.N) :
    (dat1 V c).after 5 t = out1_5 (iblk1 V c 0 t) (iblk1 V c 1 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' staging buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelShared1.lean ====
/-
  The attention pipeline reads ONE array through three windows (the query, key and value columns of the projected
  rows). At the region's entry that array, held whole at the full share among the core's buffers, is dealt to the three
  windows as three disjoint shares; at its exit the three shares, all still at the entry contents, are joined again,
  and the two output arrays are put back among the core's buffers at what the write-backs left.
-/
import proofs.«113321_j206158430385_2_alg».proof.Proof.KernelRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The six windows stand on four distinct arrays. -/
theorem arrImage1 : (Finset.univ.image (Pipeline.arrRef spec1) : Finset (Ref sig .tc)) = {main_v5, main_arg1, main_v6_0, main_v6_1} := by
  decide

/-- The four buffers behind the windows, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v5) ↦{fullShare} Vc main_v5) ∗ (((c : Thread nD τ).loc main_arg1) ↦{fullShare} Vc main_arg1)
          ∗ (((c : Thread nD τ).loc main_v6_0) ↦{fullShare} Vc main_v6_0) ∗ (((c : Thread nD τ).loc main_v6_1) ↦{fullShare} Vc main_v6_1)) := by
  unfold Pipeline.arrBufs
  rw [arrImage1, bigSep_insert (by decide), bigSep_insert (by decide), bigSep_insert (by decide), bigSep_singleton]
  rfl

variable (V : (c : Dev nD) → (b : Ref sig .tc) → Buf (Elt F) ((c : Thread nD τ).loc b))

/-- The pipeline's arrays, window by window, each at the share its window holds: the three windows of the shared
    array at the three parts of the full share, the mask and the two outputs whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc (Pipeline.arrRef spec1 0)) ↦{fullShare.left} G 0)
          ∗ (((c : Thread nD τ).loc (Pipeline.arrRef spec1 1)) ↦{fullShare.right.left} G 1)
          ∗ (((c : Thread nD τ).loc (Pipeline.arrRef spec1 2)) ↦{fullShare.right.right} G 2)
          ∗ (((c : Thread nD τ).loc (Pipeline.arrRef spec1 3)) ↦{fullShare} G 3)
          ∗ (((c : Thread nD τ).loc (Pipeline.arrRef spec1 4)) ↦{fullShare} G 4)
          ∗ (((c : Thread nD τ).loc (Pipeline.arrRef spec1 5)) ↦{fullShare} G 5)) := by
  unfold Dat.arrays
  rw [show (bigSep Finset.univ fun w : Fin cfg1.W => ((cfg1.win w).arr.view.loc (c : Thread nD τ) ↦[(cfg1.win w).arr.view.set]{(dat1 V c).share w} G w : sProp 𝕄))
        = bigSep Finset.univ fun w : Fin cfg1.W => (((c : Thread nD τ).loc (Pipeline.arrRef spec1 w)) ↦{(dat1 V c).share w} G w : sProp 𝕄) from
      bigSep_congr fun w _ => by rw [(arr_whole1 w).set_eq_univ]]
  rw [bigSep_W1]
  rfl

/-- ENTRY. The core's unscoped buffers at the entry contents are the pipeline's arrays at those contents — the shared
    array's full share dealt to its three windows — and the unscoped rest. -/
theorem entry_arrays1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs1_eq, arrays1_eq]
  iintro ⟨⟨H5, Hm, Ho, Ha⟩, Hrest⟩
  ihave H5' := (pointsTo_share (PosShare.mem_left_op_right fullShare)).1 $$ H5
  icases H5' with ⟨Hq, Hkv⟩
  ihave Hkv' := (pointsTo_share (PosShare.mem_left_op_right fullShare.right)).1 $$ Hkv
  icases Hkv' with ⟨Hk, Hv⟩
  isplitr [Hrest]
  swap; · iexact Hrest
  isplitl [Hq]; · iexact Hq
  isplitl [Hk]; · iexact Hk
  isplitl [Hv]; · iexact Hv
  isplitl [Hm]; · iexact Hm
  isplitl [Ho]; · iexact Ho
  iexact Ha

/-- EXIT. The pipeline's arrays at what it leaves — the shared array and the mask as entered, in the shares dealt at
    entry; the two outputs at what the write-backs left — and the unscoped rest are the core's unscoped buffers at any
    contents `V'` that have the outputs there and agree with the entry contents elsewhere. -/
theorem exit_arrays1 (c : Dev nD) (V' : (b : Ref sig .tc) → Buf (Elt F) ((c : Thread nD τ).loc b))
    (h4 : (dat1 V c).arrAt 4 cfg1.N = V' main_v6_0) (h5 : (dat1 V c).arrAt 5 cfg1.N = V' main_v6_1)
    (hv5 : V' main_v5 = V c main_v5) (hm : V' main_arg1 = V c main_arg1)
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have e0 : (dat1 V c).arrAt 0 cfg1.N = V' main_v5 := ((dat1 V c).arrAt_in 0 rfl _).trans ((A_eq1 V c 0).trans hv5.symm)
  have e1 : (dat1 V c).arrAt 1 cfg1.N = V' main_v5 := ((dat1 V c).arrAt_in 1 rfl _).trans ((A_eq1 V c 1).trans hv5.symm)
  have e2 : (dat1 V c).arrAt 2 cfg1.N = V' main_v5 := ((dat1 V c).arrAt_in 2 rfl _).trans ((A_eq1 V c 2).trans hv5.symm)
  have e3 : (dat1 V c).arrAt 3 cfg1.N = V' main_arg1 := ((dat1 V c).arrAt_in 3 rfl _).trans ((A_eq1 V c 3).trans hm.symm)
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [Pipeline.unscopedBufs_split₀ cfgs 1 winFacts₀1.arr_unscoped c V']
  show _ ⊢ iprop(Pipeline.arrBufs spec1 c V' ∗ Pipeline.unscopedRest spec1 c V')
  rw [arrBufs1_eq, arrays1_eq, hr]
  dsimp only
  rw [e0, e1, e2, e3, h4, h5]
  iintro ⟨⟨Hq, Hk, Hv, Hm, Ho, Ha⟩, Hrest⟩
  isplitr [Hrest]
  swap; · iexact Hrest
  isplitl [Hq Hk Hv]
  · iapply (pointsTo_share (PosShare.mem_left_op_right fullShare)).2
    isplitl [Hq]; · iexact Hq
    iapply (pointsTo_share (PosShare.mem_left_op_right fullShare.right)).2
    isplitl [Hk]; · iexact Hk
    iexact Hv
  isplitl [Hm]; · iexact Hm
  isplitl [Ho]; · iexact Ho
  iexact Ha

end Cert.Kernel.Hand

end
-- ==== Proof.KernelRegion2.lean ====
import proofs.«113321_j206158430385_2_alg».proof.Proof.Gen.Kernel.Launch
import proofs.«113321_j206158430385_2_alg».proof.Proof.Gen.Kernel.Skeleton
import proofs.«113321_j206158430385_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 of @main: output projection, residual and layer norm over 16 row blocks, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not the block was moved in
    there: where it was not, the block index has not changed since the point where it was. Stated for any proof data
    whose array is `V`'s (`hA`) and whose body leaves the block in place (`hafter`). Window 0 (the row block of the
    attention output). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Window 1 (the whole output-projection matrix: one block, the same at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Window 2 (the projection's bias row: one block, the same at every point). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Window 3 (the row block of the residual input). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Window 4 (the layer norm's scale row: one block, the same at every point). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Window 5 (the layer norm's shift row: one block, the same at every point). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole block -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0
abbrev r2_4 : Rect S1x1024 := Rect.unit (s := S1x1024) ![0, 0] S1x1024.size inb_S1x1024_S1x1024_0_0
abbrev r2_5 : Rect S1x1024 := Rect.unit (s := S1x1024) ![0, 0] S1x1024.size inb_S1x1024_S1x1024_0_0
abbrev r2_6 : Rect S512x1024 := Rect.unit (s := S512x1024) ![0, 0] S512x1024.size inb_S512x1024_S512x1024_0_0

/-! ## What the body leaves in the output window's buffer -/

/-- Window 6's staging buffer after the body, from the input windows' blocks: its one store, of the payload
    `k2_pay1` of the six loaded blocks, over the whole block. What the body loads of the output buffer
    beforehand enters no payload. -/
def out2_6 (x0 : Vec F S512x1024 .bf16) (x1 : Vec F S1024x1024 .bf16) (x2 : Vec F S1x1024 .f32) (x3 : Vec F S512x1024 .f32) (x4 : Vec F S1x1024 .f32) (x5 : Vec F S1x1024 .f32) : Vec F S512x1024 .f32 :=
  View.canon [⟨r2_6, k2_pay1 (View.ld x0 r2_0) (View.ld x1 r2_1) (View.ld x2 r2_2) (View.ld x3 r2_3) (View.ld x4 r2_4) (View.ld x5 r2_5)⟩]

/-- The store's rectangle is the whole block, so it covers it. -/
theorem cover2_6 (p0 : Vec F S512x1024 .f32) (y : S512x1024.Idx) :
    ∃ pc ∈ ([⟨r2_6, p0⟩] : List (View.Piece (Elt F) S512x1024 .f32)), y ∈ pc.1.set :=
  View.cover_of_tiled [⟨r2_6, p0⟩] S512x1024.size (by rfl) y

/-! ## The body's triple -/

set_option maxHeartbeats 1000000 in
/-- The kernel body on whole staging memrefs, the inputs' at read contents `x0 … x5` and the output's at anything,
    runs to the continuation holding the inputs' as they were and the output's at `out2_6` of the inputs'. -/
theorem sound_kernel2 (c : Dev nD) (E : Set ℕ) (i : grid2.Coords)
    (arg0 : Memref sig .tc .vmem S512x1024 .bf16) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S512x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S512x1024 .f32) (harg6 : arg6.IsWhole)
    (x0 : Vec F S512x1024 .bf16) (x1 : Vec F S1024x1024 .bf16) (x2 : Vec F S1x1024 .f32) (x3 : Vec F S512x1024 .f32) (x4 : Vec F S1x1024 .f32) (x5 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2__outproj_ln_kernel i arg0 harg0 arg1 harg1 arg2 harg2 arg3 harg3 arg4 harg4 arg5 harg5 arg6 harg6) K := by
  simp only [cc2__outproj_ln_kernel_eq_skeleton]; unfold cc2__outproj_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and the output's at `out2_6` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelRun.lean ====
/-
  The whole program as a run. Its @main is seven items: host operations (a change of float format and two re-layings
  of the arguments), the projection region, a re-laying, the attention region, host operations (re-layings and a change
  of format), the output-projection-and-normalisation region, a last re-laying. The contents of every unscoped buffer
  are followed through the seven items as a fold from the launch memory: a stretch of host operations applies them; a
  region leaves each of its output arrays at what its write-backs, taken in grid order, make of it, and every other
  buffer as it found it. Every weakly fair execution ends, nothing faults, and in the final memory every unscoped buffer
  holds what the fold says — in particular each argument holds its launch contents, and the two results hold the
  re-laid output of the third region and the weights array the second region wrote.
-/
import proofs.«113321_j206158430385_2_alg».proof.Proof.Gen.Kernel.Regions
import proofs.«113321_j206158430385_2_alg».proof.Proof.KernelRegion0
import proofs.«113321_j206158430385_2_alg».proof.Proof.KernelRegion1
import proofs.«113321_j206158430385_2_alg».proof.Proof.KernelShared1
import proofs.«113321_j206158430385_2_alg».proof.Proof.KernelRegion2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => m (c, b)
/-- After the first stretch of host operations (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the re-laying of the projected rows (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit: its two output arrays at what the pipeline leaves, every other buffer — the shared
    input array and the mask among them — as entered. -/
def W4 (c : Dev nD) : Valuation τ sig (Elt F) :=
  Function.update (Function.update (W3 m c) (Proc.devRef .tc main_v6_0) ((dat1 (V3 m) c).arrAt 4 cfg1.N))
    (Proc.devRef .tc main_v6_1) ((dat1 (V3 m) c).arrAt 5 cfg1.N)
abbrev V4 : (c : Dev nD) → (b : Ref sig .tc) → Buf (Elt F) ((c : Thread nD τ).loc b) := fun c b => W4 m c b
theorem W4_out (c : Dev nD) : W4 m c (Proc.devRef .tc main_v6_0) = (dat1 (V3 m) c).arrAt 4 cfg1.N := by
  unfold W4
  rw [Function.update_of_ne (StableHlo.devRef_ne_of_ne (by decide) : (Proc.devRef .tc main_v6_0 : DevRef τ sig) ≠ Proc.devRef .tc main_v6_1),
    Function.update_self]
theorem W4_attn (c : Dev nD) : W4 m c (Proc.devRef .tc main_v6_1) = (dat1 (V3 m) c).arrAt 5 cfg1.N := by
  unfold W4; rw [Function.update_self]
theorem W4_of_ne (c : Dev nD) (b : Ref sig .tc) (h0 : b ≠ main_v6_0) (h1 : b ≠ main_v6_1) :
    W4 m c (Proc.devRef .tc b) = W3 m c (Proc.devRef .tc b) := by
  unfold W4
  rw [Function.update_of_ne (StableHlo.devRef_ne_of_ne h1 : (Proc.devRef .tc b : DevRef τ sig) ≠ Proc.devRef .tc main_v6_1),
    Function.update_of_ne (StableHlo.devRef_ne_of_ne h0 : (Proc.devRef .tc b : DevRef τ sig) ≠ Proc.devRef .tc main_v6_0)]

/-- After the host operations before the last region (its entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the last region's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the last re-laying: the contents the program ends with. -/
abbrev W7 : Dev nD → Valuation τ sig (Elt F) := fun c => StableHlo.after hostOps3 (W6 m c)

/-! ### The arguments end as launched: no host operation writes one and no region's output array is one -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide : main_arg0 ∉ hostOps3_W)
    _ = W5 m c (Proc.devRef .tc main_arg0) := W6_of_ne m c main_arg0 (by decide)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide) (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide : main_arg1 ∉ hostOps3_W)
    _ = W5 m c (Proc.devRef .tc main_arg1) := W6_of_ne m c main_arg1 (by decide)
    _ = W4 m c (Proc.devRef .tc main_arg1) := StableHlo.after_of_writes_sub hostOps2 _ hostOps2_writes (by decide : main_arg1 ∉ hostOps2_W)
    _ = W3 m c (Proc.devRef .tc main_arg1) := W4_of_ne m c main_arg1 (by decide) (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide : main_arg2 ∉ hostOps3_W)
    _ = W5 m c (Proc.devRef .tc main_arg2) := W6_of_ne m c main_arg2 (by decide)
    _ = W4 m c (Proc.devRef .tc main_arg2) := StableHlo.after_of_writes_sub hostOps2 _ hostOps2_writes (by decide : main_arg2 ∉ hostOps2_W)
    _ = W3 m c (Proc.devRef .tc main_arg2) := W4_of_ne m c main_arg2 (by decide) (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide : main_arg3 ∉ hostOps3_W)
    _ = W5 m c (Proc.devRef .tc main_arg3) := W6_of_ne m c main_arg3 (by decide)
    _ = W4 m c (Proc.devRef .tc main_arg3) := StableHlo.after_of_writes_sub hostOps2 _ hostOps2_writes (by decide : main_arg3 ∉ hostOps2_W)
    _ = W3 m c (Proc.devRef .tc main_arg3) := W4_of_ne m c main_arg3 (by decide) (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide : main_arg4 ∉ hostOps3_W)
    _ = W5 m c (Proc.devRef .tc main_arg4) := W6_of_ne m c main_arg4 (by decide)
    _ = W4 m c (Proc.devRef .tc main_arg4) := StableHlo.after_of_writes_sub hostOps2 _ hostOps2_writes (by decide : main_arg4 ∉ hostOps2_W)
    _ = W3 m c (Proc.devRef .tc main_arg4) := W4_of_ne m c main_arg4 (by decide) (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide : main_arg5 ∉ hostOps3_W)
    _ = W5 m c (Proc.devRef .tc main_arg5) := W6_of_ne m c main_arg5 (by decide)
    _ = W4 m c (Proc.devRef .tc main_arg5) := StableHlo.after_of_writes_sub hostOps2 _ hostOps2_writes (by decide : main_arg5 ∉ hostOps2_W)
    _ = W3 m c (Proc.devRef .tc main_arg5) := W4_of_ne m c main_arg5 (by decide) (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide : main_arg6 ∉ hostOps3_W)
    _ = W5 m c (Proc.devRef .tc main_arg6) := W6_of_ne m c main_arg6 (by decide)
    _ = W4 m c (Proc.devRef .tc main_arg6) := StableHlo.after_of_writes_sub hostOps2 _ hostOps2_writes (by decide : main_arg6 ∉ hostOps2_W)
    _ = W3 m c (Proc.devRef .tc main_arg6) := W4_of_ne m c main_arg6 (by decide) (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (by decide : main_arg7 ∉ hostOps3_W)
    _ = W5 m c (Proc.devRef .tc main_arg7) := W6_of_ne m c main_arg7 (by decide)
    _ = W4 m c (Proc.devRef .tc main_arg7) := StableHlo.after_of_writes_sub hostOps2 _ hostOps2_writes (by decide : main_arg7 ∉ hostOps2_W)
    _ = W3 m c (Proc.devRef .tc main_arg7) := W4_of_ne m c main_arg7 (by decide) (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

/-! ## The proof data family and the thread state -/

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 as a segment: entered from every unscoped buffer at `W1`, left at `W2`. Its arrays are split
    out of the core's unscoped buffers at entry and put back at their final contents at exit; the generator register goes
    into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region as a segment: entered from every unscoped buffer at `W3`, left at `W4`. At entry the array
    its three input windows share is dealt to them in three shares; at exit the shares are joined and the two output
    arrays put back at what the write-backs left. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry_arrays1 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V3 m c))
        ⊢ (unscopedBufs (Ix := Unit) (Name := ℕ) (U := UR sig nD τ) (Lvl := ℕ) c (V4 m c) : sProp 𝕄) :=
      exit_arrays1 (V3 m) c (V4 m c) (W4_out m c).symm (W4_attn m c).symm
      (W4_of_ne m c main_v5 (by decide) (by decide)) (W4_of_ne m c main_arg1 (by decide) (by decide))
      (fun b hb => W4_of_ne m c b
        (fun h => hb (h ▸ (by decide : main_v6_0 ∈ Finset.univ.image (Pipeline.arrRef spec1))))
        (fun h => hb (h ▸ (by decide : main_v6_1 ∈ Finset.univ.image (Pipeline.arrRef spec1)))))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W5`, left at `W6`. Its arrays are split
    out of the core's unscoped buffers at entry and put back at their final contents at exit; the generator register goes
    into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faults, and
    in every final memory each unscoped buffer of each core holds what the fold through @main says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c)⟩) (run_all m ρ)

end Cert.Kernel.Hand

end
-- ==== Proof.KernelIdealRegion0.lean ====
import proofs.«113321_j206158430385_2_alg».proof.Proof.Gen.KernelIdeal.Launch
import proofs.«113321_j206158430385_2_alg».proof.Proof.Gen.KernelIdeal.Skeleton
import proofs.«113321_j206158430385_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 of @main: the projection `x · W + b` over 16 row blocks, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not the block was moved in
    there: where it was not, the block index has not changed since the point where it was. Stated for any proof data
    whose array is `V`'s (`hA`) and whose body leaves the block in place (`hafter`). Window 0 (the row block of `x`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (the whole weight matrix: one block, the same at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2 (the bias row: one block, the same at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole block -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store, of the payload
    `k0_pay1` of the three loaded blocks, over the whole block. What the body loads of the output buffer
    beforehand enters no payload. -/
def out0_3 (x0 : Vec F S512x1024 .bf16) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The store's rectangle is the whole block, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords)
    (arg0 : Memref sig .tc .vmem S512x1024 .bf16) (harg0 : arg0.IsWhole)
    (arg1 : Memref sig .tc .vmem S1024x3072 .bf16) (harg1 : arg1.IsWhole)
    (arg2 : Memref sig .tc .vmem S1x3072 .f32) (harg2 : arg2.IsWhole)
    (arg3 : Memref sig .tc .vmem S512x3072 .bf16) (harg3 : arg3.IsWhole)
    (x0 : Vec F S512x1024 .bf16) (x1 : Vec F S1024x3072 .bf16) (x2 : Vec F S1x3072 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__qkv_proj_kernel i arg0 harg0 arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealRegion1.lean ====
/-
  Region 1 of the program: causal-mask softmax attention for one batch entry, one tile of 256 query rows and one pair
  of heads. The body reads four blocks — the query rows' 128 columns of the pair, the same 128 columns of all 1024
  key rows and of all 1024 value rows (three windows of ONE array, at column offsets 0, 1024 and 2048), and the 256
  mask rows — and writes two: the pair's 128 output columns of the 256 rows, stored as two halves of 64 columns (one
  head each), and the pair's two 256 x 1024 tiles of attention weights, stored one head at a time.
  Stated here, at any contents `V` of the core's buffers when the region is entered: what each output's staging
  buffer holds after the body, as the overlay of its two stores; that the body run on whole staging buffers ends with
  exactly that and the inputs untouched; the proof data of the pipeline (the three windows of the shared array hold
  three disjoint shares of it that make the full share); and the body obligation at every grid point.
-/
import proofs.«113321_j206158430385_2_alg».proof.Proof.Gen.KernelIdeal.Launch
import proofs.«113321_j206158430385_2_alg».proof.Proof.Gen.KernelIdeal.Skeleton
import proofs.«113321_j206158430385_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from the point before (the block index has not moved then). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole query block, the whole key (and value) block, the whole mask block. -/
abbrev r1_q : Rect S1x256x128 := Rect.unit (s := S1x256x128) ![0, 0, 0] S1x256x128.size inb_S1x256x128_S1x256x128_0_0_0
abbrev r1_kv : Rect S1x1024x128 := Rect.unit (s := S1x1024x128) ![0, 0, 0] S1x1024x128.size inb_S1x1024x128_S1x1024x128_0_0_0
abbrev r1_m : Rect S1x1x256x1024 := Rect.unit (s := S1x1x256x1024) ![0, 0, 0, 0] S1x1x256x1024.size inb_S1x1x256x1024_S1x1x256x1024_0_0_0_0
/-- The two heads' halves of the output block: columns 0..63 and 64..127. -/
abbrev r1_o0 : Rect S1x256x128 := Rect.unit (s := S1x256x128) ![0, 0, 0] S1x256x64.size inb_S1x256x128_S1x256x64_0_0_0
abbrev r1_o1 : Rect S1x256x128 := Rect.unit (s := S1x256x128) ![0, 0, 64] S1x256x64.size inb_S1x256x128_S1x256x64_0_0_64
/-- The two heads' tiles of the attention-weights block. -/
abbrev r1_a0 : Rect S1x2x256x1024 := Rect.unit (s := S1x2x256x1024) ![0, 0, 0, 0] S1x1x256x1024.size inb_S1x2x256x1024_S1x1x256x1024_0_0_0_0
abbrev r1_a1 : Rect S1x2x256x1024 := Rect.unit (s := S1x2x256x1024) ![0, 1, 0, 0] S1x1x256x1024.size inb_S1x2x256x1024_S1x1x256x1024_0_1_0_0

/-! ## What the body leaves in each output window's buffer -/

/-- The output block after the body: the second head's 64 columns over the first head's, each the product of that head's
    attention weights with its value columns. -/
def out1_4 (x0 : Vec F S1x256x128 .bf16) (x1 x2 : Vec F S1x1024x128 .bf16) (x3 : Vec F S1x1x256x1024 .f32) : Vec F S1x256x128 .bf16 :=
  View.canon [⟨r1_o1, k1_pay4 (k1_pay5 (View.ld x0 r1_q)) (k1_pay6 (View.ld x1 r1_kv)) (k1_pay7 (View.ld x2 r1_kv)) (k1_pay8 (View.ld x3 r1_m))⟩,
    ⟨r1_o0, k1_pay1 (k1_pay9 (View.ld x2 r1_kv)) (k1_pay12 (View.ld x0 r1_q) (View.ld x1 r1_kv) (View.ld x3 r1_m))⟩]

/-- The attention-weights block after the body: the second head's tile over the first head's. -/
def out1_5 (x0 : Vec F S1x256x128 .bf16) (x1 : Vec F S1x1024x128 .bf16) (x3 : Vec F S1x1x256x1024 .f32) : Vec F S1x2x256x1024 .f32 :=
  View.canon [⟨r1_a1, k1_pay3 (k1_pay5 (View.ld x0 r1_q)) (k1_pay6 (View.ld x1 r1_kv)) (k1_pay8 (View.ld x3 r1_m))⟩,
    ⟨r1_a0, k1_pay11 (View.ld x0 r1_q) (View.ld x1 r1_kv) (View.ld x3 r1_m)⟩]

/-- The two halves tile the output block, -/
theorem cover1_4 (p0 p1 : Vec F S1x256x64 .bf16) (y : S1x256x128.Idx) :
    ∃ pc ∈ ([⟨r1_o1, p0⟩, ⟨r1_o0, p1⟩] : List (View.Piece (Elt F) S1x256x128 .bf16)), y ∈ pc.1.set :=
  View.cover_of_tiled [⟨r1_o1, p0⟩, ⟨r1_o0, p1⟩] S1x256x64.size (by rfl) y

/-- and the two tiles the weights block. -/
theorem cover1_5 (p0 p1 : Vec F S1x1x256x1024 .f32) (y : S1x2x256x1024.Idx) :
    ∃ pc ∈ ([⟨r1_a1, p0⟩, ⟨r1_a0, p1⟩] : List (View.Piece (Elt F) S1x2x256x1024 .f32)), y ∈ pc.1.set :=
  View.cover_of_tiled [⟨r1_a1, p0⟩, ⟨r1_a0, p1⟩] S1x1x256x1024.size (by rfl) y

/-! ## The body's triple -/

set_option maxHeartbeats 4000000 in
/-- The body on whole staging buffers — the four inputs' at read contents, the two outputs' at anything — runs to a
    continuation that holds the inputs' as they were, the output block at `out1_4` and the weights block at `out1_5` of
    the inputs: every store's value is a function of the four loads alone (what the body loads from an output buffer
    before overwriting it feeds nothing). -/
theorem sound_kernel1 (c : Dev nD) (E : Set ℕ) (i : grid1.Coords)
    (arg3 : Memref sig .tc .vmem S1x256x128 .bf16) (harg3 : arg3.IsWhole) (arg4 : Memref sig .tc .vmem S1x1024x128 .bf16) (harg4 : arg4.IsWhole)
    (arg5 : Memref sig .tc .vmem S1x1024x128 .bf16) (harg5 : arg5.IsWhole) (arg6 : Memref sig .tc .vmem S1x1x256x1024 .f32) (harg6 : arg6.IsWhole)
    (arg7 : Memref sig .tc .vmem S1x256x128 .bf16) (harg7 : arg7.IsWhole) (arg8 : Memref sig .tc .vmem S1x2x256x1024 .f32) (harg8 : arg8.IsWhole)
    (x0 : Vec F S1x256x128 .bf16) (x1 x2 : Vec F S1x1024x128 .bf16) (x3 : Vec F S1x1x256x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (out1_4 x0 x1 x2 x3) ∗ owns (c : Thread nD τ) arg8 fullShare (out1_5 x0 x1 x3)) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _ _)
  iexists _; isplitr
  swap; · iexact H5
  ipureintro
  exact View.read_writes_eq_canon _ _ _ (cover1_5 _ _)

/-! ## The pipeline's proof data -/

/-- The proof data of the attention pipeline on core `c`: the arrays as the region finds them; after the body at point
    `t` each input's buffer still at its block, the output block at `out1_4` and the weights block at `out1_5` of the
    four input blocks; the invariant is the scoped rest and the generator register, untouched; nothing owed. The query,
    key and value windows read ONE array: they hold the left half, the left quarter of the right half and the right
    quarter of the right half of its full share; the mask window holds its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem after1_5 (c : Dev nD) (t : Fin cfg1.N) :
    (dat1 V c).after 5 t = out1_5 (iblk1 V c 0 t) (iblk1 V c 1 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' staging buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealShared1.lean ====
/-
  The attention pipeline reads ONE array through three windows (the query, key and value columns of the projected
  rows). At the region's entry that array, held whole at the full share among the core's buffers, is dealt to the three
  windows as three disjoint shares; at its exit the three shares, all still at the entry contents, are joined again,
  and the two output arrays are put back among the core's buffers at what the write-backs left.
-/
import proofs.«113321_j206158430385_2_alg».proof.Proof.KernelIdealRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The six windows stand on four distinct arrays. -/
theorem arrImage1 : (Finset.univ.image (Pipeline.arrRef spec1) : Finset (Ref sig .tc)) = {main_v5, main_arg1, main_v6_0, main_v6_1} := by
  decide

/-- The four buffers behind the windows, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v5) ↦{fullShare} Vc main_v5) ∗ (((c : Thread nD τ).loc main_arg1) ↦{fullShare} Vc main_arg1)
          ∗ (((c : Thread nD τ).loc main_v6_0) ↦{fullShare} Vc main_v6_0) ∗ (((c : Thread nD τ).loc main_v6_1) ↦{fullShare} Vc main_v6_1)) := by
  unfold Pipeline.arrBufs
  rw [arrImage1, bigSep_insert (by decide), bigSep_insert (by decide), bigSep_insert (by decide), bigSep_singleton]
  rfl

variable (V : (c : Dev nD) → (b : Ref sig .tc) → Buf (Elt F) ((c : Thread nD τ).loc b))

/-- The pipeline's arrays, window by window, each at the share its window holds: the three windows of the shared
    array at the three parts of the full share, the mask and the two outputs whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc (Pipeline.arrRef spec1 0)) ↦{fullShare.left} G 0)
          ∗ (((c : Thread nD τ).loc (Pipeline.arrRef spec1 1)) ↦{fullShare.right.left} G 1)
          ∗ (((c : Thread nD τ).loc (Pipeline.arrRef spec1 2)) ↦{fullShare.right.right} G 2)
          ∗ (((c : Thread nD τ).loc (Pipeline.arrRef spec1 3)) ↦{fullShare} G 3)
          ∗ (((c : Thread nD τ).loc (Pipeline.arrRef spec1 4)) ↦{fullShare} G 4)
          ∗ (((c : Thread nD τ).loc (Pipeline.arrRef spec1 5)) ↦{fullShare} G 5)) := by
  unfold Dat.arrays
  rw [show (bigSep Finset.univ fun w : Fin cfg1.W => ((cfg1.win w).arr.view.loc (c : Thread nD τ) ↦[(cfg1.win w).arr.view.set]{(dat1 V c).share w} G w : sProp 𝕄))
        = bigSep Finset.univ fun w : Fin cfg1.W => (((c : Thread nD τ).loc (Pipeline.arrRef spec1 w)) ↦{(dat1 V c).share w} G w : sProp 𝕄) from
      bigSep_congr fun w _ => by rw [(arr_whole1 w).set_eq_univ]]
  rw [bigSep_W1]
  rfl

/-- ENTRY. The core's unscoped buffers at the entry contents are the pipeline's arrays at those contents — the shared
    array's full share dealt to its three windows — and the unscoped rest. -/
theorem entry_arrays1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs1_eq, arrays1_eq]
  iintro ⟨⟨H5, Hm, Ho, Ha⟩, Hrest⟩
  ihave H5' := (pointsTo_share (PosShare.mem_left_op_right fullShare)).1 $$ H5
  icases H5' with ⟨Hq, Hkv⟩
  ihave Hkv' := (pointsTo_share (PosShare.mem_left_op_right fullShare.right)).1 $$ Hkv
  icases Hkv' with ⟨Hk, Hv⟩
  isplitr [Hrest]
  swap; · iexact Hrest
  isplitl [Hq]; · iexact Hq
  isplitl [Hk]; · iexact Hk
  isplitl [Hv]; · iexact Hv
  isplitl [Hm]; · iexact Hm
  isplitl [Ho]; · iexact Ho
  iexact Ha

/-- EXIT. The pipeline's arrays at what it leaves — the shared array and the mask as entered, in the shares dealt at
    entry; the two outputs at what the write-backs left — and the unscoped rest are the core's unscoped buffers at any
    contents `V'` that have the outputs there and agree with the entry contents elsewhere. -/
theorem exit_arrays1 (c : Dev nD) (V' : (b : Ref sig .tc) → Buf (Elt F) ((c : Thread nD τ).loc b))
    (h4 : (dat1 V c).arrAt 4 cfg1.N = V' main_v6_0) (h5 : (dat1 V c).arrAt 5 cfg1.N = V' main_v6_1)
    (hv5 : V' main_v5 = V c main_v5) (hm : V' main_arg1 = V c main_arg1)
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have e0 : (dat1 V c).arrAt 0 cfg1.N = V' main_v5 := ((dat1 V c).arrAt_in 0 rfl _).trans ((A_eq1 V c 0).trans hv5.symm)
  have e1 : (dat1 V c).arrAt 1 cfg1.N = V' main_v5 := ((dat1 V c).arrAt_in 1 rfl _).trans ((A_eq1 V c 1).trans hv5.symm)
  have e2 : (dat1 V c).arrAt 2 cfg1.N = V' main_v5 := ((dat1 V c).arrAt_in 2 rfl _).trans ((A_eq1 V c 2).trans hv5.symm)
  have e3 : (dat1 V c).arrAt 3 cfg1.N = V' main_arg1 := ((dat1 V c).arrAt_in 3 rfl _).trans ((A_eq1 V c 3).trans hm.symm)
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [Pipeline.unscopedBufs_split₀ cfgs 1 winFacts₀1.arr_unscoped c V']
  show _ ⊢ iprop(Pipeline.arrBufs spec1 c V' ∗ Pipeline.unscopedRest spec1 c V')
  rw [arrBufs1_eq, arrays1_eq, hr]
  dsimp only
  rw [e0, e1, e2, e3, h4, h5]
  iintro ⟨⟨Hq, Hk, Hv, Hm, Ho, Ha⟩, Hrest⟩
  isplitr [Hrest]
  swap; · iexact Hrest
  isplitl [Hq Hk Hv]
  · iapply (pointsTo_share (PosShare.mem_left_op_right fullShare)).2
    isplitl [Hq]; · iexact Hq
    iapply (pointsTo_share (PosShare.mem_left_op_right fullShare.right)).2
    isplitl [Hk]; · iexact Hk
    iexact Hv
  isplitl [Hm]; · iexact Hm
  isplitl [Ho]; · iexact Ho
  iexact Ha

end Cert.KernelIdeal.Hand

end
-- ==== Proof.KernelIdealRegion2.lean ====
import proofs.«113321_j206158430385_2_alg».proof.Proof.Gen.KernelIdeal.Launch
import proofs.«113321_j206158430385_2_alg».proof.Proof.Gen.KernelIdeal.Skeleton
import proofs.«113321_j206158430385_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 of @main: output projection, residual and layer norm over 16 row blocks, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not the block was moved in
    there: where it was not, the block index has not changed since the point where it was. Stated for any proof data
    whose array is `V`'s (`hA`) and whose body leaves the block in place (`hafter`). Window 0 (the row block of the
    attention output). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Window 1 (the whole output-projection matrix: one block, the same at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Window 2 (the projection's bias row: one block, the same at every point). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Window 3 (the row block of the residual input). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Window 4 (the layer norm's scale row: one block, the same at every point). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Window 5 (the layer norm's shift row: one block, the same at every point). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole block -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0
abbrev r2_4 : Rect S1x1024 := Rect.unit (s := S1x1024) ![0, 0] S1x1024.size inb_S1x1024_S1x1024_0_0
abbrev r2_5 : Rect S1x1024 := Rect.unit (s := S1x1024) ![0, 0] S1x1024.size inb_S1x1024_S1x1024_0_0
abbrev r2_6 : Rect S512x1024 := Rect.unit (s := S512x1024) ![0, 0] S512x1024.size inb_S512x1024_S512x1024_0_0

/-! ## What the body leaves in the output window's buffer -/

/-- Window 6's staging buffer after the body, from the input windows' blocks: its one store, of the payload
    `k2_pay1` of the six loaded blocks, over the whole block. What the body loads of the output buffer
    beforehand enters no payload. -/
def out2_6 (x0 : Vec F S512x1024 .bf16) (x1 : Vec F S1024x1024 .bf16) (x2 : Vec F S1x1024 .f32) (x3 : Vec F S512x1024 .f32) (x4 : Vec F S1x1024 .f32) (x5 : Vec F S1x1024 .f32) : Vec F S512x1024 .f32 :=
  View.canon [⟨r2_6, k2_pay1 (View.ld x0 r2_0) (View.ld x1 r2_1) (View.ld x2 r2_2) (View.ld x3 r2_3) (View.ld x4 r2_4) (View.ld x5 r2_5)⟩]

/-- The store's rectangle is the whole block, so it covers it. -/
theorem cover2_6 (p0 : Vec F S512x1024 .f32) (y : S512x1024.Idx) :
    ∃ pc ∈ ([⟨r2_6, p0⟩] : List (View.Piece (Elt F) S512x1024 .f32)), y ∈ pc.1.set :=
  View.cover_of_tiled [⟨r2_6, p0⟩] S512x1024.size (by rfl) y

/-! ## The body's triple -/

set_option maxHeartbeats 1000000 in
/-- The kernel body on whole staging memrefs, the inputs' at read contents `x0 … x5` and the output's at anything,
    runs to the continuation holding the inputs' as they were and the output's at `out2_6` of the inputs'. -/
theorem sound_kernel2 (c : Dev nD) (E : Set ℕ) (i : grid2.Coords)
    (arg0 : Memref sig .tc .vmem S512x1024 .bf16) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S512x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S512x1024 .f32) (harg6 : arg6.IsWhole)
    (x0 : Vec F S512x1024 .bf16) (x1 : Vec F S1024x1024 .bf16) (x2 : Vec F S1x1024 .f32) (x3 : Vec F S512x1024 .f32) (x4 : Vec F S1x1024 .f32) (x5 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out2_6 x0 x1 x2 x3 x4 x5)) -∗ K ⟨⟩))
      ⊢ wp frame (wpE (defs₀ (F := F)) Variants.none c none) E (cc2__outproj_ln_kernel i arg0 harg0 arg1 harg1 arg2 harg2 arg3 harg3 arg4 harg4 arg5 harg5 arg6 harg6) K := by
  simp only [cc2__outproj_ln_kernel_eq_skeleton]; unfold cc2__outproj_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at point `t`
    each input's buffer at its block and the output's at `out2_6` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealRun.lean ====
/-
  The whole program as a run. Its @main is seven items: host operations (a change of float format and two re-layings
  of the arguments), the projection region, a re-laying, the attention region, host operations (re-layings and a change
  of format), the output-projection-and-normalisation region, a last re-laying. The contents of every unscoped buffer
  are followed through the seven items as a fold from the launch memory: a stretch of host operations applies them; a
  region leaves each of its output arrays at what its write-backs, taken in grid order, make of it, and every other
  buffer as it found it. Every weakly fair execution ends, nothing faults, and in the final memory every unscoped buffer
  holds what the fold says — in particular each argument holds its launch contents, and the two results hold the
  re-laid output of the third region and the weights array the second region wrote.
-/
import proofs.«113321_j206158430385_2_alg».proof.Proof.Gen.KernelIdeal.Regions
import proofs.«113321_j206158430385_2_alg».proof.Proof.KernelIdealRegion0
import proofs.«113321_j206158430385_2_alg».proof.Proof.KernelIdealRegion1
import proofs.«113321_j206158430385_2_alg».proof.Proof.KernelIdealShared1
import proofs.«113321_j206158430385_2_alg».proof.Proof.KernelIdealRegion2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch. -/
abbrev W0 : Dev nD → Valuation τ sig (Elt F) := fun c b => m (c, b)
/-- After the first stretch of host operations (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the re-laying of the projected rows (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit: its two output arrays at what the pipeline leaves, every other buffer — the shared
    input array and the mask among them — as entered. -/
def W4 (c : Dev nD) : Valuation τ sig (Elt F) :=
  Function.update (Function.update (W3 m c) (Proc.devRef .tc main_v6_0) ((dat1 (V3 m) c).arrAt 4 cfg1.N))
    (Proc.devRef .tc main_v6_1) ((dat1 (V3 m) c).arrAt 5 cfg1.N)
abbrev V4 : (c : Dev nD) → (b : Ref sig .tc) → Buf (Elt F) ((c : Thread nD τ).loc b) := fun c b => W4 m c b
theorem W4_out (c : Dev nD) : W4 m c (Proc.devRef .tc main_v6_0) = (dat1 (V3 m) c).arrAt 4 cfg1.N := by
  unfold W4
  rw [Function.update_of_ne (StableHlo.devRef_ne_of_ne (by decide) : (Proc.devRef .tc main_v6_0 : DevRef τ sig) ≠ Proc.devRef .tc main_v6_1),
    Function.update_self]
theorem W4_attn (c : Dev nD) : W4 m c (Proc.devRef .tc main_v6_1) = (dat1 (V3 m) c).arrAt 5 cfg1.N := by
  unfold W4; rw [Function.update_self]
theorem W4_of_ne (c : Dev nD) (b : Ref sig .tc) (h0 : b ≠ main_v6_0) (h1 : b ≠ main_v6_1) :
    W4 m c (Proc.devRef .tc b) = W3 m c (Proc.devRef .tc b) := by
  unfold W4
  rw [Function.update_of_ne (StableHlo.devRef_ne_of_ne h1 : (Proc.devRef .tc b : DevRef τ sig) ≠ Proc.devRef .tc main_v6_1),
    Function.update_of_ne (StableHlo.devRef_ne_of_ne h0 : (Proc.devRef .tc b : DevRef τ sig) ≠ Proc.devRef .tc main_v6_0)]

/-- After the host operations before the last region (its entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the last region's exit. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the last re-laying: the contents the program ends with. -/
abbrev W7 : Dev nD → Valuation τ sig (Elt F) := fun c => StableHlo.after hostOps3 (W6 m c)

/-! ### The arguments end as launched: no host operation writes one and no region's output array is one -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide : main_arg0 ∉ hostOps3_W)
    _ = W5 m c (Proc.devRef .tc main_arg0) := W6_of_ne m c main_arg0 (by decide)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide) (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide : main_arg1 ∉ hostOps3_W)
    _ = W5 m c (Proc.devRef .tc main_arg1) := W6_of_ne m c main_arg1 (by decide)
    _ = W4 m c (Proc.devRef .tc main_arg1) := StableHlo.after_of_writes_sub hostOps2 _ hostOps2_writes (by decide : main_arg1 ∉ hostOps2_W)
    _ = W3 m c (Proc.devRef .tc main_arg1) := W4_of_ne m c main_arg1 (by decide) (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide : main_arg2 ∉ hostOps3_W)
    _ = W5 m c (Proc.devRef .tc main_arg2) := W6_of_ne m c main_arg2 (by decide)
    _ = W4 m c (Proc.devRef .tc main_arg2) := StableHlo.after_of_writes_sub hostOps2 _ hostOps2_writes (by decide : main_arg2 ∉ hostOps2_W)
    _ = W3 m c (Proc.devRef .tc main_arg2) := W4_of_ne m c main_arg2 (by decide) (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (by decide : main_arg3 ∉ hostOps3_W)
    _ = W5 m c (Proc.devRef .tc main_arg3) := W6_of_ne m c main_arg3 (by decide)
    _ = W4 m c (Proc.devRef .tc main_arg3) := StableHlo.after_of_writes_sub hostOps2 _ hostOps2_writes (by decide : main_arg3 ∉ hostOps2_W)
    _ = W3 m c (Proc.devRef .tc main_arg3) := W4_of_ne m c main_arg3 (by decide) (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (by decide : main_arg4 ∉ hostOps3_W)
    _ = W5 m c (Proc.devRef .tc main_arg4) := W6_of_ne m c main_arg4 (by decide)
    _ = W4 m c (Proc.devRef .tc main_arg4) := StableHlo.after_of_writes_sub hostOps2 _ hostOps2_writes (by decide : main_arg4 ∉ hostOps2_W)
    _ = W3 m c (Proc.devRef .tc main_arg4) := W4_of_ne m c main_arg4 (by decide) (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (by decide : main_arg5 ∉ hostOps3_W)
    _ = W5 m c (Proc.devRef .tc main_arg5) := W6_of_ne m c main_arg5 (by decide)
    _ = W4 m c (Proc.devRef .tc main_arg5) := StableHlo.after_of_writes_sub hostOps2 _ hostOps2_writes (by decide : main_arg5 ∉ hostOps2_W)
    _ = W3 m c (Proc.devRef .tc main_arg5) := W4_of_ne m c main_arg5 (by decide) (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (by decide : main_arg6 ∉ hostOps3_W)
    _ = W5 m c (Proc.devRef .tc main_arg6) := W6_of_ne m c main_arg6 (by decide)
    _ = W4 m c (Proc.devRef .tc main_arg6) := StableHlo.after_of_writes_sub hostOps2 _ hostOps2_writes (by decide : main_arg6 ∉ hostOps2_W)
    _ = W3 m c (Proc.devRef .tc main_arg6) := W4_of_ne m c main_arg6 (by decide) (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (by decide : main_arg7 ∉ hostOps3_W)
    _ = W5 m c (Proc.devRef .tc main_arg7) := W6_of_ne m c main_arg7 (by decide)
    _ = W4 m c (Proc.devRef .tc main_arg7) := StableHlo.after_of_writes_sub hostOps2 _ hostOps2_writes (by decide : main_arg7 ∉ hostOps2_W)
    _ = W3 m c (Proc.devRef .tc main_arg7) := W4_of_ne m c main_arg7 (by decide) (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

/-! ## The proof data family and the thread state -/

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 as a segment: entered from every unscoped buffer at `W1`, left at `W2`. Its arrays are split
    out of the core's unscoped buffers at entry and put back at their final contents at exit; the generator register goes
    into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region as a segment: entered from every unscoped buffer at `W3`, left at `W4`. At entry the array
    its three input windows share is dealt to them in three shares; at exit the shares are joined and the two output
    arrays put back at what the write-backs left. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry_arrays1 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V3 m c))
        ⊢ (unscopedBufs (Ix := Unit) (Name := ℕ) (U := UR sig nD τ) (Lvl := ℕ) c (V4 m c) : sProp 𝕄) :=
      exit_arrays1 (V3 m) c (V4 m c) (W4_out m c).symm (W4_attn m c).symm
      (W4_of_ne m c main_v5 (by decide) (by decide)) (W4_of_ne m c main_arg1 (by decide) (by decide))
      (fun b hb => W4_of_ne m c b
        (fun h => hb (h ▸ (by decide : main_v6_0 ∈ Finset.univ.image (Pipeline.arrRef spec1))))
        (fun h => hb (h ▸ (by decide : main_v6_1 ∈ Finset.univ.image (Pipeline.arrRef spec1)))))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W5`, left at `W6`. Its arrays are split
    out of the core's unscoped buffers at entry and put back at their final contents at exit; the generator register goes
    into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faults, and
    in every final memory each unscoped buffer of each core holds what the fold through @main says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c)⟩) (run_all m ρ)

end Cert.KernelIdeal.Hand

end
-- ==== Proof.RefFrame.lean ====
/-
  The reference program is a straight line of host operations. Its run is read back by the generated module; what is
  stated here is only its frame: every execution ends, nothing faults, and the eight argument arrays are as launched.
-/
import proofs.«113321_j206158430385_2_alg».proof.Defs
import proofs.«113321_j206158430385_2_alg».proof.Proof.Gen.ReferenceIdeal.Run
import proofs.«113321_j206158430385_2_alg».proof.Proof.Gen.ReferenceIdeal.Read
import proofs.«113321_j206158430385_2_alg».proof.Proof.Gen.Pre_finite_inputs

noncomputable section

open Idealize.ShloMosaic Idealize.ShloMosaic.TcCoe Idealize.SL.Sem

namespace Cert.Proof.RefClaims

/-- The reference runs to the end without a fault and leaves its argument arrays as launched: its run with the
    results' values dropped. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefClaims

end
-- ==== Proof.KernelIdealGlue.lean ====
/-
  What the host operations between the three regions do to the buffers, read at an index (at the exact extended
  reals, where a change of float format is the identity): the activations' rows re-laid from (batch, position) to one row
  axis of 8192 and back — row b·1024 + l is position l of batch entry b —, the bias and scale vectors made rows of one,
  and the arguments found unchanged wherever a region reads one.
-/
import proofs.«113321_j206158430385_2_alg».proof.Proof.KernelIdealRun
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Row b·1024 + l of the 8192 rows: position l of batch entry b. -/
abbrev rowOf (b : Fin 8) (l : Fin 1024) : Fin 8192 := ⟨b.val * 1024 + l.val, by have := b.isLt; have := l.isLt; omega⟩

theorem rowOf_val (b : Fin 8) (l : Fin 1024) : (rowOf b l).val = b.val * 1024 + l.val := rfl

/-! ## Before the first region -/

/-- The activations as 8192 rows. -/
theorem glue_v1 (c : Dev nD) (b : Fin 8) (l d : Fin 1024) :
    V1 (F := Ideal) m c main_v1 (ix2 (rowOf b l) d) = m ((c : Thread nD τ).loc main_arg0) (ix3 b l d) := by
  have e : V1 (F := Ideal) m c main_v1
      = (shapeCast S8192x1024 (truncf (F := Ideal) .bf16 (m ((c : Thread nD τ).loc main_arg0)) bitsLt_bf16_f32) shapeCasts_S8x1024x1024_S8192x1024
          : (⟨S8192x1024, .bf16⟩ : BufTy).Contents (Elt Ideal)) := by
    show StableHlo.after hostOps0 (fun b => m (c, b)) (Proc.devRef .tc main_v1) = _
    after_results; rfl
  rw [e, shapeCast_apply _ _ _ (ix3 b l d) (by rw [Shape.rowMajor_val_three, Shape.rowMajor_val_two]; rfl)]
  rfl

/-- The fused weights. -/
theorem glue_v2 (c : Dev nD) : V1 (F := Ideal) m c main_v2 = m ((c : Thread nD τ).loc main_arg2) := by
  show StableHlo.after hostOps0 (fun b => m (c, b)) (Proc.devRef .tc main_v2) = _
  after_results; rfl

/-- The fused bias as a row. -/
theorem glue_v3 (c : Dev nD) (f : Fin 3072) :
    V1 (F := Ideal) m c main_v3 (ix2 (0 : Fin 1) f) = m ((c : Thread nD τ).loc main_arg3) (ix1 f) := by
  have e : V1 (F := Ideal) m c main_v3
      = (shapeCast S1x3072 (m ((c : Thread nD τ).loc main_arg3)) shapeCasts_S3072_S1x3072 : (⟨S1x3072, .f32⟩ : BufTy).Contents (Elt Ideal)) := by
    show StableHlo.after hostOps0 (fun b => m (c, b)) (Proc.devRef .tc main_v3) = _
    after_results; rfl
  rw [e, shapeCast_apply _ _ _ (ix1 f) (by rw [Shape.rowMajor_val_one, Shape.rowMajor_val_two]; simp)]

/-! ## The arguments, where a later region or host operation reads one -/

/-- A buffer that neither of the first two stretches of host operations writes and that is no array of the first
    region holds its launch contents when the second region is entered. -/
theorem W3_of_launch (c : Dev nD) (r : Ref sig .tc) (h0 : r ∉ hostOps0_W) (h1 : r ∉ hostOps1_W)
    (hs : ∀ w, Pipeline.arrRef spec0 w ≠ r) : W3 (F := Ideal) m c (Proc.devRef .tc r) = m ((c : Thread nD τ).loc r) :=
  calc W3 m c (Proc.devRef .tc r)
    _ = W2 m c (Proc.devRef .tc r) := StableHlo.after_of_writes_sub hostOps1 _ hostOps1_writes h1
    _ = W1 m c (Proc.devRef .tc r) := W2_of_ne m c r hs
    _ = W0 m c (Proc.devRef .tc r) := StableHlo.after_of_writes_sub hostOps0 _ hostOps0_writes h0
    _ = m ((c : Thread nD τ).loc r) := rfl

/-- If moreover it is neither output of the second region it still holds them at that region's exit. -/
theorem W4_of_launch (c : Dev nD) (r : Ref sig .tc) (h0 : r ∉ hostOps0_W) (h1 : r ∉ hostOps1_W)
    (hs : ∀ w, Pipeline.arrRef spec0 w ≠ r) (ho : r ≠ main_v6_0) (ha : r ≠ main_v6_1) :
    W4 (F := Ideal) m c (Proc.devRef .tc r) = m ((c : Thread nD τ).loc r) :=
  (W4_of_ne m c r ho ha).trans (W3_of_launch m c r h0 h1 hs)

/-- The mask as the attention region finds it. -/
theorem glue_mask (c : Dev nD) : V3 (F := Ideal) m c main_arg1 = m ((c : Thread nD τ).loc main_arg1) :=
  W3_of_launch m c main_arg1 (by decide) (by decide) (by decide)

/-! ## Between the first and the second region -/

/-- The projected rows as (batch, position, fused column). -/
theorem glue_v5 (c : Dev nD) (b : Fin 8) (l : Fin 1024) (f : Fin 3072) :
    V3 (F := Ideal) m c main_v5 (ix3 b l f) = W2 (F := Ideal) m c (Proc.devRef .tc main_v4) (ix2 (rowOf b l) f) := by
  have e : V3 (F := Ideal) m c main_v5
      = (shapeCast S8x1024x3072 (W2 (F := Ideal) m c (Proc.devRef .tc main_v4)) shapeCasts_S8192x3072_S8x1024x3072
          : (⟨S8x1024x3072, .bf16⟩ : BufTy).Contents (Elt Ideal)) := by
    show StableHlo.after hostOps1 (W2 m c) (Proc.devRef .tc main_v5) = _
    after_results; rfl
  rw [e, shapeCast_apply _ _ _ (ix2 (rowOf b l) f) (by rw [Shape.rowMajor_val_three, Shape.rowMajor_val_two]; rfl)]

/-! ## Between the second and the third region -/

/-- The merged heads as 8192 rows. -/
theorem glue_v7 (c : Dev nD) (b : Fin 8) (l f : Fin 1024) :
    V5 (F := Ideal) m c main_v7 (ix2 (rowOf b l) f) = W4 (F := Ideal) m c (Proc.devRef .tc main_v6_0) (ix3 b l f) := by
  have e : V5 (F := Ideal) m c main_v7
      = (shapeCast S8192x1024 (W4 (F := Ideal) m c (Proc.devRef .tc main_v6_0)) shapeCasts_S8x1024x1024_S8192x1024
          : (⟨S8192x1024, .bf16⟩ : BufTy).Contents (Elt Ideal)) := by
    show StableHlo.after hostOps2 (W4 m c) (Proc.devRef .tc main_v7) = _
    after_results; rfl
  rw [e, shapeCast_apply _ _ _ (ix3 b l f) (by rw [Shape.rowMajor_val_three, Shape.rowMajor_val_two]; rfl)]

/-- The output projection's weights. -/
theorem glue_v8 (c : Dev nD) : V5 (F := Ideal) m c main_v8 = m ((c : Thread nD τ).loc main_arg4) := by
  show StableHlo.after hostOps2 (W4 m c) (Proc.devRef .tc main_v8) = _
  after_results
  rw [W4_of_launch m c main_arg4 (by decide) (by decide) (by decide) (by decide) (by decide)]
  rfl

/-- The output projection's bias as a row. -/
theorem glue_v9 (c : Dev nD) (n : Fin 1024) :
    V5 (F := Ideal) m c main_v9 (ix2 (0 : Fin 1) n) = m ((c : Thread nD τ).loc main_arg5) (ix1 n) := by
  have e : V5 (F := Ideal) m c main_v9
      = (shapeCast S1x1024 (m ((c : Thread nD τ).loc main_arg5)) shapeCasts_S1024_S1x1024 : (⟨S1x1024, .f32⟩ : BufTy).Contents (Elt Ideal)) := by
    show StableHlo.after hostOps2 (W4 m c) (Proc.devRef .tc main_v9) = _
    after_results
    rw [W4_of_launch m c main_arg5 (by decide) (by decide) (by decide) (by decide) (by decide)]
    rfl
  rw [e, shapeCast_apply _ _ _ (ix1 n) (by rw [Shape.rowMajor_val_one, Shape.rowMajor_val_two]; simp)]

/-- The normalisation's scale as a row. -/
theorem glue_v10 (c : Dev nD) (n : Fin 1024) :
    V5 (F := Ideal) m c main_v10 (ix2 (0 : Fin 1) n) = m ((c : Thread nD τ).loc main_arg6) (ix1 n) := by
  have e : V5 (F := Ideal) m c main_v10
      = (shapeCast S1x1024 (m ((c : Thread nD τ).loc main_arg6)) shapeCasts_S1024_S1x1024 : (⟨S1x1024, .f32⟩ : BufTy).Contents (Elt Ideal)) := by
    show StableHlo.after hostOps2 (W4 m c) (Proc.devRef .tc main_v10) = _
    after_results
    rw [W4_of_launch m c main_arg6 (by decide) (by decide) (by decide) (by decide) (by decide)]
    rfl
  rw [e, shapeCast_apply _ _ _ (ix1 n) (by rw [Shape.rowMajor_val_one, Shape.rowMajor_val_two]; simp)]

/-- The normalisation's shift as a row. -/
theorem glue_v11 (c : Dev nD) (n : Fin 1024) :
    V5 (F := Ideal) m c main_v11 (ix2 (0 : Fin 1) n) = m ((c : Thread nD τ).loc main_arg7) (ix1 n) := by
  have e : V5 (F := Ideal) m c main_v11
      = (shapeCast S1x1024 (m ((c : Thread nD τ).loc main_arg7)) shapeCasts_S1024_S1x1024 : (⟨S1x1024, .f32⟩ : BufTy).Contents (Elt Ideal)) := by
    show StableHlo.after hostOps2 (W4 m c) (Proc.devRef .tc main_v11) = _
    after_results
    rw [W4_of_launch m c main_arg7 (by decide) (by decide) (by decide) (by decide) (by decide)]
    rfl
  rw [e, shapeCast_apply _ _ _ (ix1 n) (by rw [Shape.rowMajor_val_one, Shape.rowMajor_val_two]; simp)]

/-- The residual: the activations as 8192 rows again. -/
theorem glue_v12 (c : Dev nD) (b : Fin 8) (l n : Fin 1024) :
    V5 (F := Ideal) m c main_v12 (ix2 (rowOf b l) n) = m ((c : Thread nD τ).loc main_arg0) (ix3 b l n) := by
  have e : V5 (F := Ideal) m c main_v12
      = (shapeCast S8192x1024 (m ((c : Thread nD τ).loc main_arg0)) shapeCasts_S8x1024x1024_S8192x1024
          : (⟨S8192x1024, .f32⟩ : BufTy).Contents (Elt Ideal)) := by
    show StableHlo.after hostOps2 (W4 m c) (Proc.devRef .tc main_v12) = _
    after_results
    rw [W4_of_launch m c main_arg0 (by decide) (by decide) (by decide) (by decide) (by decide)]
    rfl
  rw [e, shapeCast_apply _ _ _ (ix3 b l n) (by rw [Shape.rowMajor_val_three, Shape.rowMajor_val_two]; rfl)]

/-! ## After the third region -/

/-- The first result: the normalised rows as (batch, position, channel). -/
theorem glue_v14 (c : Dev nD) (b : Fin 8) (l n : Fin 1024) :
    W7 (F := Ideal) m c (Proc.devRef .tc main_v14) (ix3 b l n) = W6 (F := Ideal) m c (Proc.devRef .tc main_v13) (ix2 (rowOf b l) n) := by
  have e : W7 (F := Ideal) m c (Proc.devRef .tc main_v14)
      = (shapeCast S8x1024x1024 (W6 (F := Ideal) m c (Proc.devRef .tc main_v13)) shapeCasts_S8192x1024_S8x1024x1024
          : (⟨S8x1024x1024, .f32⟩ : BufTy).Contents (Elt Ideal)) := by
    show StableHlo.after hostOps3 (W6 m c) (Proc.devRef .tc main_v14) = _
    after_results; rfl
  rw [e, shapeCast_apply _ _ _ (ix2 (rowOf b l) n) (by rw [Shape.rowMajor_val_three, Shape.rowMajor_val_two]; rfl)]

/-- The second result: the weights array as the attention region left it. -/
theorem glue_attn (c : Dev nD) : W7 (F := Ideal) m c (Proc.devRef .tc main_v6_1) = W4 (F := Ideal) m c (Proc.devRef .tc main_v6_1) :=
  calc W7 m c (Proc.devRef .tc main_v6_1)
    _ = W6 m c (Proc.devRef .tc main_v6_1) := StableHlo.after_of_writes_sub hostOps3 _ hostOps3_writes (by decide : main_v6_1 ∉ hostOps3_W)
    _ = W5 m c (Proc.devRef .tc main_v6_1) := W6_of_ne m c main_v6_1 (by decide)
    _ = W4 m c (Proc.devRef .tc main_v6_1) := StableHlo.after_of_writes_sub hostOps2 _ hostOps2_writes (by decide : main_v6_1 ∉ hostOps2_W)

end Cert.KernelIdeal.Hand

end
-- ==== Proof.KernelIdealPay0.lean ====
import proofs.«113321_j206158430385_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen
open Idealize.ShloMosaic Idealize.ShloMosaic.ValueIdx Idealize.SL.Sem
open scoped BigOperators

/-! # The projection's payload at an index, over the extended reals

One row block of `x · W + b`: at row `r` of the block and output column `f` the stored value is the inner product
of row `r` of the block with column `f` of `W`, plus the bias at `f`. The changes of float format are the identity
on the extended reals and the accumulator of the matrix product is the zero splat. -/

/-! ## The matrix product's index maps: the left operand is read at (output row, contraction index), the right at
(contraction index, output column) -/

theorem proj_lhs_row (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem proj_lhs_col (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem proj_rhs_row (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem proj_rhs_col (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The contraction of the block's matrix product runs over the `1024` columns of the row block, which are the rows
    of `W`: at `(r, f)` it is `∑ d, lhs (r, d) * rhs (d, f)`. -/
theorem matmul_512x1024_1024x3072 (lhs : FVec Ideal S512x1024 .bf16) (rhs : FVec Ideal S1024x3072 .bf16) (r : Fin 512) (f : Fin 3072) :
    matmul (F := Ideal) dot_S512x1024_S1024x3072_S512x3072_1_0_0_1_n_n none lhs rhs (constant S512x3072 .f32 0x00000000#32) (ix2 r f)
      = ∑ d : Fin 1024, lhs (ix2 r d) * rhs (ix2 d f) := by
  refine (Ideal.matmul_constant_zero_apply dot_S512x1024_S1024x3072_S512x3072_1_0_0_1_n_n none lhs rhs (ix2 r f)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r f) ((contrEquiv1 dot_S512x1024_S1024x3072_S512x3072_1_0_0_1_n_n 1024 rfl rfl).symm k) = ix2 r k :=
    funext fun a => Fin.ext (by
      match a with
      | ⟨0, _⟩ => exact proj_lhs_row _ _
      | ⟨1, _⟩ => exact (proj_lhs_col _ _).trans hk)
  have er : dot_S512x1024_S1024x3072_S512x3072_1_0_0_1_n_n.rhsIdx (ix2 r f) ((contrEquiv1 dot_S512x1024_S1024x3072_S512x3072_1_0_0_1_n_n 1024 rfl rfl).symm k) = ix2 k f :=
    funext fun a => Fin.ext (by
      match a with
      | ⟨0, _⟩ => exact (proj_rhs_row _ _).trans hk
      | ⟨1, _⟩ => exact proj_rhs_col _ _)
  rw [el, er]

/-- The stored block at row `r`, column `f`: the inner product of the block's row with `W`'s column, plus the bias. -/
theorem k0_pay1_ix2 (xb : Vec Ideal S512x1024 .bf16) (w : Vec Ideal S1024x3072 .bf16) (bias : Vec Ideal S1x3072 .f32)
    (r : Fin 512) (f : Fin 3072) :
    k0_pay1 (F := Ideal) xb w bias (ix2 r f) = (∑ d : Fin 1024, xb (ix2 r d) * w (ix2 d f)) + bias (ix2 (0 : Fin 1) f) := by
  unfold k0_pay1
  rw [truncf_apply, addf_apply, shapeCast_self, shapeCast_self, shapeCast_self]
  refine congrArg₂ (· + ·) (matmul_512x1024_1024x3072 xb w r f) ?_
  exact broadcastTo_1b_ab_apply bias broadcasts_S1x3072_S512x3072 r f

end Cert.KernelIdeal.Pay

end
-- ==== Proof.KernelIdealFinal0.lean ====
import proofs.«113321_j206158430385_2_alg».proof.Proof.KernelIdealRegion0
import proofs.«113321_j206158430385_2_alg».proof.Proof.KernelIdealPay0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! # Region 0's output array after its run, as one function of the arrays the region finds

Every row of `x · W + b` depends on one row of `x` only, and row `r` of block `t` is row `512 t + r` of the array:
so the 16 written-back blocks are the 16 row blocks of one function of the whole arrays. -/

/-- `x · W + b` on all `8192` rows: entry `(r, f)` is the inner product of row `r` of `xr` with column `f` of `w`, plus
    the bias at `f`. -/
def rowsProj (xr : FVec Ideal S8192x1024 .bf16) (w : FVec Ideal S1024x3072 .bf16) (bias : FVec Ideal S1x3072 .f32) :
    FVec Ideal S8192x3072 .bf16 := fun i =>
  (∑ d : Fin 1024, xr (ix2 (n0 := 8192) ⟨(i 0).val, (i 0).isLt⟩ d) * w (ix2 d (n1 := 3072) ⟨(i 1).val, (i 1).isLt⟩))
    + bias (ix2 (0 : Fin 1) (n1 := 3072) ⟨(i 1).val, (i 1).isLt⟩)

theorem rowsProj_ix2 (xr : FVec Ideal S8192x1024 .bf16) (w : FVec Ideal S1024x3072 .bf16) (bias : FVec Ideal S1x3072 .f32)
    (r : Fin 8192) (f : Fin 3072) :
    rowsProj xr w bias (ix2 r f) = (∑ d : Fin 1024, xr (ix2 r d) * w (ix2 d f)) + bias (ix2 (0 : Fin 1) f) := rfl

/-- One block of the payload is the matching rows of `rowsProj`: if the block `xb` is rows `512 t …` of `xr`, then at
    row `j 0` of the block the payload is `rowsProj` at row `512 t + j 0`. -/
theorem proj_block_at (xr : FVec Ideal S8192x1024 .bf16) (w : FVec Ideal S1024x3072 .bf16) (bias : FVec Ideal S1x3072 .f32)
    (xb : Vec Ideal S512x1024 .bf16) (t : ℕ)
    (hx : ∀ (x : S512x1024.Idx) (k : S8192x1024.Idx), (k 0).val = 512 * t + (x 0).val → (k 1).val = (x 1).val → xb x = xr k)
    (j : S512x3072.Idx) (i : S8192x3072.Idx) (hi0 : (i 0).val = 512 * t + (j 0).val) (hi1 : (i 1).val = (j 1).val) :
    k0_pay1 (F := Ideal) xb w bias j = rowsProj xr w bias i := by
  obtain ⟨r, f, rfl⟩ : ∃ (r : Fin 512) (f : Fin 3072), j = ix2 r f := ⟨j 0, j 1, eq_ix2 j⟩
  obtain ⟨R, f', rfl⟩ : ∃ (R : Fin 8192) (f' : Fin 3072), i = ix2 R f' := ⟨i 0, i 1, eq_ix2 i⟩
  obtain rfl : f' = f := Fin.ext hi1
  rw [Pay.k0_pay1_ix2, rowsProj_ix2]
  refine congrArg₂ (· + ·) (Finset.sum_congr rfl fun d _ => ?_) rfl
  rw [hx (ix2 r d) (ix2 R d) hi0 rfl]

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: at point `t` the row windows (`x` and the output) are at row block `t`, and the
    weight and bias windows at their one block. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point `t` is rows `512 t … 512 t + 511` of its array. -/
theorem iblk0_0_apply (c : Dev nD) (t : Fin cfg0.N) (x : S512x1024.Idx) (k : S8192x1024.Idx)
    (hk0 : (k 0).val = 512 * t.val + (x 0).val) (hk1 : (k 1).val = (x 1).val) :
    (iblk0 V c 0 t : Vec Ideal S512x1024 .bf16) x = (V c main_v1 : S8192x1024.Idx → Elt Ideal .bf16) k := by
  obtain ⟨e0, e1, -⟩ := index_facts0 t
  unfold iblk0
  rw [View.read_apply]
  show V c main_v1 _ = V c main_v1 _
  refine congrArg _ (funext fun a => Fin.ext ?_)
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- Window 1's block at every point is its whole array (the weights). -/
theorem iblk0_1_eq (c : Dev nD) (t : Fin cfg0.N) :
    (iblk0 V c 1 t : Vec Ideal S1024x3072 .bf16) = (V c main_v2 : S1024x3072.Idx → Elt Ideal .bf16) := by
  obtain ⟨-, -, e2, e3, -⟩ := index_facts0 t
  funext x
  unfold iblk0
  rw [View.read_apply]
  show V c main_v2 _ = V c main_v2 x
  refine congrArg _ (funext fun a => Fin.ext ?_)
  match a with
  | ⟨0, _⟩ => show win0_1.index t (0 : Fin 2) * 1024 + 1 * (x 0).val = (x 0).val; rw [e2]; omega
  | ⟨1, _⟩ => show win0_1.index t (1 : Fin 2) * 3072 + 1 * (x 1).val = (x 1).val; rw [e3]; omega

/-- Window 2's block at every point is its whole array (the bias row). -/
theorem iblk0_2_eq (c : Dev nD) (t : Fin cfg0.N) :
    (iblk0 V c 2 t : Vec Ideal S1x3072 .f32) = (V c main_v3 : S1x3072.Idx → Elt Ideal .f32) := by
  obtain ⟨-, -, -, -, e4, e5, -⟩ := index_facts0 t
  funext x
  unfold iblk0
  rw [View.read_apply]
  show V c main_v3 _ = V c main_v3 x
  refine congrArg _ (funext fun a => Fin.ext ?_)
  match a with
  | ⟨0, _⟩ => show win0_2.index t (0 : Fin 2) * 1 + 1 * (x 0).val = (x 0).val; rw [e4]; omega
  | ⟨1, _⟩ => show win0_2.index t (1 : Fin 2) * 3072 + 1 * (x 1).val = (x 1).val; rw [e5]; omega

/-- What point `t` writes back is row block `t` of `rowsProj` of the arrays as the region finds them. -/
theorem flushed0_3_eq (c : Dev nD) (t : Fin cfg0.N) :
    (dat0 (F := Ideal) V c).flushed 3 t
      = ((cfg0.win 3).blk t).view.read (Elt Ideal) (rowsProj (V c main_v1) (V c main_v2) (V c main_v3)) := by
  show (cfg0.win 3).cut (grid0.coords t) ((dat0 (F := Ideal) V c).after 3 t) = _
  rw [after0_3]
  unfold out0_3
  rw [View.canon_unit_zero zero_offsets]
  simp only [View.ld_unit_zero (S := S512x1024) zero_offsets, View.ld_unit_zero (S := S1024x3072) zero_offsets,
    View.ld_unit_zero (S := S1x3072) zero_offsets]
  rw [iblk0_1_eq V c t, iblk0_2_eq V c t]
  obtain ⟨-, -, -, -, -, -, e6, e7⟩ := index_facts0 t
  funext j
  show k0_pay1 (F := Ideal) (iblk0 V c 0 t) (V c main_v2) (V c main_v3) j
    = rowsProj (V c main_v1) (V c main_v2) (V c main_v3) (((cfg0.win 3).blk t).view.emb j)
  exact proj_block_at (V c main_v1) (V c main_v2) (V c main_v3) (iblk0 V c 0 t) t.val
    (fun x k h0 h1 => iblk0_0_apply V c t x k h0 h1) j (((cfg0.win 3).blk t).view.emb j)
    (by show win0_3.index t (0 : Fin 2) * 512 + 1 * (j 0).val = _; rw [e6]; omega)
    (by show win0_3.index t (1 : Fin 2) * 3072 + 1 * (j 1).val = _; rw [e7]; omega)

/-- An index of the output array is in point `t`'s block iff each coordinate is in the block's range on its axis. -/
theorem mem_blk0_3 (t : Fin cfg0.N) (i : S8192x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v4).slice (win0_3.rect t)).set ↔ _
  rw [View.set_slice_whole, Rect.mem_set_unit]
  exact Iff.rfl

/-- Every index of the output array is written back by some point: row `r` by point `r / 512`. -/
theorem covered0_3 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, -, -, e6, e7⟩ := index_facts0 t
  refine ⟨t, flush0_3 t, ?_⟩
  rw [mem_blk0_3]
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 3072 ≤ (i 1).val ∧ (i 1).val < win0_3.index t (1 : Fin 2) * 3072 + 3072
    rw [e7]; omega

/-- The output array after region 0's run: `x · W + b` of the arrays the region found. -/
theorem final0_3 (c : Dev nD) :
    (dat0 (F := Ideal) V c).arrAt 3 cfg0.N = rowsProj (V c main_v1) (V c main_v2) (V c main_v3) :=
  (dat0 (F := Ideal) V c).arrAt_eq_of_cover 3 (rowsProj (V c main_v1) (V c main_v2) (V c main_v3))
    (fun t _ => flushed0_3_eq V c t) covered0_3

end Cert.KernelIdeal.Hand

end
-- ==== Proof.Spec.lean ====
/-
  The attention block as a function of its eight argument arrays, at the exact extended reals.

  x : [8, 1024, 1024] (batch, position, channel), mask : [8, 1, 1024, 1024], W_qkv : [1024, 3072], b_qkv : [3072],
  W_p : [1024, 1024], b_p, γ, β : [1024]. Sixteen heads of width 64: channel h·64 + d of a 1024-wide third of the
  3072 fused columns is lane d of head h; the thirds are the queries, the keys and the values, in that order.

    qkv(b, l, f)      = (∑ d, x(b, l, d) · W_qkv(d, f)) + b_qkv(f)
    scores(b, h, i, j) = mask(b, 0, i, j) · ((∑ d < 64, q(b, h, i, d) · k(b, h, j, d)) / 8) + (1 − mask(b, 0, i, j)) · (−1e9)
    rowMax(b, h, i)   = the maximum over j of scores(b, h, i, j), taken from −∞
    expo              = exp(scores − rowMax),   attn = expo / ∑ j, expo                 (the second result)
    headOut(b, i, h, d) = ∑ j, attn(b, h, i, j) · v(b, h, j, d),  merged(b, l, h·64 + d) = headOut(b, l, h, d)
    proj(b, l, n)     = ((∑ f, merged(b, l, f) · W_p(f, n)) + b_p(n)) + x(b, l, n)
    mean = (∑ n, proj) / 1024,  dev = proj − mean,  var = (∑ n, dev · dev) / 1024
    the first result  = (γ(n) · dev) / √(var + ε) + β(n)

  The last line is written twice, with the quotient by the square root (normQuot, outQuot) and with the product by the
  reciprocal square root, γ(n) · (dev · rsqrt(var + ε)) + β(n) (normRsqrt, outRsqrt); the two agree wherever γ(n) and
  dev are real and var + ε is a positive real. Every float literal is kept as the word it is written with.
-/
import Idealize.ShloMosaic.PureOps.Ideal
import Idealize.ShloMosaic.Lib.ValueIdx

noncomputable section

open scoped BigOperators

namespace Cert.Spec

open Idealize.ShloMosaic Idealize.ShloMosaic.ValueIdx

/-! ## Shapes -/

/-- x and the block's output: (batch, position, channel). -/
abbrev SAct : Shape := ⟨3, ![8, 1024, 1024]⟩
/-- The mask: (batch, 1, query position, key position). -/
abbrev SMask : Shape := ⟨4, ![8, 1, 1024, 1024]⟩
/-- The fused projection's weights: (channel, fused column). -/
abbrev SWqkv : Shape := ⟨2, ![1024, 3072]⟩
/-- The fused projection's bias. -/
abbrev SBqkv : Shape := ⟨1, ![3072]⟩
/-- The output projection's weights. -/
abbrev SWp : Shape := ⟨2, ![1024, 1024]⟩
/-- A vector over the channels: b_p, γ, β. -/
abbrev SChan : Shape := ⟨1, ![1024]⟩
/-- The attention weights: (batch, head, query position, key position). -/
abbrev SAttn : Shape := ⟨4, ![8, 16, 1024, 1024]⟩

/-! ## Channels, heads and the three thirds of the fused columns -/

/-- Channel h·64 + d: lane d of head h. -/
abbrev headCol (h : Fin 16) (d : Fin 64) : Fin 1024 :=
  ⟨h.val * 64 + d.val, by have := h.isLt; have := d.isLt; omega⟩
/-- The head of a channel … -/
abbrev headOf (f : Fin 1024) : Fin 16 := ⟨f.val / 64, by have := f.isLt; omega⟩
/-- … and its lane in the head. -/
abbrev laneOf (f : Fin 1024) : Fin 64 := ⟨f.val % 64, Nat.mod_lt _ (by decide)⟩
/-- The queries' third of the fused columns: columns 0 … 1023, … -/
abbrev qCol (f : Fin 1024) : Fin 3072 := ⟨f.val, by have := f.isLt; omega⟩
/-- … the keys': columns 1024 … 2047, … -/
abbrev kCol (f : Fin 1024) : Fin 3072 := ⟨1024 + f.val, by have := f.isLt; omega⟩
/-- … the values': columns 2048 … 3071. -/
abbrev vCol (f : Fin 1024) : Fin 3072 := ⟨2048 + f.val, by have := f.isLt; omega⟩

theorem headCol_val (h : Fin 16) (d : Fin 64) : (headCol h d).val = h.val * 64 + d.val := rfl
theorem headOf_val (f : Fin 1024) : (headOf f).val = f.val / 64 := rfl
theorem laneOf_val (f : Fin 1024) : (laneOf f).val = f.val % 64 := rfl
theorem qCol_val (f : Fin 1024) : (qCol f).val = f.val := rfl
theorem kCol_val (f : Fin 1024) : (kCol f).val = 1024 + f.val := rfl
theorem vCol_val (f : Fin 1024) : (vCol f).val = 2048 + f.val := rfl

/-- A channel is lane (f mod 64) of head (f div 64). -/
theorem headCol_headOf_laneOf (f : Fin 1024) : headCol (headOf f) (laneOf f) = f :=
  Fin.ext (by show f.val / 64 * 64 + f.val % 64 = f.val; omega)
theorem headOf_headCol (h : Fin 16) (d : Fin 64) : headOf (headCol h d) = h :=
  Fin.ext (by have := d.isLt; show (h.val * 64 + d.val) / 64 = h.val; omega)
theorem laneOf_headCol (h : Fin 16) (d : Fin 64) : laneOf (headCol h d) = d :=
  Fin.ext (by have := d.isLt; show (h.val * 64 + d.val) % 64 = d.val; omega)

/-! ## The stages -/

section Stages

variable (x : FVec Ideal SAct .f32) (mask : FVec Ideal SMask .f32) (Wqkv : FVec Ideal SWqkv .f32)
  (bqkv : FVec Ideal SBqkv .f32) (Wp : FVec Ideal SWp .f32) (bp γ β : FVec Ideal SChan .f32)

/-- The fused projection: row (b, l) of x against column f of W_qkv, plus the bias. -/
def qkv (b : Fin 8) (l : Fin 1024) (f : Fin 3072) : EReal :=
  (∑ d : Fin 1024, x (ix3 b l d) * Wqkv (ix2 d f)) + bqkv (ix1 f)

/-- Head h's query at position i, lane d. -/
def q (b : Fin 8) (h : Fin 16) (i : Fin 1024) (d : Fin 64) : EReal := qkv x Wqkv bqkv b i (qCol (headCol h d))
/-- Head h's key at position j, lane d. -/
def k (b : Fin 8) (h : Fin 16) (j : Fin 1024) (d : Fin 64) : EReal := qkv x Wqkv bqkv b j (kCol (headCol h d))
/-- Head h's value at position j, lane d. -/
def v (b : Fin 8) (h : Fin 16) (j : Fin 1024) (d : Fin 64) : EReal := qkv x Wqkv bqkv b j (vCol (headCol h d))

/-- The masked, scaled scores: mask · (q · k / 8) + (1 − mask) · (−1e9). -/
def scores (b : Fin 8) (h : Fin 16) (i j : Fin 1024) : EReal :=
  mask (ix4 b (0 : Fin 1) i j)
      * Ideal.div (∑ d : Fin 64, q x Wqkv bqkv b h i d * k x Wqkv bqkv b h j d) (Ideal.ofBits .f32 0x41000000#32)
    + (Ideal.ofBits .f32 0x3F800000#32 - mask (ix4 b (0 : Fin 1) i j)) * Ideal.ofBits .f32 0xCE6E6B28#32

/-- A row's maximum over the key positions, taken from −∞. -/
def rowMax (b : Fin 8) (h : Fin 16) (i : Fin 1024) : EReal :=
  (Finset.univ : Finset (Fin 1024)).fold max (Ideal.ofBits .f32 0xFF800000#32)
    (fun j => scores x mask Wqkv bqkv b h i j)

/-- exp(score − the row's maximum). -/
def expo (b : Fin 8) (h : Fin 16) (i j : Fin 1024) : EReal :=
  Ideal.exp (scores x mask Wqkv bqkv b h i j - rowMax x mask Wqkv bqkv b h i)

/-- The attention weights: the row's exponentials over their sum. -/
def attn (b : Fin 8) (h : Fin 16) (i j : Fin 1024) : EReal :=
  Ideal.div (expo x mask Wqkv bqkv b h i j) (∑ j' : Fin 1024, expo x mask Wqkv bqkv b h i j')

/-- THE SECOND RESULT: the attention weights as an array over (batch, head, query position, key position). -/
def attnOut : FVec Ideal SAttn .f32 := fun idx => attn x mask Wqkv bqkv (idx 0) (idx 1) (idx 2) (idx 3)

/-- Head h's output at position i, lane d: the weights against the values. -/
def headOut (b : Fin 8) (i : Fin 1024) (h : Fin 16) (d : Fin 64) : EReal :=
  ∑ j : Fin 1024, attn x mask Wqkv bqkv b h i j * v x Wqkv bqkv b h j d

/-- The heads side by side: channel f is lane (f mod 64) of head (f div 64). -/
def merged (b : Fin 8) (l : Fin 1024) (f : Fin 1024) : EReal :=
  headOut x mask Wqkv bqkv b l (headOf f) (laneOf f)

/-- The output projection, its bias and the residual. -/
def proj (b : Fin 8) (l : Fin 1024) (n : Fin 1024) : EReal :=
  ((∑ f : Fin 1024, merged x mask Wqkv bqkv b l f * Wp (ix2 f n)) + bp (ix1 n)) + x (ix3 b l n)

/-- A row's mean over the channels. -/
def mean (b : Fin 8) (l : Fin 1024) : EReal :=
  Ideal.div (∑ n : Fin 1024, proj x mask Wqkv bqkv Wp bp b l n) (Ideal.ofBits .f32 0x44800000#32)

/-- The deviation from the mean. -/
def dev (b : Fin 8) (l : Fin 1024) (n : Fin 1024) : EReal :=
  proj x mask Wqkv bqkv Wp bp b l n - mean x mask Wqkv bqkv Wp bp b l

/-- A row's variance: the mean of the squared deviations. -/
def var (b : Fin 8) (l : Fin 1024) : EReal :=
  Ideal.div (∑ n : Fin 1024, dev x mask Wqkv bqkv Wp bp b l n * dev x mask Wqkv bqkv Wp bp b l n)
    (Ideal.ofBits .f32 0x44800000#32)

/-- The layer norm's last step as a quotient by the square root: (γ · dev) / √(var + ε) + β. -/
def normQuot (b : Fin 8) (l : Fin 1024) (n : Fin 1024) : EReal :=
  Ideal.div (γ (ix1 n) * dev x mask Wqkv bqkv Wp bp b l n)
      (Ideal.sqrt (var x mask Wqkv bqkv Wp bp b l + Ideal.ofBits .f32 0x3727C5AC#32))
    + β (ix1 n)

/-- The same step as a product by the reciprocal square root: γ · (dev · rsqrt(var + ε)) + β. -/
def normRsqrt (b : Fin 8) (l : Fin 1024) (n : Fin 1024) : EReal :=
  γ (ix1 n) * (dev x mask Wqkv bqkv Wp bp b l n
      * Ideal.rsqrt (var x mask Wqkv bqkv Wp bp b l + Ideal.ofBits .f32 0x3727C5AC#32))
    + β (ix1 n)

/-- THE FIRST RESULT, with the quotient by the square root: an array over (batch, position, channel). -/
def outQuot : FVec Ideal SAct .f32 := fun idx => normQuot x mask Wqkv bqkv Wp bp γ β (idx 0) (idx 1) (idx 2)

/-- THE FIRST RESULT, with the product by the reciprocal square root. -/
def outRsqrt : FVec Ideal SAct .f32 := fun idx => normRsqrt x mask Wqkv bqkv Wp bp γ β (idx 0) (idx 1) (idx 2)

/-- The results at an index given by its coordinates. -/
theorem attnOut_ix4 (b : Fin 8) (h : Fin 16) (i j : Fin 1024) :
    attnOut x mask Wqkv bqkv (ix4 b h i j) = attn x mask Wqkv bqkv b h i j := rfl
theorem outQuot_ix3 (b : Fin 8) (l n : Fin 1024) :
    outQuot x mask Wqkv bqkv Wp bp γ β (ix3 b l n) = normQuot x mask Wqkv bqkv Wp bp γ β b l n := rfl
theorem outRsqrt_ix3 (b : Fin 8) (l n : Fin 1024) :
    outRsqrt x mask Wqkv bqkv Wp bp γ β (ix3 b l n) = normRsqrt x mask Wqkv bqkv Wp bp γ β b l n := rfl

end Stages

end Cert.Spec

end
-- ==== Proof.KernelIdealStage0.lean ====
/-
  The first region's result, read after the re-laying that follows it: at (batch entry b, position l, fused column f)
  the projected rows hold the specification's fused projection of the three arguments they are computed from.
-/
import proofs.«113321_j206158430385_2_alg».proof.Proof.KernelIdealGlue
import proofs.«113321_j206158430385_2_alg».proof.Proof.KernelIdealFinal0
import proofs.«113321_j206158430385_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The array the attention region reads its query, key and value blocks from is the fused projection
    x · W_qkv + b_qkv of the arguments, position by position. -/
theorem stage_qkv (c : Dev nD) (b : Fin 8) (l : Fin 1024) (f : Fin 3072) :
    V3 (F := Ideal) m c main_v5 (ix3 b l f)
      = Cert.Spec.qkv (m ((c : Thread nD τ).loc main_arg0)) (m ((c : Thread nD τ).loc main_arg2)) (m ((c : Thread nD τ).loc main_arg3)) b l f := by
  rw [glue_v5, show W2 (F := Ideal) m c (Proc.devRef .tc main_v4) = (dat0 (F := Ideal) (V1 m) c).arrAt 3 cfg0.N from W2_arr m c 3,
    final0_3 (V1 m) c, rowsProj_ix2]
  unfold Cert.Spec.qkv
  refine congrArg₂ (· + ·) (Finset.sum_congr rfl fun d _ => ?_) (glue_v3 m c f)
  rw [glue_v1 m c b l d, glue_v2 m c]

end Cert.KernelIdeal.Hand

end
-- ==== Proof.KernelIdealBlocks1.lean ====
/-
  The attention region's blocks. Grid point t stands for batch entry t / 32, query tile (t / 8) mod 4 and head pair
  t mod 8. At that point the query block is rows 256·tile … of the batch entry at the pair's 128 query columns; the key
  and value blocks are all 1024 rows at the pair's 128 key columns (offset 1024) and value columns (offset 2048) of the
  SAME array; the mask block is the tile's 256 mask rows. The output block is the tile's rows at the pair's 128 channels,
  written as two halves of 64 (one head each); the weights block is the pair's two heads' tiles, written one head at a
  time. Every element of either output array lies in exactly the block of the point its coordinates name.
-/
import proofs.«113321_j206158430385_2_alg».proof.Proof.KernelIdealRegion1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem zero_offsets3 : (![0, 0, 0] : Fin 3 → Nat) = fun _ => 0 := funext fun a => by fin_cases a <;> rfl
theorem zero_offsets4 : (![0, 0, 0, 0] : Fin 4 → Nat) = fun _ => 0 := funext fun a => by fin_cases a <;> rfl

/-- The block indices over the grid. -/
theorem index_facts1 : ∀ t : Fin cfg1.N,
    (win1_0.index t (0 : Fin 3) = t.val / 32 ∧ win1_0.index t (1 : Fin 3) = t.val / 8 % 4 ∧ win1_0.index t (2 : Fin 3) = t.val % 8)
    ∧ (win1_1.index t (0 : Fin 3) = t.val / 32 ∧ win1_1.index t (1 : Fin 3) = 0 ∧ win1_1.index t (2 : Fin 3) = 8 + t.val % 8)
    ∧ (win1_2.index t (0 : Fin 3) = t.val / 32 ∧ win1_2.index t (1 : Fin 3) = 0 ∧ win1_2.index t (2 : Fin 3) = 16 + t.val % 8)
    ∧ (win1_3.index t (0 : Fin 4) = t.val / 32 ∧ win1_3.index t (1 : Fin 4) = 0 ∧ win1_3.index t (2 : Fin 4) = t.val / 8 % 4
        ∧ win1_3.index t (3 : Fin 4) = 0)
    ∧ (win1_4.index t (0 : Fin 3) = t.val / 32 ∧ win1_4.index t (1 : Fin 3) = t.val / 8 % 4 ∧ win1_4.index t (2 : Fin 3) = t.val % 8)
    ∧ (win1_5.index t (0 : Fin 4) = t.val / 32 ∧ win1_5.index t (1 : Fin 4) = t.val % 8 ∧ win1_5.index t (2 : Fin 4) = t.val / 8 % 4
        ∧ win1_5.index t (3 : Fin 4) = 0) :=
  (by decide +kernel : ∀ t : Fin grid1.N, _)

variable (V : (c : Dev nD) → (b : Ref sig .tc) → Buf (Elt Ideal) ((c : Thread nD τ).loc b))

/-! ## The input blocks as parts of their arrays -/

/-- The query block: rows 256·tile … of the batch entry, the pair's 128 query columns. -/
theorem iblk1_0_apply (c : Dev nD) (t : Fin cfg1.N) (x : S1x256x128.Idx) (k : S8x1024x3072.Idx)
    (hk0 : (k 0).val = t.val / 32 + (x 0).val) (hk1 : (k 1).val = t.val / 8 % 4 * 256 + (x 1).val)
    (hk2 : (k 2).val = t.val % 8 * 128 + (x 2).val) :
    (iblk1 V c 0 t : Vec Ideal S1x256x128 .bf16) x = (V c main_v5 : S8x1024x3072.Idx → Elt Ideal .bf16) k := by
  obtain ⟨⟨e0, e1, e2⟩, -⟩ := index_facts1 t
  unfold iblk1
  rw [View.read_apply]
  show V c main_v5 _ = V c main_v5 _
  refine congrArg _ (funext fun a => Fin.ext ?_)
  match a with
  | ⟨0, _⟩ => show win1_0.index t (0 : Fin 3) * 1 + 1 * (x 0).val = (k 0).val; rw [e0, hk0]; omega
  | ⟨1, _⟩ => show win1_0.index t (1 : Fin 3) * 256 + 1 * (x 1).val = (k 1).val; rw [e1, hk1]; omega
  | ⟨2, _⟩ => show win1_0.index t (2 : Fin 3) * 128 + 1 * (x 2).val = (k 2).val; rw [e2, hk2]; omega

/-- The key block: all rows of the batch entry, the pair's 128 key columns. -/
theorem iblk1_1_apply (c : Dev nD) (t : Fin cfg1.N) (x : S1x1024x128.Idx) (k : S8x1024x3072.Idx)
    (hk0 : (k 0).val = t.val / 32 + (x 0).val) (hk1 : (k 1).val = (x 1).val)
    (hk2 : (k 2).val = (8 + t.val % 8) * 128 + (x 2).val) :
    (iblk1 V c 1 t : Vec Ideal S1x1024x128 .bf16) x = (V c main_v5 : S8x1024x3072.Idx → Elt Ideal .bf16) k := by
  obtain ⟨-, ⟨e0, e1, e2⟩, -⟩ := index_facts1 t
  unfold iblk1
  rw [View.read_apply]
  show V c main_v5 _ = V c main_v5 _
  refine congrArg _ (funext fun a => Fin.ext ?_)
  match a with
  | ⟨0, _⟩ => show win1_1.index t (0 : Fin 3) * 1 + 1 * (x 0).val = (k 0).val; rw [e0, hk0]; omega
  | ⟨1, _⟩ => show win1_1.index t (1 : Fin 3) * 1024 + 1 * (x 1).val = (k 1).val; rw [e1, hk1]; omega
  | ⟨2, _⟩ => show win1_1.index t (2 : Fin 3) * 128 + 1 * (x 2).val = (k 2).val; rw [e2, hk2]; omega

/-- The value block: all rows of the batch entry, the pair's 128 value columns. -/
theorem iblk1_2_apply (c : Dev nD) (t : Fin cfg1.N) (x : S1x1024x128.Idx) (k : S8x1024x3072.Idx)
    (hk0 : (k 0).val = t.val / 32 + (x 0).val) (hk1 : (k 1).val = (x 1).val)
    (hk2 : (k 2).val = (16 + t.val % 8) * 128 + (x 2).val) :
    (iblk1 V c 2 t : Vec Ideal S1x1024x128 .bf16) x = (V c main_v5 : S8x1024x3072.Idx → Elt Ideal .bf16) k := by
  obtain ⟨-, -, ⟨e0, e1, e2⟩, -⟩ := index_facts1 t
  unfold iblk1
  rw [View.read_apply]
  show V c main_v5 _ = V c main_v5 _
  refine congrArg _ (funext fun a => Fin.ext ?_)
  match a with
  | ⟨0, _⟩ => show win1_2.index t (0 : Fin 3) * 1 + 1 * (x 0).val = (k 0).val; rw [e0, hk0]; omega
  | ⟨1, _⟩ => show win1_2.index t (1 : Fin 3) * 1024 + 1 * (x 1).val = (k 1).val; rw [e1, hk1]; omega
  | ⟨2, _⟩ => show win1_2.index t (2 : Fin 3) * 128 + 1 * (x 2).val = (k 2).val; rw [e2, hk2]; omega

/-- The mask block: the tile's 256 mask rows of the batch entry. -/
theorem iblk1_3_apply (c : Dev nD) (t : Fin cfg1.N) (x : S1x1x256x1024.Idx) (k : S8x1x1024x1024.Idx)
    (hk0 : (k 0).val = t.val / 32 + (x 0).val) (hk1 : (k 1).val = (x 1).val)
    (hk2 : (k 2).val = t.val / 8 % 4 * 256 + (x 2).val) (hk3 : (k 3).val = (x 3).val) :
    (iblk1 V c 3 t : Vec Ideal S1x1x256x1024 .f32) x = (V c main_arg1 : S8x1x1024x1024.Idx → Elt Ideal .f32) k := by
  obtain ⟨-, -, -, ⟨e0, e1, e2, e3⟩, -⟩ := index_facts1 t
  unfold iblk1
  rw [View.read_apply]
  show V c main_arg1 _ = V c main_arg1 _
  refine congrArg _ (funext fun a => Fin.ext ?_)
  match a with
  | ⟨0, _⟩ => show win1_3.index t (0 : Fin 4) * 1 + 1 * (x 0).val = (k 0).val; rw [e0, hk0]; omega
  | ⟨1, _⟩ => show win1_3.index t (1 : Fin 4) * 1 + 1 * (x 1).val = (k 1).val; rw [e1, hk1]; omega
  | ⟨2, _⟩ => show win1_3.index t (2 : Fin 4) * 256 + 1 * (x 2).val = (k 2).val; rw [e2, hk2]; omega
  | ⟨3, _⟩ => show win1_3.index t (3 : Fin 4) * 1024 + 1 * (x 3).val = (k 3).val; rw [e3, hk3]; omega

/-! ## What the two stores leave in each output's staging buffer, at an index -/

/-- The weights block at head 0 of the pair holds the first store's value, -/
theorem out1_5_head0 (x0 : Vec Ideal S1x256x128 .bf16) (x1 : Vec Ideal S1x1024x128 .bf16) (x3 : Vec Ideal S1x1x256x1024 .f32)
    (i : Fin 256) (j : Fin 1024) :
    out1_5 (F := Ideal) x0 x1 x3 (ix4 (0 : Fin 1) (0 : Fin 2) i j) = k1_pay11 (F := Ideal) x0 x1 x3 (ix4 (0 : Fin 1) (0 : Fin 1) i j) := by
  unfold out1_5
  simp only [View.ld_unit_zero (S := S1x256x128) zero_offsets3, View.ld_unit_zero (S := S1x1024x128) zero_offsets3,
    View.ld_unit_zero (S := S1x1x256x1024) zero_offsets4]
  rw [View.canon_cons_of_not_mem _ _ (by
    rw [Rect.mem_set_unit]; intro h; have := (h (1 : Fin 4)).1; change 1 ≤ 0 at this; omega)]
  have e : (ix4 (0 : Fin 1) (0 : Fin 2) i j : S1x2x256x1024.Idx) = r1_a0.emb (ix4 (0 : Fin 1) (0 : Fin 1) i j) := by
    funext a; apply Fin.ext
    match a with
    | ⟨0, _⟩ => rfl
    | ⟨1, _⟩ => rfl
    | ⟨2, _⟩ => show i.val = 0 + 1 * i.val; omega
    | ⟨3, _⟩ => show j.val = 0 + 1 * j.val; omega
  rw [e]
  exact View.canon_cons_emb _ _ _ _

/-- and at head 1 the second store's. -/
theorem out1_5_head1 (x0 : Vec Ideal S1x256x128 .bf16) (x1 : Vec Ideal S1x1024x128 .bf16) (x3 : Vec Ideal S1x1x256x1024 .f32)
    (i : Fin 256) (j : Fin 1024) :
    out1_5 (F := Ideal) x0 x1 x3 (ix4 (0 : Fin 1) (1 : Fin 2) i j)
      = k1_pay3 (F := Ideal) (k1_pay5 x0) (k1_pay6 x1) (k1_pay8 x3) (ix4 (0 : Fin 1) (0 : Fin 1) i j) := by
  unfold out1_5
  simp only [View.ld_unit_zero (S := S1x256x128) zero_offsets3, View.ld_unit_zero (S := S1x1024x128) zero_offsets3,
    View.ld_unit_zero (S := S1x1x256x1024) zero_offsets4]
  have e : (ix4 (0 : Fin 1) (1 : Fin 2) i j : S1x2x256x1024.Idx) = r1_a1.emb (ix4 (0 : Fin 1) (0 : Fin 1) i j) := by
    funext a; apply Fin.ext
    match a with
    | ⟨0, _⟩ => rfl
    | ⟨1, _⟩ => rfl
    | ⟨2, _⟩ => show i.val = 0 + 1 * i.val; omega
    | ⟨3, _⟩ => show j.val = 0 + 1 * j.val; omega
  rw [e]
  exact View.canon_cons_emb _ _ _ _

/-- The output block's columns 0 … 63 hold head 0's product, -/
theorem out1_4_head0 (x0 : Vec Ideal S1x256x128 .bf16) (x1 x2 : Vec Ideal S1x1024x128 .bf16) (x3 : Vec Ideal S1x1x256x1024 .f32)
    (i : Fin 256) (d : Fin 64) :
    out1_4 (F := Ideal) x0 x1 x2 x3 (ix3 (0 : Fin 1) i (⟨d.val, by omega⟩ : Fin 128))
      = k1_pay1 (F := Ideal) (k1_pay9 x2) (k1_pay12 x0 x1 x3) (ix3 (0 : Fin 1) i d) := by
  unfold out1_4
  simp only [View.ld_unit_zero (S := S1x256x128) zero_offsets3, View.ld_unit_zero (S := S1x1024x128) zero_offsets3,
    View.ld_unit_zero (S := S1x1x256x1024) zero_offsets4]
  rw [View.canon_cons_of_not_mem _ _ (by
    rw [Rect.mem_set_unit]; intro h; have := (h (2 : Fin 3)).1
    have hd := d.isLt
    change 64 ≤ d.val at this; omega)]
  have e : (ix3 (0 : Fin 1) i (⟨d.val, by omega⟩ : Fin 128) : S1x256x128.Idx) = r1_o0.emb (ix3 (0 : Fin 1) i d) := by
    funext a; apply Fin.ext
    match a with
    | ⟨0, _⟩ => rfl
    | ⟨1, _⟩ => show i.val = 0 + 1 * i.val; omega
    | ⟨2, _⟩ => show d.val = 0 + 1 * d.val; omega
  rw [e]
  exact View.canon_cons_emb _ _ _ _

/-- and its columns 64 … 127 head 1's. -/
theorem out1_4_head1 (x0 : Vec Ideal S1x256x128 .bf16) (x1 x2 : Vec Ideal S1x1024x128 .bf16) (x3 : Vec Ideal S1x1x256x1024 .f32)
    (i : Fin 256) (d : Fin 64) :
    out1_4 (F := Ideal) x0 x1 x2 x3 (ix3 (0 : Fin 1) i (⟨64 + d.val, by omega⟩ : Fin 128))
      = k1_pay4 (F := Ideal) (k1_pay5 x0) (k1_pay6 x1) (k1_pay7 x2) (k1_pay8 x3) (ix3 (0 : Fin 1) i d) := by
  unfold out1_4
  simp only [View.ld_unit_zero (S := S1x256x128) zero_offsets3, View.ld_unit_zero (S := S1x1024x128) zero_offsets3,
    View.ld_unit_zero (S := S1x1x256x1024) zero_offsets4]
  have e : (ix3 (0 : Fin 1) i (⟨64 + d.val, by omega⟩ : Fin 128) : S1x256x128.Idx) = r1_o1.emb (ix3 (0 : Fin 1) i d) := by
    funext a; apply Fin.ext
    match a with
    | ⟨0, _⟩ => rfl
    | ⟨1, _⟩ => show i.val = 0 + 1 * i.val; omega
    | ⟨2, _⟩ => show 64 + d.val = 64 + 1 * d.val; omega
  rw [e]
  exact View.canon_cons_emb _ _ _ _

/-! ## Which point's block an element of an output array lies in -/

theorem mem_blk1_5 (t : Fin cfg1.N) (i : S8x16x1024x1024.Idx) :
    i ∈ ((cfg1.win 5).blk t).view.set ↔ ∀ a : Fin 4, win1_5.index t a * S1x2x256x1024.size a ≤ (i a).val
      ∧ (i a).val < win1_5.index t a * S1x2x256x1024.size a + S1x2x256x1024.size a := by
  show i ∈ ((View.whole main_v6_1).slice (win1_5.rect t)).set ↔ _
  rw [View.set_slice_whole, Rect.mem_set_unit]
  exact Iff.rfl

theorem mem_blk1_4 (t : Fin cfg1.N) (i : S8x1024x1024.Idx) :
    i ∈ ((cfg1.win 4).blk t).view.set ↔ ∀ a : Fin 3, win1_4.index t a * S1x256x128.size a ≤ (i a).val
      ∧ (i a).val < win1_4.index t a * S1x256x128.size a + S1x256x128.size a := by
  show i ∈ ((View.whole main_v6_0).slice (win1_4.rect t)).set ↔ _
  rw [View.set_slice_whole, Rect.mem_set_unit]
  exact Iff.rfl

/-- Every element of the weights array is written back: (b, h, i, ·) by the point of batch entry b, tile i / 256, pair h / 2. -/
theorem covered1_5 (i : S8x16x1024x1024.Idx) :
    ∃ t : Fin cfg1.N, (cfg1.win 5).flush t = true ∧ i ∈ ((cfg1.win 5).blk t).view.set := by
  have h0 : (i 0).val < 8 := (i 0).isLt
  have h1 : (i 1).val < 16 := (i 1).isLt
  have h2 : (i 2).val < 1024 := (i 2).isLt
  have h3 : (i 3).val < 1024 := (i 3).isLt
  obtain ⟨t, ht⟩ : ∃ t : Fin cfg1.N, t.val = ((i 0).val * 4 + (i 2).val / 256) * 8 + (i 1).val / 2 :=
    ⟨⟨((i 0).val * 4 + (i 2).val / 256) * 8 + (i 1).val / 2, by rw [show cfg1.N = 256 from N_1]; omega⟩, rfl⟩
  obtain ⟨-, -, -, -, -, ⟨e0, e1, e2, e3⟩⟩ := index_facts1 t
  refine ⟨t, flush1_5 t, ?_⟩
  rw [mem_blk1_5]
  intro a
  match a with
  | ⟨0, _⟩ =>
    show win1_5.index t (0 : Fin 4) * 1 ≤ (i 0).val ∧ (i 0).val < win1_5.index t (0 : Fin 4) * 1 + 1
    rw [e0, ht]; omega
  | ⟨1, _⟩ =>
    show win1_5.index t (1 : Fin 4) * 2 ≤ (i 1).val ∧ (i 1).val < win1_5.index t (1 : Fin 4) * 2 + 2
    rw [e1, ht]; omega
  | ⟨2, _⟩ =>
    show win1_5.index t (2 : Fin 4) * 256 ≤ (i 2).val ∧ (i 2).val < win1_5.index t (2 : Fin 4) * 256 + 256
    rw [e2, ht]; omega
  | ⟨3, _⟩ =>
    show win1_5.index t (3 : Fin 4) * 1024 ≤ (i 3).val ∧ (i 3).val < win1_5.index t (3 : Fin 4) * 1024 + 1024
    rw [e3]; omega

/-- Every element of the output array is written back: (b, l, f) by the point of batch entry b, tile l / 256, pair f / 128. -/
theorem covered1_4 (i : S8x1024x1024.Idx) :
    ∃ t : Fin cfg1.N, (cfg1.win 4).flush t = true ∧ i ∈ ((cfg1.win 4).blk t).view.set := by
  have h0 : (i 0).val < 8 := (i 0).isLt
  have h1 : (i 1).val < 1024 := (i 1).isLt
  have h2 : (i 2).val < 1024 := (i 2).isLt
  obtain ⟨t, ht⟩ : ∃ t : Fin cfg1.N, t.val = ((i 0).val * 4 + (i 1).val / 256) * 8 + (i 2).val / 128 :=
    ⟨⟨((i 0).val * 4 + (i 1).val / 256) * 8 + (i 2).val / 128, by rw [show cfg1.N = 256 from N_1]; omega⟩, rfl⟩
  obtain ⟨-, -, -, -, ⟨e0, e1, e2⟩, -⟩ := index_facts1 t
  refine ⟨t, flush1_4 t, ?_⟩
  rw [mem_blk1_4]
  intro a
  match a with
  | ⟨0, _⟩ =>
    show win1_4.index t (0 : Fin 3) * 1 ≤ (i 0).val ∧ (i 0).val < win1_4.index t (0 : Fin 3) * 1 + 1
    rw [e0, ht]; omega
  | ⟨1, _⟩ =>
    show win1_4.index t (1 : Fin 3) * 256 ≤ (i 1).val ∧ (i 1).val < win1_4.index t (1 : Fin 3) * 256 + 256
    rw [e1, ht]; omega
  | ⟨2, _⟩ =>
    show win1_4.index t (2 : Fin 3) * 128 ≤ (i 2).val ∧ (i 2).val < win1_4.index t (2 : Fin 3) * 128 + 128
    rw [e2, ht]; omega

end Cert.KernelIdeal.Hand

end
-- ==== Proof.KernelIdealPay1.lean ====
/-
  The attention body's stored values read at an index, at the exact extended reals.

  For a query block [1,256,128], a key block and a value block [1,1024,128] and a mask block [1,1,256,1024], and for
  each head e of the pair (columns e·64 … e·64+63 of the three blocks): the masked, scaled score of row i against key
  position j, the row's maximum from the word -inf, the exponentials of the differences, their sum and quotient, and the
  quotient's product with the value columns.  The two heads are the same text at column offsets 0 and 64; the common part
  is proved once over the two 64-column slices.
-/
import proofs.«113321_j206158430385_2_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Pay

open Idealize.ShloMosaic Idealize.ShloMosaic.ValueIdx
open Cert.KernelIdeal Cert.KernelIdeal.Gen

/-! ## Layout operations at an index: the keepdims column forms and the two leading unit axes -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

end Layout

/-! ## Pointwise operations the index vocabulary does not name -/

/-- The exponential at an index is the exponential of the element. -/
theorem exp_apply {s : Shape} {φ : FTy} (a : FVec Ideal s φ) (i : s.Idx) : exp a i = Ideal.exp (a i) := rfl
/-- A scalar literal at the extended reals is the value its word encodes. -/
theorem scalar_ofBits (φ : FTy) (b : BitVec φ.bits) : Scalar.ofBits (F := Ideal) φ b = Ideal.ofBits φ b := rfl

/-! ## The two lane reductions of a [256, 1024] tile -/

/-- The reduced index (i) with the lane j inserted is (i, j). -/
theorem lift_row (i : Fin 256) (j : Fin 1024) : reduces_S256x1024_S256.lift (ix1 i) j = ix2 i j :=
  funext fun a => Fin.ext (by match a with | ⟨0, _⟩ => rfl | ⟨1, _⟩ => rfl)

/-- The lane maximum from the word -inf: the fold of max over the row. -/
theorem rowMax_apply (src : FVec Ideal S256x1024 .f32) (hφ : FKind.Formats .f32)
    (hacc : (0xFF800000#32 : BitVec 32) = 0xFF800000#32) (i : Fin 256) :
    multiReduction .maximumf [1] S256 src 0xFF800000#32 reduces_S256x1024_S256 hφ hacc (ix1 i)
      = (Finset.univ : Finset (Fin 1024)).fold max (Ideal.ofBits .f32 0xFF800000#32) (fun j => src (ix2 i j)) := by
  refine (Ideal.multiReduction_maximumf_single src 0xFF800000#32 reduces_S256x1024_S256 hφ hacc (ix1 i)).trans ?_
  exact congrArg (fun f : Fin 1024 → EReal => (Finset.univ : Finset (Fin 1024)).fold max (Ideal.ofBits .f32 0xFF800000#32) f)
    (funext fun j => congrArg src (lift_row i j))

/-- The lane sum: the sum over the row. -/
theorem rowSum_apply (src : FVec Ideal S256x1024 .f32) (hφ : FKind.Formats .f32)
    (hacc : (0x00000000#32 : BitVec 32) = 0x00000000#32) (i : Fin 256) :
    multiReduction .add [1] S256 src 0x00000000#32 reduces_S256x1024_S256 hφ hacc (ix1 i)
      = ∑ j : Fin 1024, src (ix2 i j) := by
  refine (Ideal.multiReduction_add_single src 0x00000000#32 reduces_S256x1024_S256 hφ hacc (ix1 i)).trans ?_
  exact Finset.sum_congr rfl fun j _ => congrArg src (lift_row i j)

/-! ## The two matrix products of the body, read at an index -/

theorem qk_lhs_n (i : S256x1024.Idx) (q : dot_S256x64_S1024x64_S256x1024_1_1_0_0_n_n.contr.Idx) :
    (dot_S256x64_S1024x64_S256x1024_1_1_0_0_n_n.lhsIdx i q 0).val = (i 0).val := by
  unfold DotDims.lhsIdx
  rw [dif_neg (show ¬(0 : Fin S256x64.rank) ∈ dot_S256x64_S1024x64_S256x1024_1_1_0_0_n_n.lhsBatch by decide),
    dif_pos (show (0 : Fin S256x64.rank) ∈ dot_S256x64_S1024x64_S256x1024_1_1_0_0_n_n.lhsNonContracting by decide)]
  rfl
theorem qk_lhs_c (i : S256x1024.Idx) (q : dot_S256x64_S1024x64_S256x1024_1_1_0_0_n_n.contr.Idx) :
    (dot_S256x64_S1024x64_S256x1024_1_1_0_0_n_n.lhsIdx i q 1).val = (q ⟨0, by decide⟩).val :=
  dot_S256x64_S1024x64_S256x1024_1_1_0_0_n_n.lhsIdx_val_of_single rfl i q
theorem qk_rhs_n (i : S256x1024.Idx) (q : dot_S256x64_S1024x64_S256x1024_1_1_0_0_n_n.contr.Idx) :
    (dot_S256x64_S1024x64_S256x1024_1_1_0_0_n_n.rhsIdx i q 0).val = (i 1).val := by
  unfold DotDims.rhsIdx
  rw [dif_neg (show ¬(0 : Fin S1024x64.rank) ∈ dot_S256x64_S1024x64_S256x1024_1_1_0_0_n_n.rhsBatch by decide),
    dif_pos (show (0 : Fin S1024x64.rank) ∈ dot_S256x64_S1024x64_S256x1024_1_1_0_0_n_n.rhsNonContracting by decide)]
  rfl
theorem qk_rhs_c (i : S256x1024.Idx) (q : dot_S256x64_S1024x64_S256x1024_1_1_0_0_n_n.contr.Idx) :
    (dot_S256x64_S1024x64_S256x1024_1_1_0_0_n_n.rhsIdx i q 1).val = (q ⟨0, by decide⟩).val :=
  dot_S256x64_S1024x64_S256x1024_1_1_0_0_n_n.rhsIdx_val_of_single rfl i q

/-- The score product into a zero accumulator at (i, j): the sum over the 64 columns of q(i, ·) · k(j, ·) — the right
    operand is contracted along its columns, so the product is against the transpose. -/
theorem qk_apply (q : FVec Ideal S256x64 .bf16) (k : FVec Ideal S1024x64 .bf16) (i : Fin 256) (j : Fin 1024) :
    matmul dot_S256x64_S1024x64_S256x1024_1_1_0_0_n_n none q k (constant S256x1024 .f32 0x00000000#32) (ix2 i j)
      = ∑ d : Fin 64, q (ix2 i d) * k (ix2 j d) := by
  simp only [matmul]
  rw [Ideal.matmul_constant_zero_apply,
    ← Equiv.sum_comp (contrEquiv1 dot_S256x64_S1024x64_S256x1024_1_1_0_0_n_n 64 rfl rfl).symm]
  refine Finset.sum_congr rfl fun d _ => ?_
  have hd := contrEquiv1_symm_val dot_S256x64_S1024x64_S256x1024_1_1_0_0_n_n 64 rfl rfl d
  have el : dot_S256x64_S1024x64_S256x1024_1_1_0_0_n_n.lhsIdx (ix2 i j) ((contrEquiv1 dot_S256x64_S1024x64_S256x1024_1_1_0_0_n_n 64 rfl rfl).symm d) = ix2 i d :=
    funext fun a => Fin.ext (by
      match a with
      | ⟨0, _⟩ => exact qk_lhs_n _ _
      | ⟨1, _⟩ => exact (qk_lhs_c _ _).trans hd)
  have er : dot_S256x64_S1024x64_S256x1024_1_1_0_0_n_n.rhsIdx (ix2 i j) ((contrEquiv1 dot_S256x64_S1024x64_S256x1024_1_1_0_0_n_n 64 rfl rfl).symm d) = ix2 j d :=
    funext fun a => Fin.ext (by
      match a with
      | ⟨0, _⟩ => exact qk_rhs_n _ _
      | ⟨1, _⟩ => exact (qk_rhs_c _ _).trans hd)
  rw [el, er]

theorem pv_lhs_n (i : S256x64.Idx) (q : dot_S256x1024_S1024x64_S256x64_1_0_0_1_n_n.contr.Idx) :
    (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide),
    dif_pos (show (0 : Fin S256x1024.rank) ∈ dot_S256x1024_S1024x64_S256x64_1_0_0_1_n_n.lhsNonContracting by decide)]
  rfl
theorem pv_lhs_c (i : S256x64.Idx) (q : dot_S256x1024_S1024x64_S256x64_1_0_0_1_n_n.contr.Idx) :
    (dot_S256x1024_S1024x64_S256x64_1_0_0_1_n_n.lhsIdx i q 1).val = (q ⟨0, by decide⟩).val :=
  dot_S256x1024_S1024x64_S256x64_1_0_0_1_n_n.lhsIdx_val_of_single rfl i q
theorem pv_rhs_n (i : S256x64.Idx) (q : dot_S256x1024_S1024x64_S256x64_1_0_0_1_n_n.contr.Idx) :
    (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide),
    dif_pos (show (1 : Fin S1024x64.rank) ∈ dot_S256x1024_S1024x64_S256x64_1_0_0_1_n_n.rhsNonContracting by decide)]
  rfl
theorem pv_rhs_c (i : S256x64.Idx) (q : dot_S256x1024_S1024x64_S256x64_1_0_0_1_n_n.contr.Idx) :
    (dot_S256x1024_S1024x64_S256x64_1_0_0_1_n_n.rhsIdx i q 0).val = (q ⟨0, by decide⟩).val :=
  dot_S256x1024_S1024x64_S256x64_1_0_0_1_n_n.rhsIdx_val_of_single rfl i q

/-- The value product into a zero accumulator at (i, c): the sum over the 1024 key positions of p(i, ·) · v(·, c). -/
theorem pv_apply (p : FVec Ideal S256x1024 .bf16) (v : FVec Ideal S1024x64 .bf16) (i : Fin 256) (c : Fin 64) :
    matmul dot_S256x1024_S1024x64_S256x64_1_0_0_1_n_n none p v (constant S256x64 .f32 0x00000000#32) (ix2 i c)
      = ∑ j : Fin 1024, p (ix2 i j) * v (ix2 j c) := by
  simp only [matmul]
  rw [Ideal.matmul_constant_zero_apply,
    ← Equiv.sum_comp (contrEquiv1 dot_S256x1024_S1024x64_S256x64_1_0_0_1_n_n 1024 rfl rfl).symm]
  refine Finset.sum_congr rfl fun j _ => ?_
  have hj := contrEquiv1_symm_val dot_S256x1024_S1024x64_S256x64_1_0_0_1_n_n 1024 rfl rfl j
  have el : dot_S256x1024_S1024x64_S256x64_1_0_0_1_n_n.lhsIdx (ix2 i c) ((contrEquiv1 dot_S256x1024_S1024x64_S256x64_1_0_0_1_n_n 1024 rfl rfl).symm j) = ix2 i j :=
    funext fun a => Fin.ext (by
      match a with
      | ⟨0, _⟩ => exact pv_lhs_n _ _
      | ⟨1, _⟩ => exact (pv_lhs_c _ _).trans hj)
  have er : dot_S256x1024_S1024x64_S256x64_1_0_0_1_n_n.rhsIdx (ix2 i c) ((contrEquiv1 dot_S256x1024_S1024x64_S256x64_1_0_0_1_n_n 1024 rfl rfl).symm j) = ix2 j c :=
    funext fun a => Fin.ext (by
      match a with
      | ⟨0, _⟩ => exact (pv_rhs_c _ _).trans hj
      | ⟨1, _⟩ => exact pv_rhs_n _ _)
  rw [el, er]

/-! ## The common part of the two heads: from two 64-column slices and the mask to the attention weights -/

section Core
variable (q : FVec Ideal S256x64 .bf16) (k : FVec Ideal S1024x64 .bf16) (m : FVec Ideal S256x1024 .f32)

/-- The masked, scaled score: the mask times the scaled product, plus (1 - mask) times the large negative word. -/
def coreScore (i : Fin 256) (j : Fin 1024) : EReal :=
  m (ix2 i j) * ((∑ d : Fin 64, q (ix2 i d) * k (ix2 j d)) * Ideal.ofBits .f32 0x3E000000#32)
    + (Ideal.ofBits .f32 0x3F800000#32 - m (ix2 i j)) * Ideal.ofBits .f32 0xCE6E6B28#32
/-- The row's maximum from the word -inf. -/
def coreMax (i : Fin 256) : EReal :=
  (Finset.univ : Finset (Fin 1024)).fold max (Ideal.ofBits .f32 0xFF800000#32) (coreScore q k m i)
/-- The exponential of the score less the row's maximum. -/
def coreExp (i : Fin 256) (j : Fin 1024) : EReal := Ideal.exp (coreScore q k m i j - coreMax q k m i)
/-- The exponential over the row's sum of exponentials. -/
def coreAttn (i : Fin 256) (j : Fin 1024) : EReal := Ideal.div (coreExp q k m i j) (∑ j', coreExp q k m i j')

/-- The body's text from the score product to the quotient, over the two slices and the mask. -/
def corePay : FVec Ideal S256x1024 .f32 :=
  have cst : FVec Ideal S256x1024 .f32 := constant S256x1024 .f32 0x00000000#32
  have v11 : FVec Ideal S256x1024 .f32 := matmul dot_S256x64_S1024x64_S256x1024_1_1_0_0_n_n none q k cst
  have cst_12 : Ideal .f32 := Scalar.ofBits .f32 0x3E000000#32
  have v12 : FVec Ideal S256x1024 .f32 := broadcast S256x1024 cst_12
  have v13 : FVec Ideal S256x1024 .f32 := mulf v11 v12
  have v14 : FVec Ideal S256x1024 .f32 := mulf m v13
  have cst_13 : Ideal .f32 := Scalar.ofBits .f32 0x3F800000#32
  have v15 : FVec Ideal S256x1024 .f32 := broadcast S256x1024 cst_13
  have v16 : FVec Ideal S256x1024 .f32 := subf v15 m
  have cst_14 : Ideal .f32 := Scalar.ofBits .f32 0xCE6E6B28#32
  have v17 : FVec Ideal S256x1024 .f32 := broadcast S256x1024 cst_14
  have v18 : FVec Ideal S256x1024 .f32 := mulf v16 v17
  have v19 : FVec Ideal S256x1024 .f32 := addf v14 v18
  have v20 : FVec Ideal S256 .f32 := multiReduction .maximumf [1] S256 v19 0xFF800000#32 reduces_S256x1024_S256 (.inl rfl) rfl
  have v21 : FVec Ideal S256x1 .f32 := shapeCast S256x1 v20 shapeCasts_S256_S256x1
  have v22 : FVec Ideal S256x1024 .f32 := broadcastTo S256x1024 v21 broadcasts_S256x1_S256x1024
  have v23 : FVec Ideal S256x1024 .f32 := subf v19 v22
  have v24 : FVec Ideal S256x1024 .f32 := exp v23
  have v25 : FVec Ideal S256 .f32 := multiReduction .add [1] S256 v24 0x00000000#32 reduces_S256x1024_S256 (.inl rfl) rfl
  have v26 : FVec Ideal S256x1 .f32 := shapeCast S256x1 v25 shapeCasts_S256_S256x1
  have v27 : FVec Ideal S256x1024 .f32 := broadcastTo S256x1024 v26 broadcasts_S256x1_S256x1024
  have v28 : FVec Ideal S256x1024 .f32 := divf v24 v27
  v28

/-- That text at (i, j) is the attention weight. -/
theorem corePay_apply (i : Fin 256) (j : Fin 1024) : corePay q k m (ix2 i j) = coreAttn q k m i j := by
  unfold corePay coreAttn coreExp coreMax coreScore
  simp only [divf_apply, exp_apply, subf_apply, broadcastTo_a1_ab_apply, shapeCast_a_a1_apply]
  rw [rowSum_apply]
  simp only [exp_apply, subf_apply, broadcastTo_a1_ab_apply, shapeCast_a_a1_apply]
  rw [rowMax_apply]
  simp only [addf_apply, mulf_apply, subf_apply, broadcast_apply, scalar_ofBits, qk_apply]

end Core

/-! ## The tile: head e of the pair reads columns e·64 … e·64+63 of the three blocks -/

/-- Column d of head e in a 128-column block. -/
def col (e : Fin 2) (d : Fin 64) : Fin 128 := ⟨e.val * 64 + d.val, by have := e.isLt; have := d.isLt; omega⟩

theorem col_zero_val (d : Fin 64) : (col 0 d).val = 0 + d.val := by simp [col]
theorem col_one_val (d : Fin 64) : (col 1 d).val = 64 + d.val := by simp [col]
/-- Head 0's columns are the block's first 64 … -/
theorem col_zero (d : Fin 64) : col 0 d = ⟨d.val, by have := d.isLt; omega⟩ := Fin.ext (by simp [col])
/-- … and head 1's the last 64. -/
theorem col_one (d : Fin 64) : col 1 d = ⟨64 + d.val, by have := d.isLt; omega⟩ := Fin.ext (by simp [col])

section Tile
variable (qb : Vec Ideal S1x256x128 .bf16) (kb : Vec Ideal S1x1024x128 .bf16) (mb : Vec Ideal S1x1x256x1024 .f32)

/-- The masked, scaled score of row i of the query block against key position j, for head e. -/
def tileScore (e : Fin 2) (i : Fin 256) (j : Fin 1024) : EReal :=
  mb (ix4 (0 : Fin 1) (0 : Fin 1) i j)
      * ((∑ d : Fin 64, qb (ix3 (0 : Fin 1) i (col e d)) * kb (ix3 (0 : Fin 1) j (col e d))) * Ideal.ofBits .f32 0x3E000000#32)
    + (Ideal.ofBits .f32 0x3F800000#32 - mb (ix4 (0 : Fin 1) (0 : Fin 1) i j)) * Ideal.ofBits .f32 0xCE6E6B28#32
/-- The row's maximum over the 1024 key positions, from the word -inf. -/
def tileMax (e : Fin 2) (i : Fin 256) : EReal :=
  (Finset.univ : Finset (Fin 1024)).fold max (Ideal.ofBits .f32 0xFF800000#32) (tileScore qb kb mb e i)
/-- The exponential of the score less the row's maximum. -/
def tileExp (e : Fin 2) (i : Fin 256) (j : Fin 1024) : EReal := Ideal.exp (tileScore qb kb mb e i j - tileMax qb kb mb e i)
/-- The attention weight: the exponential over the row's sum of exponentials. -/
def tileAttn (e : Fin 2) (i : Fin 256) (j : Fin 1024) : EReal :=
  Ideal.div (tileExp qb kb mb e i j) (∑ j', tileExp qb kb mb e i j')

/-- The query block's slice for head 0 at (i, d). -/
theorem q0_apply (i : Fin 256) (d : Fin 64) :
    extractStridedSlice S256x64 ![0, 0] (k1_pay5 qb) slices_S256x128_o0_0_S256x64 (ix2 i d) = qb (ix3 (0 : Fin 1) i (col 0 d)) :=
  (slice2_axis1_apply 0 (k1_pay5 qb) slices_S256x128_o0_0_S256x64 i d (col 0 d) (col_zero_val d)).trans
    (shapeCast_1ab_ab_apply qb shapeCasts_S1x256x128_S256x128 i (col 0 d))
/-- The query block's slice for head 1 at (i, d). -/
theorem q1_apply (i : Fin 256) (d : Fin 64) :
    extractStridedSlice S256x64 ![0, 64] (k1_pay5 qb) slices_S256x128_o0_64_S256x64 (ix2 i d) = qb (ix3 (0 : Fin 1) i (col 1 d)) :=
  (slice2_axis1_apply 64 (k1_pay5 qb) slices_S256x128_o0_64_S256x64 i d (col 1 d) (col_one_val d)).trans
    (shapeCast_1ab_ab_apply qb shapeCasts_S1x256x128_S256x128 i (col 1 d))
/-- The key block's slice for head 0 at (j, d). -/
theorem k0_apply (j : Fin 1024) (d : Fin 64) :
    extractStridedSlice S1024x64 ![0, 0] (k1_pay6 kb) slices_S1024x128_o0_0_S1024x64 (ix2 j d) = kb (ix3 (0 : Fin 1) j (col 0 d)) :=
  (slice2_axis1_apply 0 (k1_pay6 kb) slices_S1024x128_o0_0_S1024x64 j d (col 0 d) (col_zero_val d)).trans
    (shapeCast_1ab_ab_apply kb shapeCasts_S1x1024x128_S1024x128 j (col 0 d))
/-- The key block's slice for head 1 at (j, d). -/
theorem k1_apply (j : Fin 1024) (d : Fin 64) :
    extractStridedSlice S1024x64 ![0, 64] (k1_pay6 kb) slices_S1024x128_o0_64_S1024x64 (ix2 j d) = kb (ix3 (0 : Fin 1) j (col 1 d)) :=
  (slice2_axis1_apply 64 (k1_pay6 kb) slices_S1024x128_o0_64_S1024x64 j d (col 1 d) (col_one_val d)).trans
    (shapeCast_1ab_ab_apply kb shapeCasts_S1x1024x128_S1024x128 j (col 1 d))
/-- The mask block without its two unit axes at (i, j). -/
theorem mask_apply (i : Fin 256) (j : Fin 1024) : k1_pay8 mb (ix2 i j) = mb (ix4 (0 : Fin 1) (0 : Fin 1) i j) :=
  shapeCast_11ab_ab_apply mb shapeCasts_S1x1x256x1024_S256x1024 i j

/-- Head 0's quotient is the common text over the offset-0 slices. -/
theorem pay10_eq_core : k1_pay10 (F := Ideal) qb kb mb
    = corePay (extractStridedSlice S256x64 ![0, 0] (k1_pay5 qb) slices_S256x128_o0_0_S256x64)
        (extractStridedSlice S1024x64 ![0, 0] (k1_pay6 kb) slices_S1024x128_o0_0_S1024x64) (k1_pay8 mb) := rfl
/-- Head 1's quotient is the common text over the offset-64 slices. -/
theorem pay2_eq_core : k1_pay2 (F := Ideal) (k1_pay5 qb) (k1_pay6 kb) (k1_pay8 mb)
    = corePay (extractStridedSlice S256x64 ![0, 64] (k1_pay5 qb) slices_S256x128_o0_64_S256x64)
        (extractStridedSlice S1024x64 ![0, 64] (k1_pay6 kb) slices_S1024x128_o0_64_S1024x64) (k1_pay8 mb) := rfl

/-- Head 0's quotient at (i, j) is the attention weight of head 0. -/
theorem pay10_apply (i : Fin 256) (j : Fin 1024) : k1_pay10 (F := Ideal) qb kb mb (ix2 i j) = tileAttn qb kb mb 0 i j := by
  rw [pay10_eq_core, corePay_apply]
  unfold coreAttn coreExp coreMax coreScore tileAttn tileExp tileMax tileScore
  simp only [q0_apply, k0_apply, mask_apply]
/-- Head 1's quotient at (i, j) is the attention weight of head 1. -/
theorem pay2_apply (i : Fin 256) (j : Fin 1024) :
    k1_pay2 (F := Ideal) (k1_pay5 qb) (k1_pay6 kb) (k1_pay8 mb) (ix2 i j) = tileAttn qb kb mb 1 i j := by
  rw [pay2_eq_core, corePay_apply]
  unfold coreAttn coreExp coreMax coreScore tileAttn tileExp tileMax tileScore
  simp only [q1_apply, k1_apply, mask_apply]

/-- The stored weights of head 0, with the two unit axes back, at (0, 0, i, j). -/
theorem k1_pay11_apply (i : Fin 256) (j : Fin 1024) :
    k1_pay11 (F := Ideal) qb kb mb (ix4 (0 : Fin 1) (0 : Fin 1) i j) = tileAttn qb kb mb 0 i j :=
  (shapeCast_ab_11ab_apply (k1_pay10 (F := Ideal) qb kb mb) shapeCasts_S256x1024_S1x1x256x1024 0 0 i j).trans (pay10_apply qb kb mb i j)
/-- The stored weights of head 1 at (0, 0, i, j). -/
theorem k1_pay3_apply (i : Fin 256) (j : Fin 1024) :
    k1_pay3 (F := Ideal) (k1_pay5 qb) (k1_pay6 kb) (k1_pay8 mb) (ix4 (0 : Fin 1) (0 : Fin 1) i j) = tileAttn qb kb mb 1 i j :=
  (shapeCast_ab_11ab_apply (k1_pay2 (F := Ideal) (k1_pay5 qb) (k1_pay6 kb) (k1_pay8 mb)) shapeCasts_S256x1024_S1x1x256x1024 0 0 i j).trans
    (pay2_apply qb kb mb i j)

end Tile

/-! ## Each head's output: the weights times the head's value columns -/

/-- The body's text from the weights to the stored output: the weights' product with the value columns, with the
    leading unit axis back, at (0, i, d). -/
theorem headOut_apply (p : FVec Ideal S256x1024 .f32) (v : FVec Ideal S1024x64 .bf16) (i : Fin 256) (d : Fin 64) :
    shapeCast S1x256x64
        (truncf .bf16
          (matmul dot_S256x1024_S1024x64_S256x64_1_0_0_1_n_n none (truncf .bf16 p bitsLt_bf16_f32) v
            (constant S256x64 .f32 0x00000000#32)) bitsLt_bf16_f32)
        shapeCasts_S256x64_S1x256x64 (ix3 (0 : Fin 1) i d)
      = ∑ j : Fin 1024, p (ix2 i j) * v (ix2 j d) :=
  (shapeCast_ab_1ab_apply _ shapeCasts_S256x64_S1x256x64 (0 : Fin 1) i d).trans
    (pv_apply (truncf .bf16 p bitsLt_bf16_f32) v i d)

section Out
variable (qb : Vec Ideal S1x256x128 .bf16) (kb : Vec Ideal S1x1024x128 .bf16) (vb : Vec Ideal S1x1024x128 .bf16)
  (mb : Vec Ideal S1x1x256x1024 .f32)

/-- The value block's slice for head 0 at (j, d). -/
theorem v0_apply (j : Fin 1024) (d : Fin 64) : k1_pay9 vb (ix2 j d) = vb (ix3 (0 : Fin 1) j (col 0 d)) :=
  (slice2_axis1_apply 0 (k1_pay7 vb) slices_S1024x128_o0_0_S1024x64 j d (col 0 d) (col_zero_val d)).trans
    (shapeCast_1ab_ab_apply vb shapeCasts_S1x1024x128_S1024x128 j (col 0 d))
/-- The value block's slice for head 1 at (j, d). -/
theorem v1_apply (j : Fin 1024) (d : Fin 64) :
    extractStridedSlice S1024x64 ![0, 64] (k1_pay7 vb) slices_S1024x128_o0_64_S1024x64 (ix2 j d) = vb (ix3 (0 : Fin 1) j (col 1 d)) :=
  (slice2_axis1_apply 64 (k1_pay7 vb) slices_S1024x128_o0_64_S1024x64 j d (col 1 d) (col_one_val d)).trans
    (shapeCast_1ab_ab_apply vb shapeCasts_S1x1024x128_S1024x128 j (col 1 d))

/-- Head 0's stored output is the same text over head 0's weights and the offset-0 value slice. -/
theorem pay1_eq (v10 : FVec Ideal S1024x64 .bf16) :
    k1_pay1 (F := Ideal) v10 (k1_pay12 (F := Ideal) qb kb mb)
      = shapeCast S1x256x64
          (truncf .bf16
            (matmul dot_S256x1024_S1024x64_S256x64_1_0_0_1_n_n none (truncf .bf16 (k1_pay10 (F := Ideal) qb kb mb) bitsLt_bf16_f32)
              v10 (constant S256x64 .f32 0x00000000#32)) bitsLt_bf16_f32)
          shapeCasts_S256x64_S1x256x64 := rfl

/-- Head 0's stored output at (0, i, d): the weights of head 0 times the value block's columns 0 … 63. -/
theorem k1_pay1_apply (i : Fin 256) (d : Fin 64) :
    k1_pay1 (F := Ideal) (k1_pay9 vb) (k1_pay12 qb kb mb) (ix3 (0 : Fin 1) i d)
      = ∑ j : Fin 1024, tileAttn qb kb mb 0 i j * vb (ix3 (0 : Fin 1) j (col 0 d)) := by
  rw [pay1_eq, headOut_apply]
  refine Finset.sum_congr rfl fun j _ => ?_
  rw [pay10_apply, v0_apply]

/-- Head 1's stored output is the same text over head 1's weights and the offset-64 value slice. -/
theorem pay4_eq (v1 : FVec Ideal S256x128 .bf16) (v3 : FVec Ideal S1024x128 .bf16) (v5 : FVec Ideal S1024x128 .bf16)
    (v7 : FVec Ideal S256x1024 .f32) :
    k1_pay4 (F := Ideal) v1 v3 v5 v7
      = shapeCast S1x256x64
          (truncf .bf16
            (matmul dot_S256x1024_S1024x64_S256x64_1_0_0_1_n_n none (truncf .bf16 (k1_pay2 (F := Ideal) v1 v3 v7) bitsLt_bf16_f32)
              (extractStridedSlice S1024x64 ![0, 64] v5 slices_S1024x128_o0_64_S1024x64)
              (constant S256x64 .f32 0x00000000#32)) bitsLt_bf16_f32)
          shapeCasts_S256x64_S1x256x64 := rfl

/-- Head 1's stored output at (0, i, d): the weights of head 1 times the value block's columns 64 … 127. -/
theorem k1_pay4_apply (i : Fin 256) (d : Fin 64) :
    k1_pay4 (F := Ideal) (k1_pay5 qb) (k1_pay6 kb) (k1_pay7 vb) (k1_pay8 mb) (ix3 (0 : Fin 1) i d)
      = ∑ j : Fin 1024, tileAttn qb kb mb 1 i j * vb (ix3 (0 : Fin 1) j (col 1 d)) := by
  rw [pay4_eq, headOut_apply]
  refine Finset.sum_congr rfl fun j _ => ?_
  rw [pay2_apply, v1_apply]

end Out

end Cert.KernelIdeal.Pay

end
-- ==== Proof.SpecLaws.lean ====
/-
  The law joining the two forms of the layer norm's last step: for real γ and dev and a positive real y = var + ε,
  γ · (dev · rsqrt y) = (γ · dev) / √y, both sides being the real γ · dev / √y. Hence the two forms of the
  specification's first result agree at every index where γ, the deviation and the variance are real and
  var + ε is positive.
-/
import proofs.«113321_j206158430385_2_alg».proof.Proof.Spec

noncomputable section

namespace Cert.Spec

open Idealize.ShloMosaic Idealize.ShloMosaic.ValueIdx

/-- At a positive real the reciprocal square root is the real 1 / √y … -/
theorem rsqrt_pos_coe (y : ℝ) (hy : 0 < y) : Ideal.rsqrt (y : EReal) = (((Real.sqrt y)⁻¹ : ℝ) : EReal) := by
  rw [Ideal.rsqrt_coe, if_neg (not_lt.mpr hy.le), if_neg hy.ne']

/-- … and the square root the real √y. -/
theorem sqrt_pos_coe (y : ℝ) (hy : 0 < y) : Ideal.sqrt (y : EReal) = ((Real.sqrt y : ℝ) : EReal) := by
  rw [Ideal.sqrt_coe, if_neg (not_lt.mpr hy.le)]

/-- γ · (dev · rsqrt y) = (γ · dev) / √y for real γ, dev and real y > 0. -/
theorem rsqrt_law (g d y : ℝ) (hy : 0 < y) :
    (g : EReal) * ((d : EReal) * Ideal.rsqrt (y : EReal))
      = Ideal.div ((g : EReal) * (d : EReal)) (Ideal.sqrt (y : EReal)) := by
  have hs : Real.sqrt y ≠ 0 := (Real.sqrt_pos.mpr hy).ne'
  rw [rsqrt_pos_coe y hy, sqrt_pos_coe y hy, Ideal.div_coe hs, one_div, ← EReal.coe_mul, ← EReal.coe_mul,
    ← EReal.coe_mul, ← EReal.coe_mul, mul_assoc]

/-- The same with the operands given as extended reals known to be real. -/
theorem rsqrt_law' {g d y : EReal} {g' d' y' : ℝ} (hg : g = (g' : EReal)) (hd : d = (d' : EReal)) (hy : y = (y' : EReal))
    (hpos : 0 < y') : g * (d * Ideal.rsqrt y) = Ideal.div (g * d) (Ideal.sqrt y) := by
  subst hg hd hy; exact rsqrt_law g' d' y' hpos

end Cert.Spec

end
-- ==== Proof.SpecReal.lean ====
/-
  Under real-valued inputs every stage of the specification is a real number: sums, products and differences of
  reals are real; a quotient of reals by a non-zero real is real (the scale 8 and the width 1024 are non-zero); a
  row's maximum from −∞ over its 1024 real scores is real; the exponentials are positive reals, so the row's sum of
  them is a positive real and the attention weights are real; a row's variance is a non-negative real and ε is
  positive, so var + ε is a positive real. Hence the layer norm's last step written with the reciprocal square root
  equals the one written with the quotient by the square root, at every index.
-/
import proofs.«113321_j206158430385_2_alg».proof.Proof.Spec
import proofs.«113321_j206158430385_2_alg».proof.Proof.SpecLaws

noncomputable section

open scoped BigOperators

namespace Cert.Spec

open Idealize.ShloMosaic Idealize.ShloMosaic.ValueIdx

/-! ## The float literals as extended reals -/

/-- The scale's word is 8. -/
theorem eight_eq : Ideal.ofBits .f32 0x41000000#32 = ((8 : ℝ) : EReal) := by
  simp [Ideal.ofBits, Ideal.ieee, -EReal.coe_mul]; norm_num
/-- The word of 1. -/
theorem one_eq : Ideal.ofBits .f32 0x3F800000#32 = ((1 : ℝ) : EReal) := by
  simp [Ideal.ofBits, Ideal.ieee, -EReal.coe_mul]; norm_num
/-- The width's word is 1024. -/
theorem width_eq : Ideal.ofBits .f32 0x44800000#32 = ((1024 : ℝ) : EReal) := by
  simp [Ideal.ofBits, Ideal.ieee, -EReal.coe_mul]; norm_num
/-- The masked-out score's word is −10⁹. -/
theorem negBig_eq : Ideal.ofBits .f32 0xCE6E6B28#32 = ((-1000000000 : ℝ) : EReal) := by
  simp [Ideal.ofBits, Ideal.ieee, -EReal.coe_mul]; norm_num
/-- The maximum's starting word is −∞. -/
theorem negInf_eq : Ideal.ofBits .f32 0xFF800000#32 = ⊥ := by
  simp [Ideal.ofBits, Ideal.ieee]
/-- ε's word is 10995116 · 2⁻⁴⁰, a positive real. -/
theorem eps_eq : Ideal.ofBits .f32 0x3727C5AC#32 = ((10995116 / 1099511627776 : ℝ) : EReal) := by
  simp [Ideal.ofBits, Ideal.ieee, -EReal.coe_mul]; norm_num

/-! ## Real numbers inside the extended reals -/

/-- An extended real that is a real number … -/
def IsReal (a : EReal) : Prop := ∃ r : ℝ, a = (r : EReal)
/-- … and one that is a positive real number. -/
def IsPos (a : EReal) : Prop := ∃ r : ℝ, 0 < r ∧ a = (r : EReal)

theorem IsPos.isReal {a : EReal} (h : IsPos a) : IsReal a := let ⟨r, _, hr⟩ := h; ⟨r, hr⟩

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A quotient of a real by a non-zero real is real. -/
theorem IsReal.div {a y : EReal} (ha : IsReal a) {r : ℝ} (hy : y = (r : EReal)) (hr : r ≠ 0) : IsReal (Ideal.div a y) := by
  obtain ⟨s, rfl⟩ := ha; subst hy
  rw [Ideal.div_coe hr]; exact ⟨s * (1 / r), (EReal.coe_mul _ _).symm⟩

/-- A finite sum of reals, read inside the extended reals, is the real sum. -/
theorem coe_sum {n : ℕ} (s : Finset (Fin n)) (g : Fin n → ℝ) :
    (∑ k ∈ s, (g k : EReal)) = ((∑ k ∈ s, g k : ℝ) : EReal) := by
  classical
  refine Finset.induction_on s (by simp) ?_
  intro a s ha ih
  rw [Finset.sum_insert ha, Finset.sum_insert ha, ih, EReal.coe_add]

theorem IsReal.sum {n : ℕ} {f : Fin n → EReal} (h : ∀ k, IsReal (f k)) : IsReal (∑ k, f k) := by
  choose g hg using (fun k => (h k : ∃ r : ℝ, f k = (r : EReal)))
  exact ⟨∑ k, g k, by rw [← coe_sum]; exact Finset.sum_congr rfl fun k _ => hg k⟩

/-- A sum of positive reals over a non-empty range is a positive real. -/
theorem IsPos.sum {n : ℕ} (hn : 0 < n) {f : Fin n → EReal} (h : ∀ k, IsPos (f k)) : IsPos (∑ k, f k) := by
  choose g hg0 hg using (fun k => (h k : ∃ r : ℝ, 0 < r ∧ f k = (r : EReal)))
  haveI : Nonempty (Fin n) := ⟨⟨0, hn⟩⟩
  exact ⟨∑ k, g k, Finset.sum_pos (fun k _ => hg0 k) Finset.univ_nonempty,
    by rw [← coe_sum]; exact Finset.sum_congr rfl fun k _ => hg k⟩

/-- The maximum, taken from −∞, of a non-empty range of reals is real. -/
theorem isReal_fold_max {n : ℕ} (hn : 0 < n) {f : Fin n → EReal} (h : ∀ k, IsReal (f k)) :
    IsReal ((Finset.univ : Finset (Fin n)).fold max ⊥ f) := by
  have h1 : (Finset.univ : Finset (Fin n)).fold max ⊥ f < ⊤ :=
    (Finset.fold_max_lt _).mpr ⟨bot_lt_top, fun k _ => by
      obtain ⟨r, hr⟩ := h k; rw [hr]; exact EReal.coe_lt_top r⟩
  have h2 : ⊥ < (Finset.univ : Finset (Fin n)).fold max ⊥ f :=
    (Finset.lt_fold_max _).mpr (Or.inr ⟨⟨0, hn⟩, Finset.mem_univ _, by
      obtain ⟨r, hr⟩ := h ⟨0, hn⟩; rw [hr]; exact EReal.bot_lt_coe r⟩)
  exact ⟨_, (EReal.coe_toReal h1.ne h2.ne').symm⟩

/-! ## The stages under real-valued inputs -/

/-- All eight argument arrays are real-valued. -/
structure RealInputs (x : FVec Ideal SAct .f32) (mask : FVec Ideal SMask .f32) (Wqkv : FVec Ideal SWqkv .f32)
    (bqkv : FVec Ideal SBqkv .f32) (Wp : FVec Ideal SWp .f32) (bp γ β : FVec Ideal SChan .f32) : Prop where
  x : ∀ i, IsReal (x i)
  mask : ∀ i, IsReal (mask i)
  Wqkv : ∀ i, IsReal (Wqkv i)
  bqkv : ∀ i, IsReal (bqkv i)
  Wp : ∀ i, IsReal (Wp i)
  bp : ∀ i, IsReal (bp i)
  γ : ∀ i, IsReal (γ i)
  β : ∀ i, IsReal (β i)

section Chain

variable {x : FVec Ideal SAct .f32} {mask : FVec Ideal SMask .f32} {Wqkv : FVec Ideal SWqkv .f32}
  {bqkv : FVec Ideal SBqkv .f32} {Wp : FVec Ideal SWp .f32} {bp γ β : FVec Ideal SChan .f32}

theorem qkv_real (H : RealInputs x mask Wqkv bqkv Wp bp γ β) (b : Fin 8) (l : Fin 1024) (f : Fin 3072) :
    IsReal (qkv x Wqkv bqkv b l f) := by
  unfold qkv
  exact (IsReal.sum fun d => (H.x _).mul (H.Wqkv _)).add (H.bqkv _)

theorem q_real (H : RealInputs x mask Wqkv bqkv Wp bp γ β) (b : Fin 8) (h : Fin 16) (i : Fin 1024) (d : Fin 64) :
    IsReal (q x Wqkv bqkv b h i d) := by unfold q; exact qkv_real H _ _ _
theorem k_real (H : RealInputs x mask Wqkv bqkv Wp bp γ β) (b : Fin 8) (h : Fin 16) (j : Fin 1024) (d : Fin 64) :
    IsReal (k x Wqkv bqkv b h j d) := by unfold k; exact qkv_real H _ _ _
theorem v_real (H : RealInputs x mask Wqkv bqkv Wp bp γ β) (b : Fin 8) (h : Fin 16) (j : Fin 1024) (d : Fin 64) :
    IsReal (v x Wqkv bqkv b h j d) := by unfold v; exact qkv_real H _ _ _

theorem scores_real (H : RealInputs x mask Wqkv bqkv Wp bp γ β) (b : Fin 8) (h : Fin 16) (i j : Fin 1024) :
    IsReal (scores x mask Wqkv bqkv b h i j) := by
  unfold scores
  have hdot : IsReal (∑ d : Fin 64, q x Wqkv bqkv b h i d * k x Wqkv bqkv b h j d) :=
    IsReal.sum fun d => (q_real H b h i d).mul (k_real H b h j d)
  have hone : IsReal (Ideal.ofBits .f32 0x3F800000#32) := ⟨1, one_eq⟩
  have hbig : IsReal (Ideal.ofBits .f32 0xCE6E6B28#32) := ⟨_, negBig_eq⟩
  exact ((H.mask _).mul (hdot.div eight_eq (by norm_num))).add ((hone.sub (H.mask _)).mul hbig)

theorem rowMax_real (H : RealInputs x mask Wqkv bqkv Wp bp γ β) (b : Fin 8) (h : Fin 16) (i : Fin 1024) :
    IsReal (rowMax x mask Wqkv bqkv b h i) := by
  unfold rowMax
  rw [negInf_eq]
  exact isReal_fold_max (by decide) fun j => scores_real H b h i j

theorem expo_pos (H : RealInputs x mask Wqkv bqkv Wp bp γ β) (b : Fin 8) (h : Fin 16) (i j : Fin 1024) :
    IsPos (expo x mask Wqkv bqkv b h i j) := by
  unfold expo
  obtain ⟨r, hr⟩ := (scores_real H b h i j).sub (rowMax_real H b h i)
  rw [hr]
  exact ⟨Real.exp r, Real.exp_pos r, rfl⟩

theorem attn_real (H : RealInputs x mask Wqkv bqkv Wp bp γ β) (b : Fin 8) (h : Fin 16) (i j : Fin 1024) :
    IsReal (attn x mask Wqkv bqkv b h i j) := by
  unfold attn
  obtain ⟨s, hs, hsum⟩ := IsPos.sum (by decide : 0 < 1024) fun j' => expo_pos H b h i j'
  exact (expo_pos H b h i j).isReal.div hsum hs.ne'

theorem headOut_real (H : RealInputs x mask Wqkv bqkv Wp bp γ β) (b : Fin 8) (i : Fin 1024) (h : Fin 16) (d : Fin 64) :
    IsReal (headOut x mask Wqkv bqkv b i h d) := by
  unfold headOut
  exact IsReal.sum fun j => (attn_real H b h i j).mul (v_real H b h j d)

theorem merged_real (H : RealInputs x mask Wqkv bqkv Wp bp γ β) (b : Fin 8) (l f : Fin 1024) :
    IsReal (merged x mask Wqkv bqkv b l f) := by unfold merged; exact headOut_real H _ _ _ _

theorem proj_real (H : RealInputs x mask Wqkv bqkv Wp bp γ β) (b : Fin 8) (l n : Fin 1024) :
    IsReal (proj x mask Wqkv bqkv Wp bp b l n) := by
  unfold proj
  exact ((IsReal.sum fun f => (merged_real H b l f).mul (H.Wp _)).add (H.bp _)).add (H.x _)

theorem mean_real (H : RealInputs x mask Wqkv bqkv Wp bp γ β) (b : Fin 8) (l : Fin 1024) :
    IsReal (mean x mask Wqkv bqkv Wp bp b l) := by
  unfold mean
  exact (IsReal.sum fun n => proj_real H b l n).div width_eq (by norm_num)

theorem dev_real (H : RealInputs x mask Wqkv bqkv Wp bp γ β) (b : Fin 8) (l n : Fin 1024) :
    IsReal (dev x mask Wqkv bqkv Wp bp b l n) := by
  unfold dev
  exact (proj_real H b l n).sub (mean_real H b l)

/-- The variance is a non-negative real and ε is positive: var + ε is a positive real. -/
theorem var_eps_pos (H : RealInputs x mask Wqkv bqkv Wp bp γ β) (b : Fin 8) (l : Fin 1024) :
    IsPos (var x mask Wqkv bqkv Wp bp b l + Ideal.ofBits .f32 0x3727C5AC#32) := by
  unfold var
  choose d hd using (fun n => (dev_real H b l n : ∃ r : ℝ, dev x mask Wqkv bqkv Wp bp b l n = (r : EReal)))
  have hs : (∑ n : Fin 1024, dev x mask Wqkv bqkv Wp bp b l n * dev x mask Wqkv bqkv Wp bp b l n)
      = ((∑ n : Fin 1024, d n * d n : ℝ) : EReal) := by
    rw [← coe_sum]; exact Finset.sum_congr rfl fun n _ => by rw [hd n, EReal.coe_mul]
  have h0 : 0 ≤ ∑ n : Fin 1024, d n * d n := Finset.sum_nonneg fun n _ => mul_self_nonneg (d n)
  rw [hs, width_eq, Ideal.div_coe (by norm_num : (1024 : ℝ) ≠ 0), eps_eq, ← EReal.coe_mul, ← EReal.coe_add]
  exact ⟨_, add_pos_of_nonneg_of_pos (mul_nonneg h0 (by norm_num)) (by norm_num), rfl⟩

/-- The layer norm's last step: the product by the reciprocal square root is the quotient by the square root. -/
theorem normRsqrt_eq_normQuot (H : RealInputs x mask Wqkv bqkv Wp bp γ β) (b : Fin 8) (l n : Fin 1024) :
    normRsqrt x mask Wqkv bqkv Wp bp γ β b l n = normQuot x mask Wqkv bqkv Wp bp γ β b l n := by
  unfold normRsqrt normQuot
  obtain ⟨g, hg⟩ := H.γ (ix1 n)
  obtain ⟨d, hd⟩ := dev_real H b l n
  obtain ⟨y, hy0, hy⟩ := var_eps_pos H b l
  rw [rsqrt_law' hg hd hy hy0]

end Chain

/-- THE TWO FORMS OF THE FIRST RESULT AGREE when all eight argument arrays are real-valued. -/
theorem outRsqrt_eq_outQuot (x : FVec Ideal SAct .f32) (mask : FVec Ideal SMask .f32) (Wqkv : FVec Ideal SWqkv .f32)
    (bqkv : FVec Ideal SBqkv .f32) (Wp : FVec Ideal SWp .f32) (bp γ β : FVec Ideal SChan .f32)
    (hx : ∀ i, ∃ r : ℝ, x i = (r : EReal)) (hmask : ∀ i, ∃ r : ℝ, mask i = (r : EReal))
    (hWqkv : ∀ i, ∃ r : ℝ, Wqkv i = (r : EReal)) (hbqkv : ∀ i, ∃ r : ℝ, bqkv i = (r : EReal))
    (hWp : ∀ i, ∃ r : ℝ, Wp i = (r : EReal)) (hbp : ∀ i, ∃ r : ℝ, bp i = (r : EReal))
    (hγ : ∀ i, ∃ r : ℝ, γ i = (r : EReal)) (hβ : ∀ i, ∃ r : ℝ, β i = (r : EReal)) :
    outRsqrt x mask Wqkv bqkv Wp bp γ β = outQuot x mask Wqkv bqkv Wp bp γ β :=
  funext fun idx =>
    normRsqrt_eq_normQuot (⟨hx, hmask, hWqkv, hbqkv, hWp, hbp, hγ, hβ⟩ : RealInputs x mask Wqkv bqkv Wp bp γ β)
      (idx 0) (idx 1) (idx 2)

end Cert.Spec

end
-- ==== Proof.AttnCore.lean ====
/-
  The attention stages over a fused projection Q(batch, position, fused column) and a mask Mk(batch, query, key)
  given as functions, with the scale written as a PRODUCT by 1/8 (the word 0x3E000000) where the specification has
  the quotient by 8 (the word 0x41000000). For every extended real y, y · (1/8) = y / 8; so, when Q is the
  specification's fused projection and Mk its mask, these stages are the specification's.
-/
import proofs.«113321_j206158430385_2_alg».proof.Proof.Spec
import proofs.«113321_j206158430385_2_alg».proof.Proof.SpecReal

noncomputable section

open scoped BigOperators

namespace Cert.Spec

open Idealize.ShloMosaic Idealize.ShloMosaic.ValueIdx

/-- The word 0x3E000000 is 1/8. -/
theorem eighth_eq : Ideal.ofBits .f32 0x3E000000#32 = ((1 / 8 : ℝ) : EReal) := by
  simp [Ideal.ofBits, Ideal.ieee, -EReal.coe_mul]; norm_num

/-- The product by 1/8 is the quotient by 8, at every extended real. -/
theorem mul_eighth (y : EReal) :
    y * Ideal.ofBits .f32 0x3E000000#32 = Ideal.div y (Ideal.ofBits .f32 0x41000000#32) := by
  rw [eight_eq, Ideal.div_coe (by norm_num : (8 : ℝ) ≠ 0), eighth_eq]

section Core

variable (Q : Fin 8 → Fin 1024 → Fin 3072 → EReal) (Mk : Fin 8 → Fin 1024 → Fin 1024 → EReal)

/-- The masked scores, scaled by the product with 1/8. -/
def cScore (b : Fin 8) (h : Fin 16) (i j : Fin 1024) : EReal :=
  Mk b i j * ((∑ d : Fin 64, Q b i (qCol (headCol h d)) * Q b j (kCol (headCol h d))) * Ideal.ofBits .f32 0x3E000000#32)
    + (Ideal.ofBits .f32 0x3F800000#32 - Mk b i j) * Ideal.ofBits .f32 0xCE6E6B28#32

/-- A row's maximum, taken from −∞. -/
def cMax (b : Fin 8) (h : Fin 16) (i : Fin 1024) : EReal :=
  (Finset.univ : Finset (Fin 1024)).fold max (Ideal.ofBits .f32 0xFF800000#32) (cScore Q Mk b h i)

/-- exp(score − the row's maximum). -/
def cExp (b : Fin 8) (h : Fin 16) (i j : Fin 1024) : EReal :=
  Ideal.exp (cScore Q Mk b h i j - cMax Q Mk b h i)

/-- The attention weights. -/
def cAttn (b : Fin 8) (h : Fin 16) (i j : Fin 1024) : EReal :=
  Ideal.div (cExp Q Mk b h i j) (∑ j' : Fin 1024, cExp Q Mk b h i j')

/-- Head h's output at position i, lane d. -/
def cHeadOut (b : Fin 8) (i : Fin 1024) (h : Fin 16) (d : Fin 64) : EReal :=
  ∑ j : Fin 1024, cAttn Q Mk b h i j * Q b j (vCol (headCol h d))

/-- The heads side by side. -/
def cMerged (b : Fin 8) (l f : Fin 1024) : EReal :=
  cHeadOut Q Mk b l (headOf f) (laneOf f)

end Core

section Eq

variable {Q : Fin 8 → Fin 1024 → Fin 3072 → EReal} {Mk : Fin 8 → Fin 1024 → Fin 1024 → EReal}
  {x : FVec Ideal SAct .f32} {mask : FVec Ideal SMask .f32} {Wqkv : FVec Ideal SWqkv .f32} {bqkv : FVec Ideal SBqkv .f32}

theorem cScore_eq (hQ : ∀ b l f, Q b l f = qkv x Wqkv bqkv b l f) (hM : ∀ b i j, Mk b i j = mask (ix4 b (0 : Fin 1) i j))
    (b : Fin 8) (h : Fin 16) (i j : Fin 1024) : cScore Q Mk b h i j = scores x mask Wqkv bqkv b h i j := by
  unfold cScore scores q k
  rw [hM, mul_eighth]
  simp only [hQ]

theorem cMax_eq (hQ : ∀ b l f, Q b l f = qkv x Wqkv bqkv b l f) (hM : ∀ b i j, Mk b i j = mask (ix4 b (0 : Fin 1) i j))
    (b : Fin 8) (h : Fin 16) (i : Fin 1024) : cMax Q Mk b h i = rowMax x mask Wqkv bqkv b h i := by
  have e : cScore Q Mk b h i = fun j => scores x mask Wqkv bqkv b h i j := funext fun j => cScore_eq hQ hM b h i j
  unfold cMax rowMax
  rw [e]

theorem cExp_eq (hQ : ∀ b l f, Q b l f = qkv x Wqkv bqkv b l f) (hM : ∀ b i j, Mk b i j = mask (ix4 b (0 : Fin 1) i j))
    (b : Fin 8) (h : Fin 16) (i j : Fin 1024) : cExp Q Mk b h i j = expo x mask Wqkv bqkv b h i j := by
  unfold cExp expo
  rw [cScore_eq hQ hM, cMax_eq hQ hM]

/-- The attention weights are the specification's. -/
theorem cAttn_eq (hQ : ∀ b l f, Q b l f = qkv x Wqkv bqkv b l f) (hM : ∀ b i j, Mk b i j = mask (ix4 b (0 : Fin 1) i j))
    (b : Fin 8) (h : Fin 16) (i j : Fin 1024) : cAttn Q Mk b h i j = attn x mask Wqkv bqkv b h i j := by
  unfold cAttn attn
  simp only [cExp_eq hQ hM]

theorem cHeadOut_eq (hQ : ∀ b l f, Q b l f = qkv x Wqkv bqkv b l f) (hM : ∀ b i j, Mk b i j = mask (ix4 b (0 : Fin 1) i j))
    (b : Fin 8) (i : Fin 1024) (h : Fin 16) (d : Fin 64) : cHeadOut Q Mk b i h d = headOut x mask Wqkv bqkv b i h d := by
  unfold cHeadOut headOut v
  simp only [cAttn_eq hQ hM, hQ]

/-- The merged heads are the specification's. -/
theorem cMerged_eq (hQ : ∀ b l f, Q b l f = qkv x Wqkv bqkv b l f) (hM : ∀ b i j, Mk b i j = mask (ix4 b (0 : Fin 1) i j))
    (b : Fin 8) (l f : Fin 1024) : cMerged Q Mk b l f = merged x mask Wqkv bqkv b l f := by
  unfold cMerged merged
  rw [cHeadOut_eq hQ hM]

end Eq

end Cert.Spec

end
-- ==== Proof.TileCore.lean ====
/-
  One grid point's attention tile is the corresponding part of the attention over the whole arrays. The point
  (b, lq, hp) reads rows lq·256 … lq·256+255 of the queries' columns hp·128 … hp·128+127, all 1024 rows of the keys'
  and the values' columns of the same head pair, and the mask's rows lq·256 … of batch b. Head e of the pair is head
  2·hp + e; its lane d is column e·64 + d of the 128-column blocks, that is channel (2·hp + e)·64 + d. So the tile's
  score, row maximum, exponential and weight of row i are those of query position lq·256 + i of head 2·hp + e, and the
  weights against the value block's columns are that head's output.
-/
import proofs.«113321_j206158430385_2_alg».proof.Proof.AttnCore
import proofs.«113321_j206158430385_2_alg».proof.Proof.KernelIdealPay1

noncomputable section

open scoped BigOperators

namespace Cert.Spec

open Idealize.ShloMosaic Idealize.ShloMosaic.ValueIdx Cert.KernelIdeal Cert.KernelIdeal.Pay

section Tile

variable {Q : Fin 8 → Fin 1024 → Fin 3072 → EReal} {Mk : Fin 8 → Fin 1024 → Fin 1024 → EReal}
  (qb : Vec Ideal S1x256x128 .bf16) (kb vb : Vec Ideal S1x1024x128 .bf16) (mb : Vec Ideal S1x1x256x1024 .f32)
  (b : Fin 8) (lq : Fin 4) (hp : Fin 8)

/-- The tile's score is the whole arrays' score at (b, 2·hp + e, lq·256 + i, j). -/
theorem tileScore_eq (hq : ∀ (i : Fin 256) (d' : Fin 128) (l : Fin 1024) (f : Fin 3072), l.val = lq.val * 256 + i.val →
      f.val = hp.val * 128 + d'.val → qb (ix3 (0 : Fin 1) i d') = Q b l f)
    (hk : ∀ (j : Fin 1024) (d' : Fin 128) (f : Fin 3072), f.val = 1024 + hp.val * 128 + d'.val →
      kb (ix3 (0 : Fin 1) j d') = Q b j f)
    (hm : ∀ (i : Fin 256) (j : Fin 1024) (l : Fin 1024), l.val = lq.val * 256 + i.val →
      mb (ix4 (0 : Fin 1) (0 : Fin 1) i j) = Mk b l j)
    (e : Fin 2) (i : Fin 256) (j : Fin 1024) (h : Fin 16) (l : Fin 1024) (hh : h.val = 2 * hp.val + e.val) (hl : l.val = lq.val * 256 + i.val) :
    tileScore qb kb mb e i j = cScore Q Mk b h l j := by
  unfold tileScore cScore
  rw [hm i j l hl]
  have hs : (∑ d : Fin 64, qb (ix3 (0 : Fin 1) i (col e d)) * kb (ix3 (0 : Fin 1) j (col e d)))
      = ∑ d : Fin 64, Q b l (qCol (headCol h d)) * Q b j (kCol (headCol h d)) :=
    Finset.sum_congr rfl fun d _ => by
      rw [hq i (col e d) l (qCol (headCol h d)) hl
          (by show h.val * 64 + d.val = hp.val * 128 + (e.val * 64 + d.val); omega),
        hk j (col e d) (kCol (headCol h d))
          (by show 1024 + (h.val * 64 + d.val) = 1024 + hp.val * 128 + (e.val * 64 + d.val); omega)]
  rw [hs]

theorem tileMax_eq (hq : ∀ (i : Fin 256) (d' : Fin 128) (l : Fin 1024) (f : Fin 3072), l.val = lq.val * 256 + i.val →
      f.val = hp.val * 128 + d'.val → qb (ix3 (0 : Fin 1) i d') = Q b l f)
    (hk : ∀ (j : Fin 1024) (d' : Fin 128) (f : Fin 3072), f.val = 1024 + hp.val * 128 + d'.val →
      kb (ix3 (0 : Fin 1) j d') = Q b j f)
    (hm : ∀ (i : Fin 256) (j : Fin 1024) (l : Fin 1024), l.val = lq.val * 256 + i.val →
      mb (ix4 (0 : Fin 1) (0 : Fin 1) i j) = Mk b l j)
    (e : Fin 2) (i : Fin 256) (h : Fin 16) (l : Fin 1024) (hh : h.val = 2 * hp.val + e.val) (hl : l.val = lq.val * 256 + i.val) :
    tileMax qb kb mb e i = cMax Q Mk b h l := by
  have es : tileScore qb kb mb e i = cScore Q Mk b h l :=
    funext fun j => tileScore_eq qb kb mb b lq hp hq hk hm e i j h l hh hl
  unfold tileMax cMax
  rw [es]

theorem tileExp_eq (hq : ∀ (i : Fin 256) (d' : Fin 128) (l : Fin 1024) (f : Fin 3072), l.val = lq.val * 256 + i.val →
      f.val = hp.val * 128 + d'.val → qb (ix3 (0 : Fin 1) i d') = Q b l f)
    (hk : ∀ (j : Fin 1024) (d' : Fin 128) (f : Fin 3072), f.val = 1024 + hp.val * 128 + d'.val →
      kb (ix3 (0 : Fin 1) j d') = Q b j f)
    (hm : ∀ (i : Fin 256) (j : Fin 1024) (l : Fin 1024), l.val = lq.val * 256 + i.val →
      mb (ix4 (0 : Fin 1) (0 : Fin 1) i j) = Mk b l j)
    (e : Fin 2) (i : Fin 256) (j : Fin 1024) (h : Fin 16) (l : Fin 1024) (hh : h.val = 2 * hp.val + e.val) (hl : l.val = lq.val * 256 + i.val) :
    tileExp qb kb mb e i j = cExp Q Mk b h l j := by
  unfold tileExp cExp
  rw [tileScore_eq qb kb mb b lq hp hq hk hm e i j h l hh hl, tileMax_eq qb kb mb b lq hp hq hk hm e i h l hh hl]

/-- THE TILE'S WEIGHTS are the whole arrays' at (b, 2·hp + e, lq·256 + i, j). -/
theorem tileAttn_eq (hq : ∀ (i : Fin 256) (d' : Fin 128) (l : Fin 1024) (f : Fin 3072), l.val = lq.val * 256 + i.val →
      f.val = hp.val * 128 + d'.val → qb (ix3 (0 : Fin 1) i d') = Q b l f)
    (hk : ∀ (j : Fin 1024) (d' : Fin 128) (f : Fin 3072), f.val = 1024 + hp.val * 128 + d'.val →
      kb (ix3 (0 : Fin 1) j d') = Q b j f)
    (hm : ∀ (i : Fin 256) (j : Fin 1024) (l : Fin 1024), l.val = lq.val * 256 + i.val →
      mb (ix4 (0 : Fin 1) (0 : Fin 1) i j) = Mk b l j)
    (e : Fin 2) (i : Fin 256) (j : Fin 1024) (h : Fin 16) (l : Fin 1024) (hh : h.val = 2 * hp.val + e.val) (hl : l.val = lq.val * 256 + i.val) :
    tileAttn qb kb mb e i j = cAttn Q Mk b h l j := by
  have ee : tileExp qb kb mb e i = cExp Q Mk b h l :=
    funext fun j' => tileExp_eq qb kb mb b lq hp hq hk hm e i j' h l hh hl
  unfold tileAttn cAttn
  rw [ee]

/-- THE TILE'S HEAD OUTPUT: the weights against the value block's columns e·64 + d are head 2·hp + e's output at
    position lq·256 + i, lane d. -/
theorem tileHeadOut_eq (hq : ∀ (i : Fin 256) (d' : Fin 128) (l : Fin 1024) (f : Fin 3072), l.val = lq.val * 256 + i.val →
      f.val = hp.val * 128 + d'.val → qb (ix3 (0 : Fin 1) i d') = Q b l f)
    (hk : ∀ (j : Fin 1024) (d' : Fin 128) (f : Fin 3072), f.val = 1024 + hp.val * 128 + d'.val →
      kb (ix3 (0 : Fin 1) j d') = Q b j f)
    (hv : ∀ (j : Fin 1024) (d' : Fin 128) (f : Fin 3072), f.val = 2048 + hp.val * 128 + d'.val →
      vb (ix3 (0 : Fin 1) j d') = Q b j f)
    (hm : ∀ (i : Fin 256) (j : Fin 1024) (l : Fin 1024), l.val = lq.val * 256 + i.val →
      mb (ix4 (0 : Fin 1) (0 : Fin 1) i j) = Mk b l j)
    (e : Fin 2) (i : Fin 256) (h : Fin 16) (l : Fin 1024) (hh : h.val = 2 * hp.val + e.val) (hl : l.val = lq.val * 256 + i.val) (d : Fin 64) :
    (∑ j : Fin 1024, tileAttn qb kb mb e i j * vb (ix3 (0 : Fin 1) j (col e d))) = cHeadOut Q Mk b l h d := by
  unfold cHeadOut
  refine Finset.sum_congr rfl fun j _ => ?_
  rw [tileAttn_eq qb kb mb b lq hp hq hk hm e i j h l hh hl,
    hv j (col e d) (vCol (headCol h d))
      (by show 2048 + (h.val * 64 + d.val) = 2048 + hp.val * 128 + (e.val * 64 + d.val); omega)]

end Tile

end Cert.Spec

end
-- ==== Proof.KernelIdealFinal1.lean ====
/-
  The attention region's two output arrays after its run, each as ONE function of the two arrays the region reads
  (the projected rows and the mask). The weights array at (b, h, i, j) is the softmax weight of key position j for
  query position i of head h of batch entry b; the output array at (b, l, f) is lane f mod 64 of head f div 64 at
  position l: that head's weights against its value columns. Each grid point writes back exactly its block of these:
  the point's tile is the part of the whole-array attention its coordinates name, and head e of the pair (the store
  made first or second) is head 2·pair + e.
-/
import proofs.«113321_j206158430385_2_alg».proof.Proof.KernelIdealBlocks1
import proofs.«113321_j206158430385_2_alg».proof.Proof.KernelIdealPay1
import proofs.«113321_j206158430385_2_alg».proof.Proof.TileCore

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)
open scoped BigOperators

/-- The projected rows as a function of (batch entry, position, fused column), -/
def qOf (A : FVec Ideal S8x1024x3072 .bf16) : Fin 8 → Fin 1024 → Fin 3072 → EReal := fun b l f => A (ix3 b l f)
/-- the mask as a function of (batch entry, query position, key position). -/
def mOf (M : FVec Ideal S8x1x1024x1024 .f32) : Fin 8 → Fin 1024 → Fin 1024 → EReal := fun b i j => M (ix4 b (0 : Fin 1) i j)

/-- The attention weights over the whole arrays. -/
def attnArr (A : FVec Ideal S8x1024x3072 .bf16) (M : FVec Ideal S8x1x1024x1024 .f32) : FVec Ideal S8x16x1024x1024 .f32 := fun idx =>
  cAttn (qOf A) (mOf M) (⟨(idx 0).val, (idx 0).isLt⟩ : Fin 8) (⟨(idx 1).val, (idx 1).isLt⟩ : Fin 16)
    (⟨(idx 2).val, (idx 2).isLt⟩ : Fin 1024) (⟨(idx 3).val, (idx 3).isLt⟩ : Fin 1024)

theorem attnArr_ix4 (A : FVec Ideal S8x1024x3072 .bf16) (M : FVec Ideal S8x1x1024x1024 .f32) (b : Fin 8) (h : Fin 16) (i j : Fin 1024) :
    attnArr A M (ix4 b h i j) = cAttn (qOf A) (mOf M) b h i j := rfl

/-- The heads' outputs side by side over the whole arrays. -/
def mergedArr (A : FVec Ideal S8x1024x3072 .bf16) (M : FVec Ideal S8x1x1024x1024 .f32) : FVec Ideal S8x1024x1024 .bf16 := fun idx =>
  cMerged (qOf A) (mOf M) (⟨(idx 0).val, (idx 0).isLt⟩ : Fin 8) (⟨(idx 1).val, (idx 1).isLt⟩ : Fin 1024) (⟨(idx 2).val, (idx 2).isLt⟩ : Fin 1024)

theorem mergedArr_ix3 (A : FVec Ideal S8x1024x3072 .bf16) (M : FVec Ideal S8x1x1024x1024 .f32) (b : Fin 8) (l f : Fin 1024) :
    mergedArr A M (ix3 b l f) = cMerged (qOf A) (mOf M) b l f := rfl

variable (V : (c : Dev nD) → (b : Ref sig .tc) → Buf (Elt Ideal) ((c : Thread nD τ).loc b))

/-! ## The point's four input blocks are the parts of the arrays its coordinates name -/

theorem tile_q (c : Dev nD) (t : Fin cfg1.N) (b : Fin 8) (lq : Fin 4) (hp : Fin 8) (hb : b.val = t.val / 32)
    (hlq : lq.val = t.val / 8 % 4) (hhp : hp.val = t.val % 8) :
    ∀ (i : Fin 256) (d' : Fin 128) (l : Fin 1024) (f : Fin 3072), l.val = lq.val * 256 + i.val →
      f.val = hp.val * 128 + d'.val → (iblk1 V c 0 t : Vec Ideal S1x256x128 .bf16) (ix3 (0 : Fin 1) i d') = qOf (V c main_v5) b l f :=
  fun i d' l f hl hf => iblk1_0_apply V c t (ix3 (0 : Fin 1) i d') (ix3 b l f)
    (by show b.val = t.val / 32 + 0; omega) (by show l.val = t.val / 8 % 4 * 256 + i.val; omega)
    (by show f.val = t.val % 8 * 128 + d'.val; omega)

theorem tile_k (c : Dev nD) (t : Fin cfg1.N) (b : Fin 8) (hp : Fin 8) (hb : b.val = t.val / 32) (hhp : hp.val = t.val % 8) :
    ∀ (j : Fin 1024) (d' : Fin 128) (f : Fin 3072), f.val = 1024 + hp.val * 128 + d'.val →
      (iblk1 V c 1 t : Vec Ideal S1x1024x128 .bf16) (ix3 (0 : Fin 1) j d') = qOf (V c main_v5) b j f :=
  fun j d' f hf => iblk1_1_apply V c t (ix3 (0 : Fin 1) j d') (ix3 b j f)
    (by show b.val = t.val / 32 + 0; omega) rfl (by show f.val = (8 + t.val % 8) * 128 + d'.val; omega)

theorem tile_v (c : Dev nD) (t : Fin cfg1.N) (b : Fin 8) (hp : Fin 8) (hb : b.val = t.val / 32) (hhp : hp.val = t.val % 8) :
    ∀ (j : Fin 1024) (d' : Fin 128) (f : Fin 3072), f.val = 2048 + hp.val * 128 + d'.val →
      (iblk1 V c 2 t : Vec Ideal S1x1024x128 .bf16) (ix3 (0 : Fin 1) j d') = qOf (V c main_v5) b j f :=
  fun j d' f hf => iblk1_2_apply V c t (ix3 (0 : Fin 1) j d') (ix3 b j f)
    (by show b.val = t.val / 32 + 0; omega) rfl (by show f.val = (16 + t.val % 8) * 128 + d'.val; omega)

theorem tile_m (c : Dev nD) (t : Fin cfg1.N) (b : Fin 8) (lq : Fin 4) (hb : b.val = t.val / 32) (hlq : lq.val = t.val / 8 % 4) :
    ∀ (i : Fin 256) (j : Fin 1024) (l : Fin 1024), l.val = lq.val * 256 + i.val →
      (iblk1 V c 3 t : Vec Ideal S1x1x256x1024 .f32) (ix4 (0 : Fin 1) (0 : Fin 1) i j) = mOf (V c main_arg1) b l j :=
  fun i j l hl => iblk1_3_apply V c t (ix4 (0 : Fin 1) (0 : Fin 1) i j) (ix4 b (0 : Fin 1) l j)
    (by show b.val = t.val / 32 + 0; omega) rfl (by show l.val = t.val / 8 % 4 * 256 + i.val; omega) rfl

/-! ## What a point writes back -/

/-- At the point of batch entry b, query tile lq and head pair hp, the weights block at head e of the pair, row i, key
    position j holds the whole arrays' attention weight of head 2·hp + e at query position lq·256 + i. -/
theorem attn_point (c : Dev nD) (t : Fin cfg1.N) (b : Fin 8) (lq : Fin 4) (hp : Fin 8) (hb : b.val = t.val / 32)
    (hlq : lq.val = t.val / 8 % 4) (hhp : hp.val = t.val % 8) (e : Fin 2) (i : Fin 256) (j : Fin 1024) (h : Fin 16) (l : Fin 1024)
    (hh : h.val = 2 * hp.val + e.val) (hl : l.val = lq.val * 256 + i.val) :
    out1_5 (F := Ideal) (iblk1 V c 0 t) (iblk1 V c 1 t) (iblk1 V c 3 t) (ix4 (0 : Fin 1) e i j)
      = cAttn (qOf (V c main_v5)) (mOf (V c main_arg1)) b h l j := by
  rw [← tileAttn_eq (Q := qOf (V c main_v5)) (Mk := mOf (V c main_arg1)) (iblk1 V c 0 t) (iblk1 V c 1 t) (iblk1 V c 3 t) b lq hp
    (tile_q V c t b lq hp hb hlq hhp) (tile_k V c t b hp hb hhp) (tile_m V c t b lq hb hlq) e i j h l hh hl]
  match e with
  | ⟨0, _⟩ =>
    exact (out1_5_head0 (iblk1 V c 0 t) (iblk1 V c 1 t) (iblk1 V c 3 t) i j).trans
      (Pay.k1_pay11_apply (iblk1 V c 0 t) (iblk1 V c 1 t) (iblk1 V c 3 t) i j)
  | ⟨1, _⟩ =>
    exact (out1_5_head1 (iblk1 V c 0 t) (iblk1 V c 1 t) (iblk1 V c 3 t) i j).trans
      (Pay.k1_pay3_apply (iblk1 V c 0 t) (iblk1 V c 1 t) (iblk1 V c 3 t) i j)

/-- The weights block a point writes back is its block of the whole arrays' attention weights. -/
theorem flushed1_5_eq (c : Dev nD) (t : Fin cfg1.N) :
    (dat1 (F := Ideal) V c).flushed 5 t
      = ((cfg1.win 5).blk t).view.read (Elt Ideal) (attnArr (V c main_v5) (V c main_arg1)) := by
  show (cfg1.win 5).cut (grid1.coords t) ((dat1 (F := Ideal) V c).after 5 t) = _
  rw [after1_5]
  obtain ⟨-, -, -, -, -, ⟨e0, e1, e2, e3⟩⟩ := index_facts1 t
  have ht : t.val < 256 := by have h1 := t.isLt; have hN : cfg1.N = 256 := N_1; omega
  funext y
  obtain ⟨y0, e, i, j, rfl⟩ : ∃ (y0 : Fin 1) (e : Fin 2) (i : Fin 256) (j : Fin 1024), y = ix4 y0 e i j :=
    ⟨y 0, y 1, y 2, y 3, eq_ix4 y⟩
  obtain rfl : y0 = 0 := Subsingleton.elim _ _
  obtain ⟨b, hb⟩ : ∃ b : Fin 8, b.val = t.val / 32 := ⟨⟨t.val / 32, by omega⟩, rfl⟩
  obtain ⟨lq, hlq⟩ : ∃ lq : Fin 4, lq.val = t.val / 8 % 4 := ⟨⟨t.val / 8 % 4, by omega⟩, rfl⟩
  obtain ⟨hp, hhp⟩ : ∃ hp : Fin 8, hp.val = t.val % 8 := ⟨⟨t.val % 8, by omega⟩, rfl⟩
  obtain ⟨h, hh⟩ : ∃ h : Fin 16, h.val = 2 * hp.val + e.val := ⟨⟨2 * hp.val + e.val, by have := e.isLt; have := hp.isLt; omega⟩, rfl⟩
  obtain ⟨l, hl⟩ : ∃ l : Fin 1024, l.val = lq.val * 256 + i.val := ⟨⟨lq.val * 256 + i.val, by have := i.isLt; have := lq.isLt; omega⟩, rfl⟩
  have hemb : ((cfg1.win 5).blk t).view.emb (ix4 (0 : Fin 1) e i j) = (ix4 b h l j : S8x16x1024x1024.Idx) := by
    funext a; apply Fin.ext
    match a with
    | ⟨0, _⟩ => show win1_5.index t (0 : Fin 4) * 1 + 1 * 0 = b.val; rw [e0, hb]; omega
    | ⟨1, _⟩ => show win1_5.index t (1 : Fin 4) * 2 + 1 * e.val = h.val; rw [e1, hh, hhp]; omega
    | ⟨2, _⟩ => show win1_5.index t (2 : Fin 4) * 256 + 1 * i.val = l.val; rw [e2, hl, hlq]; omega
    | ⟨3, _⟩ => show win1_5.index t (3 : Fin 4) * 1024 + 1 * j.val = j.val; rw [e3]; omega
  show out1_5 (F := Ideal) (iblk1 V c 0 t) (iblk1 V c 1 t) (iblk1 V c 3 t) (ix4 (0 : Fin 1) e i j)
    = attnArr (V c main_v5) (V c main_arg1) (((cfg1.win 5).blk t).view.emb (ix4 (0 : Fin 1) e i j))
  rw [hemb, attnArr_ix4]
  exact attn_point V c t b lq hp hb hlq hhp e i j h l hh hl

/-- The output block's lane d of head 0 of the pair (column d) holds head 0's product, -/
theorem out1_4_col0 (x0 : Vec Ideal S1x256x128 .bf16) (x1 x2 : Vec Ideal S1x1024x128 .bf16) (x3 : Vec Ideal S1x1x256x1024 .f32)
    (i : Fin 256) (d : Fin 64) :
    out1_4 (F := Ideal) x0 x1 x2 x3 (ix3 (0 : Fin 1) i (Pay.col 0 d))
      = ∑ j : Fin 1024, Pay.tileAttn x0 x1 x3 0 i j * x2 (ix3 (0 : Fin 1) j (Pay.col 0 d)) := by
  rw [← Pay.k1_pay1_apply x0 x1 x2 x3 i d, Pay.col_zero d]
  exact out1_4_head0 x0 x1 x2 x3 i d

/-- and lane d of head 1 (column 64 + d) head 1's. -/
theorem out1_4_col1 (x0 : Vec Ideal S1x256x128 .bf16) (x1 x2 : Vec Ideal S1x1024x128 .bf16) (x3 : Vec Ideal S1x1x256x1024 .f32)
    (i : Fin 256) (d : Fin 64) :
    out1_4 (F := Ideal) x0 x1 x2 x3 (ix3 (0 : Fin 1) i (Pay.col 1 d))
      = ∑ j : Fin 1024, Pay.tileAttn x0 x1 x3 1 i j * x2 (ix3 (0 : Fin 1) j (Pay.col 1 d)) := by
  rw [← Pay.k1_pay4_apply x0 x1 x2 x3 i d, Pay.col_one d]
  exact out1_4_head1 x0 x1 x2 x3 i d

/-- Either head of the pair. -/
theorem out1_4_col (x0 : Vec Ideal S1x256x128 .bf16) (x1 x2 : Vec Ideal S1x1024x128 .bf16) (x3 : Vec Ideal S1x1x256x1024 .f32)
    (e : Fin 2) (i : Fin 256) (d : Fin 64) :
    out1_4 (F := Ideal) x0 x1 x2 x3 (ix3 (0 : Fin 1) i (Pay.col e d))
      = ∑ j : Fin 1024, Pay.tileAttn x0 x1 x3 e i j * x2 (ix3 (0 : Fin 1) j (Pay.col e d)) := by
  match e with
  | ⟨0, _⟩ => exact out1_4_col0 x0 x1 x2 x3 i d
  | ⟨1, _⟩ => exact out1_4_col1 x0 x1 x2 x3 i d

/-- At the point of batch entry b, query tile lq and head pair hp, the output block at row i and lane d of head e of the
    pair holds the whole arrays' merged heads at position lq·256 + i, channel (2·hp + e)·64 + d. -/
theorem merged_point (c : Dev nD) (t : Fin cfg1.N) (b : Fin 8) (lq : Fin 4) (hp : Fin 8) (hb : b.val = t.val / 32)
    (hlq : lq.val = t.val / 8 % 4) (hhp : hp.val = t.val % 8) (e : Fin 2) (i : Fin 256) (d : Fin 64) (l f : Fin 1024)
    (hl : l.val = lq.val * 256 + i.val) (hf : f.val = hp.val * 128 + e.val * 64 + d.val) :
    out1_4 (F := Ideal) (iblk1 V c 0 t) (iblk1 V c 1 t) (iblk1 V c 2 t) (iblk1 V c 3 t) (ix3 (0 : Fin 1) i (Pay.col e d))
      = cMerged (qOf (V c main_v5)) (mOf (V c main_arg1)) b l f := by
  obtain ⟨h, hh⟩ : ∃ h : Fin 16, h.val = 2 * hp.val + e.val := ⟨⟨2 * hp.val + e.val, by have := e.isLt; have := hp.isLt; omega⟩, rfl⟩
  have hho : headOf f = h := Fin.ext (by have := d.isLt; have := e.isLt; show f.val / 64 = h.val; omega)
  have hln : laneOf f = d := Fin.ext (by have := d.isLt; have := e.isLt; show f.val % 64 = d.val; omega)
  have hm : cMerged (qOf (V c main_v5)) (mOf (V c main_arg1)) b l f = cHeadOut (qOf (V c main_v5)) (mOf (V c main_arg1)) b l h d := by
    unfold cMerged; rw [hho, hln]
  exact (out1_4_col (iblk1 V c 0 t) (iblk1 V c 1 t) (iblk1 V c 2 t) (iblk1 V c 3 t) e i d).trans
    ((tileHeadOut_eq (Q := qOf (V c main_v5)) (Mk := mOf (V c main_arg1)) (iblk1 V c 0 t) (iblk1 V c 1 t) (iblk1 V c 2 t)
      (iblk1 V c 3 t) b lq hp (tile_q V c t b lq hp hb hlq hhp) (tile_k V c t b hp hb hhp) (tile_v V c t b hp hb hhp)
      (tile_m V c t b lq hb hlq) e i h l hh hl d).trans hm.symm)

/-- The output block a point writes back is its block of the whole arrays' merged heads. -/
theorem flushed1_4_eq (c : Dev nD) (t : Fin cfg1.N) :
    (dat1 (F := Ideal) V c).flushed 4 t
      = ((cfg1.win 4).blk t).view.read (Elt Ideal) (mergedArr (V c main_v5) (V c main_arg1)) := by
  show (cfg1.win 4).cut (grid1.coords t) ((dat1 (F := Ideal) V c).after 4 t) = _
  rw [after1_4]
  obtain ⟨-, -, -, -, ⟨e0, e1, e2⟩, -⟩ := index_facts1 t
  have ht : t.val < 256 := by have h1 := t.isLt; have hN : cfg1.N = 256 := N_1; omega
  funext y
  obtain ⟨y0, i, d', rfl⟩ : ∃ (y0 : Fin 1) (i : Fin 256) (d' : Fin 128), y = ix3 y0 i d' := ⟨y 0, y 1, y 2, eq_ix3 y⟩
  obtain rfl : y0 = 0 := Subsingleton.elim _ _
  obtain ⟨e, d, rfl⟩ : ∃ (e : Fin 2) (d : Fin 64), d' = Pay.col e d :=
    ⟨⟨d'.val / 64, by have := d'.isLt; omega⟩, ⟨d'.val % 64, by omega⟩, Fin.ext (by show d'.val = d'.val / 64 * 64 + d'.val % 64; omega)⟩
  obtain ⟨b, hb⟩ : ∃ b : Fin 8, b.val = t.val / 32 := ⟨⟨t.val / 32, by omega⟩, rfl⟩
  obtain ⟨lq, hlq⟩ : ∃ lq : Fin 4, lq.val = t.val / 8 % 4 := ⟨⟨t.val / 8 % 4, by omega⟩, rfl⟩
  obtain ⟨hp, hhp⟩ : ∃ hp : Fin 8, hp.val = t.val % 8 := ⟨⟨t.val % 8, by omega⟩, rfl⟩
  obtain ⟨l, hl⟩ : ∃ l : Fin 1024, l.val = lq.val * 256 + i.val := ⟨⟨lq.val * 256 + i.val, by have := i.isLt; have := lq.isLt; omega⟩, rfl⟩
  obtain ⟨f, hf⟩ : ∃ f : Fin 1024, f.val = hp.val * 128 + e.val * 64 + d.val :=
    ⟨⟨hp.val * 128 + e.val * 64 + d.val, by have := d.isLt; have := e.isLt; have := hp.isLt; omega⟩, rfl⟩
  have hemb : ((cfg1.win 4).blk t).view.emb (ix3 (0 : Fin 1) i (Pay.col e d)) = (ix3 b l f : S8x1024x1024.Idx) := by
    funext a; apply Fin.ext
    match a with
    | ⟨0, _⟩ => show win1_4.index t (0 : Fin 3) * 1 + 1 * 0 = b.val; rw [e0, hb]; omega
    | ⟨1, _⟩ => show win1_4.index t (1 : Fin 3) * 256 + 1 * i.val = l.val; rw [e1, hl, hlq]; omega
    | ⟨2, _⟩ => show win1_4.index t (2 : Fin 3) * 128 + 1 * (e.val * 64 + d.val) = f.val; rw [e2, hf, hhp]; omega
  show out1_4 (F := Ideal) (iblk1 V c 0 t) (iblk1 V c 1 t) (iblk1 V c 2 t) (iblk1 V c 3 t) (ix3 (0 : Fin 1) i (Pay.col e d))
    = mergedArr (V c main_v5) (V c main_arg1) (((cfg1.win 4).blk t).view.emb (ix3 (0 : Fin 1) i (Pay.col e d)))
  rw [hemb, mergedArr_ix3]
  exact merged_point V c t b lq hp hb hlq hhp e i d l f hl hf

/-! ## The two arrays after the run -/

/-- The weights array after the attention region's run. -/
theorem final1_5 (c : Dev nD) :
    (dat1 (F := Ideal) V c).arrAt 5 cfg1.N = attnArr (V c main_v5) (V c main_arg1) :=
  (dat1 (F := Ideal) V c).arrAt_eq_of_cover 5 (attnArr (V c main_v5) (V c main_arg1))
    (fun t _ => flushed1_5_eq V c t) covered1_5

/-- The merged-heads array after the attention region's run. -/
theorem final1_4 (c : Dev nD) :
    (dat1 (F := Ideal) V c).arrAt 4 cfg1.N = mergedArr (V c main_v5) (V c main_arg1) :=
  (dat1 (F := Ideal) V c).arrAt_eq_of_cover 4 (mergedArr (V c main_v5) (V c main_arg1))
    (fun t _ => flushed1_4_eq V c t) covered1_4

end Cert.KernelIdeal.Hand

end
-- ==== Proof.KernelIdealStage1.lean ====
/-
  The attention region's two results joined to the specification: the array its three input windows read is the
  specification's fused projection (the first region's result, re-laid) and its mask window reads the mask argument
  unchanged, so the whole-array attention weights and merged heads the region leaves are the specification's.
-/
import proofs.«113321_j206158430385_2_alg».proof.Proof.KernelIdealStage0
import proofs.«113321_j206158430385_2_alg».proof.Proof.KernelIdealFinal1
import proofs.«113321_j206158430385_2_alg».proof.Proof.AttnCore

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The array the attention region reads is the fused projection of the arguments, -/
theorem region1_q (c : Dev nD) (b : Fin 8) (l : Fin 1024) (f : Fin 3072) :
    qOf (V3 (F := Ideal) m c main_v5) b l f
      = Cert.Spec.qkv (m ((c : Thread nD τ).loc main_arg0)) (m ((c : Thread nD τ).loc main_arg2)) (m ((c : Thread nD τ).loc main_arg3)) b l f :=
  stage_qkv m c b l f

/-- and its mask is the mask argument. -/
theorem region1_m (c : Dev nD) (b : Fin 8) (i j : Fin 1024) :
    mOf (V3 (F := Ideal) m c main_arg1) b i j = m ((c : Thread nD τ).loc main_arg1) (ix4 b (0 : Fin 1) i j) :=
  congrFun (glue_mask m c) _

/-- The weights array the attention region leaves is the specification's attention weights. -/
theorem stage_attn (c : Dev nD) (b : Fin 8) (h : Fin 16) (i j : Fin 1024) :
    W4 (F := Ideal) m c (Proc.devRef .tc main_v6_1) (ix4 b h i j)
      = Cert.Spec.attn (m ((c : Thread nD τ).loc main_arg0)) (m ((c : Thread nD τ).loc main_arg1))
          (m ((c : Thread nD τ).loc main_arg2)) (m ((c : Thread nD τ).loc main_arg3)) b h i j := by
  rw [W4_attn m c, final1_5 (V3 m) c, attnArr_ix4]
  exact Cert.Spec.cAttn_eq (region1_q m c) (region1_m m c) b h i j

theorem stage_attn_eq (c : Dev nD) :
    W4 (F := Ideal) m c (Proc.devRef .tc main_v6_1)
      = Cert.Spec.attnOut (m ((c : Thread nD τ).loc main_arg0)) (m ((c : Thread nD τ).loc main_arg1))
          (m ((c : Thread nD τ).loc main_arg2)) (m ((c : Thread nD τ).loc main_arg3)) := by
  funext idx
  obtain ⟨b, h, i, j, rfl⟩ : ∃ (b : Fin 8) (h : Fin 16) (i j : Fin 1024), idx = ix4 b h i j := ⟨idx 0, idx 1, idx 2, idx 3, eq_ix4 idx⟩
  rw [Cert.Spec.attnOut_ix4]
  exact stage_attn m c b h i j

/-- The merged-heads array it leaves is the specification's merged heads. -/
theorem stage_merged (c : Dev nD) (b : Fin 8) (l f : Fin 1024) :
    W4 (F := Ideal) m c (Proc.devRef .tc main_v6_0) (ix3 b l f)
      = Cert.Spec.merged (m ((c : Thread nD τ).loc main_arg0)) (m ((c : Thread nD τ).loc main_arg1))
          (m ((c : Thread nD τ).loc main_arg2)) (m ((c : Thread nD τ).loc main_arg3)) b l f := by
  rw [W4_out m c, final1_4 (V3 m) c, mergedArr_ix3]
  exact Cert.Spec.cMerged_eq (region1_q m c) (region1_m m c) b l f

end Cert.KernelIdeal.Hand

end
-- ==== Proof.KernelIdealNormSpec.lean ====
import Idealize.ShloMosaic.PureOps.Ideal
import Idealize.ShloMosaic.Lib.ValueIdx

noncomputable section

namespace Cert.KernelIdeal.Pay

open Idealize.ShloMosaic Idealize.ShloMosaic.ValueIdx
open scoped BigOperators

/-! # Output projection, residual and layer norm, row by row, over the extended reals

For any number `R` of rows: `a` is `R × 1024`, `w` is `1024 × 1024`, `bias`, `g` (scale) and `bt` (shift) are single
rows of `1024`, and `res` (the residual input) is `R × 1024`. Everything at row `r` depends on row `r` of `a` and `res` only.
The literals are kept as words: `0x44800000` is `1024`, `0x3727C5AC` the variance's epsilon. -/

variable {R : ℕ} (a : (⟨2, ![R, 1024]⟩ : Shape).Idx → EReal) (w : (⟨2, ![1024, 1024]⟩ : Shape).Idx → EReal)
  (bias : (⟨2, ![1, 1024]⟩ : Shape).Idx → EReal) (res : (⟨2, ![R, 1024]⟩ : Shape).Idx → EReal)
  (g bt : (⟨2, ![1, 1024]⟩ : Shape).Idx → EReal)

/-- The normalised quantity: `a · w + bias + res` at row `r`, column `n`. -/
def normY (r : Fin R) (n : Fin 1024) : EReal :=
  ((∑ f : Fin 1024, a (ix2 r f) * w (ix2 f n)) + bias (ix2 (0 : Fin 1) n)) + res (ix2 r n)

/-- Its mean over row `r`. -/
def normMu (r : Fin R) : EReal :=
  Ideal.div (∑ n : Fin 1024, normY a w bias res r n) (Ideal.ofBits .f32 0x44800000#32)

/-- The deviation from the row's mean. -/
def normDv (r : Fin R) (n : Fin 1024) : EReal := normY a w bias res r n - normMu a w bias res r

/-- The row's variance: the mean of the squared deviations. -/
def normVr (r : Fin R) : EReal :=
  Ideal.div (∑ n : Fin 1024, normDv a w bias res r n * normDv a w bias res r n) (Ideal.ofBits .f32 0x44800000#32)

/-- The layer norm's output: scale times the deviation over the root of variance plus epsilon, plus shift. -/
def normOut (r : Fin R) (n : Fin 1024) : EReal :=
  g (ix2 (0 : Fin 1) n) * (normDv a w bias res r n * Ideal.rsqrt (normVr a w bias res r + Ideal.ofBits .f32 0x3727C5AC#32))
    + bt (ix2 (0 : Fin 1) n)

/-- Row locality: if row `r'` of `(a', res')` is row `r` of `(a, res)`, the two outputs agree there. -/
theorem normOut_congr {R' : ℕ} (a' : (⟨2, ![R', 1024]⟩ : Shape).Idx → EReal) (res' : (⟨2, ![R', 1024]⟩ : Shape).Idx → EReal)
    (r : Fin R) (r' : Fin R') (ha : ∀ f : Fin 1024, a' (ix2 r' f) = a (ix2 r f)) (hres : ∀ n : Fin 1024, res' (ix2 r' n) = res (ix2 r n))
    (n : Fin 1024) : normOut a' w bias res' g bt r' n = normOut a w bias res g bt r n := by
  have hy : ∀ n, normY a' w bias res' r' n = normY a w bias res r n := fun n => by
    unfold normY; rw [hres n]; simp only [ha]
  have hmu : normMu a' w bias res' r' = normMu a w bias res r := by unfold normMu; simp only [hy]
  have hdv : ∀ n, normDv a' w bias res' r' n = normDv a w bias res r n := fun n => by unfold normDv; rw [hy n, hmu]
  have hvr : normVr a' w bias res' r' = normVr a w bias res r := by unfold normVr; simp only [hdv]
  unfold normOut; rw [hdv n, hvr]

end Cert.KernelIdeal.Pay

end
-- ==== Proof.KernelIdealBlocks2.lean ====
import proofs.«113321_j206158430385_2_alg».proof.Proof.KernelIdealRegion2
import proofs.«113321_j206158430385_2_alg».proof.Proof.KernelIdealNormSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! # Region 2's output array after its run, as one function of the arrays the region finds

Output projection, residual and layer norm act row by row: every entry of row `r` depends on row `r` of the
attention output and of the residual input only (the mean and the variance are sums over that row), and row `r` of
block `t` is row `512 t + r` of the array. So the 16 written-back blocks are the 16 row blocks of one function of the
whole arrays. Stated here from the payload's value at an index (`PayloadAt`), which is proved where the payload is
opened. -/

/-- The layer-normed rows on all `8192` rows: entry `(r, n)` is `normOut` of the whole arrays at row `r`, column `n`. -/
def rowsNorm (a : FVec Ideal S8192x1024 .bf16) (w : FVec Ideal S1024x1024 .bf16) (bias : FVec Ideal S1x1024 .f32)
    (res : FVec Ideal S8192x1024 .f32) (g bt : FVec Ideal S1x1024 .f32) : FVec Ideal S8192x1024 .f32 := fun i =>
  Pay.normOut (R := 8192) a w bias res g bt ⟨(i 0).val, (i 0).isLt⟩ ⟨(i 1).val, (i 1).isLt⟩

theorem rowsNorm_ix2 (a : FVec Ideal S8192x1024 .bf16) (w : FVec Ideal S1024x1024 .bf16) (bias : FVec Ideal S1x1024 .f32)
    (res : FVec Ideal S8192x1024 .f32) (g bt : FVec Ideal S1x1024 .f32) (r : Fin 8192) (n : Fin 1024) :
    rowsNorm a w bias res g bt (ix2 r n) = Pay.normOut (R := 8192) a w bias res g bt r n := rfl

/-- The payload's value at an index of a block: the layer-normed row of the block. -/
def PayloadAt : Prop :=
  ∀ (a : Vec Ideal S512x1024 .bf16) (w : Vec Ideal S1024x1024 .bf16) (bias : Vec Ideal S1x1024 .f32)
    (res : Vec Ideal S512x1024 .f32) (g bt : Vec Ideal S1x1024 .f32) (r : Fin 512) (n : Fin 1024),
    k2_pay1 (F := Ideal) a w bias res g bt (ix2 r n) = Pay.normOut (R := 512) a w bias res g bt r n

/-- One block of the payload is the matching rows of `rowsNorm`: if the blocks `ab`, `resb` are rows `512 t …` of `a`,
    `res`, then at row `j 0` of the block the payload is `rowsNorm` at row `512 t + j 0`. -/
theorem norm_block_at (hpay : PayloadAt) (a : FVec Ideal S8192x1024 .bf16) (w : FVec Ideal S1024x1024 .bf16)
    (bias : FVec Ideal S1x1024 .f32) (res : FVec Ideal S8192x1024 .f32) (g bt : FVec Ideal S1x1024 .f32)
    (ab : Vec Ideal S512x1024 .bf16) (resb : Vec Ideal S512x1024 .f32) (t : ℕ)
    (ha : ∀ (x : S512x1024.Idx) (k : S8192x1024.Idx), (k 0).val = 512 * t + (x 0).val → (k 1).val = (x 1).val → ab x = a k)
    (hres : ∀ (x : S512x1024.Idx) (k : S8192x1024.Idx), (k 0).val = 512 * t + (x 0).val → (k 1).val = (x 1).val → resb x = res k)
    (j : S512x1024.Idx) (i : S8192x1024.Idx) (hi0 : (i 0).val = 512 * t + (j 0).val) (hi1 : (i 1).val = (j 1).val) :
    k2_pay1 (F := Ideal) ab w bias resb g bt j = rowsNorm a w bias res g bt i := by
  obtain ⟨r, n, rfl⟩ : ∃ (r : Fin 512) (n : Fin 1024), j = ix2 r n := ⟨j 0, j 1, eq_ix2 j⟩
  obtain ⟨R, n', rfl⟩ : ∃ (R : Fin 8192) (n' : Fin 1024), i = ix2 R n' := ⟨i 0, i 1, eq_ix2 i⟩
  obtain rfl : n = n' := (Fin.ext hi1).symm
  rw [hpay, rowsNorm_ix2]
  exact Pay.normOut_congr (R := 8192) (R' := 512) a w bias res g bt ab resb R r
    (fun f => ha (ix2 r f) (ix2 R f) hi0 rfl) (fun m => hres (ix2 r m) (ix2 R m) hi0 rfl) n

variable (V : (c : Dev nD) → (b : Ref sig .tc) → Buf (Elt Ideal) ((c : Thread nD τ).loc b))

theorem zero_offsets2 : (![0, 0] : Fin 2 → Nat) = fun _ => 0 := funext fun a => by fin_cases a <;> rfl

/-- The block indices of region 2 at a point, window by window: (axis 0, axis 1). -/
structure Index2 (t : Fin cfg2.N) : Prop where
  w0 : win2_0.index t (0 : Fin 2) = t.val ∧ win2_0.index t (1 : Fin 2) = 0
  w1 : win2_1.index t (0 : Fin 2) = 0 ∧ win2_1.index t (1 : Fin 2) = 0
  w2 : win2_2.index t (0 : Fin 2) = 0 ∧ win2_2.index t (1 : Fin 2) = 0
  w3 : win2_3.index t (0 : Fin 2) = t.val ∧ win2_3.index t (1 : Fin 2) = 0
  w4 : win2_4.index t (0 : Fin 2) = 0 ∧ win2_4.index t (1 : Fin 2) = 0
  w5 : win2_5.index t (0 : Fin 2) = 0 ∧ win2_5.index t (1 : Fin 2) = 0
  w6 : win2_6.index t (0 : Fin 2) = t.val ∧ win2_6.index t (1 : Fin 2) = 0

/-- Over the grid: at point `t` the row windows (attention output, residual, output) are at row block `t`, and the
    weight, bias, scale and shift windows at their one block. -/
theorem index_decided2 : ∀ t : Fin cfg2.N,
    (win2_0.index t (0 : Fin 2) = t.val ∧ win2_0.index t (1 : Fin 2) = 0)
      ∧ (win2_1.index t (0 : Fin 2) = 0 ∧ win2_1.index t (1 : Fin 2) = 0)
      ∧ (win2_2.index t (0 : Fin 2) = 0 ∧ win2_2.index t (1 : Fin 2) = 0)
      ∧ (win2_3.index t (0 : Fin 2) = t.val ∧ win2_3.index t (1 : Fin 2) = 0)
      ∧ (win2_4.index t (0 : Fin 2) = 0 ∧ win2_4.index t (1 : Fin 2) = 0)
      ∧ (win2_5.index t (0 : Fin 2) = 0 ∧ win2_5.index t (1 : Fin 2) = 0)
      ∧ (win2_6.index t (0 : Fin 2) = t.val ∧ win2_6.index t (1 : Fin 2) = 0) :=
  (by decide +kernel : ∀ t : Fin grid2.N, _)
theorem index_facts2 (t : Fin cfg2.N) : Index2 t :=
  have h := index_decided2 t
  ⟨h.1, h.2.1, h.2.2.1, h.2.2.2.1, h.2.2.2.2.1, h.2.2.2.2.2.1, h.2.2.2.2.2.2⟩

/-- Window 0's block at point `t` is rows `512 t … 512 t + 511` of its array (the attention output). -/
theorem iblk2_0_apply (c : Dev nD) (t : Fin cfg2.N) (x : S512x1024.Idx) (k : S8192x1024.Idx)
    (hk0 : (k 0).val = 512 * t.val + (x 0).val) (hk1 : (k 1).val = (x 1).val) :
    (iblk2 V c 0 t : Vec Ideal S512x1024 .bf16) x = (V c main_v7 : S8192x1024.Idx → Elt Ideal .bf16) k := by
  have e := index_facts2 t
  unfold iblk2
  rw [View.read_apply]
  show V c main_v7 _ = V c main_v7 _
  refine congrArg _ (funext fun a => Fin.ext ?_)
  match a with
  | ⟨0, _⟩ => show win2_0.index t (0 : Fin 2) * 512 + 1 * (x 0).val = (k 0).val; rw [e.w0.1, hk0]; omega
  | ⟨1, _⟩ => show win2_0.index t (1 : Fin 2) * 1024 + 1 * (x 1).val = (k 1).val; rw [e.w0.2, hk1]; omega

/-- Window 1's block at every point is its whole array (the projection matrix). -/
theorem iblk2_1_eq (c : Dev nD) (t : Fin cfg2.N) :
    (iblk2 V c 1 t : Vec Ideal S1024x1024 .bf16) = (V c main_v8 : S1024x1024.Idx → Elt Ideal .bf16) := by
  have e := index_facts2 t
  funext x
  unfold iblk2
  rw [View.read_apply]
  show V c main_v8 _ = V c main_v8 x
  refine congrArg _ (funext fun a => Fin.ext ?_)
  match a with
  | ⟨0, _⟩ => show win2_1.index t (0 : Fin 2) * 1024 + 1 * (x 0).val = (x 0).val; rw [e.w1.1]; omega
  | ⟨1, _⟩ => show win2_1.index t (1 : Fin 2) * 1024 + 1 * (x 1).val = (x 1).val; rw [e.w1.2]; omega

/-- Window 2's block at every point is its whole array (the projection's bias row). -/
theorem iblk2_2_eq (c : Dev nD) (t : Fin cfg2.N) :
    (iblk2 V c 2 t : Vec Ideal S1x1024 .f32) = (V c main_v9 : S1x1024.Idx → Elt Ideal .f32) := by
  have e := index_facts2 t
  funext x
  unfold iblk2
  rw [View.read_apply]
  show V c main_v9 _ = V c main_v9 x
  refine congrArg _ (funext fun a => Fin.ext ?_)
  match a with
  | ⟨0, _⟩ => show win2_2.index t (0 : Fin 2) * 1 + 1 * (x 0).val = (x 0).val; rw [e.w2.1]; omega
  | ⟨1, _⟩ => show win2_2.index t (1 : Fin 2) * 1024 + 1 * (x 1).val = (x 1).val; rw [e.w2.2]; omega

/-- Window 3's block at point `t` is rows `512 t … 512 t + 511` of its array (the residual input). -/
theorem iblk2_3_apply (c : Dev nD) (t : Fin cfg2.N) (x : S512x1024.Idx) (k : S8192x1024.Idx)
    (hk0 : (k 0).val = 512 * t.val + (x 0).val) (hk1 : (k 1).val = (x 1).val) :
    (iblk2 V c 3 t : Vec Ideal S512x1024 .f32) x = (V c main_v12 : S8192x1024.Idx → Elt Ideal .f32) k := by
  have e := index_facts2 t
  unfold iblk2
  rw [View.read_apply]
  show V c main_v12 _ = V c main_v12 _
  refine congrArg _ (funext fun a => Fin.ext ?_)
  match a with
  | ⟨0, _⟩ => show win2_3.index t (0 : Fin 2) * 512 + 1 * (x 0).val = (k 0).val; rw [e.w3.1, hk0]; omega
  | ⟨1, _⟩ => show win2_3.index t (1 : Fin 2) * 1024 + 1 * (x 1).val = (k 1).val; rw [e.w3.2, hk1]; omega

/-- Window 4's block at every point is its whole array (the layer norm's scale row). -/
theorem iblk2_4_eq (c : Dev nD) (t : Fin cfg2.N) :
    (iblk2 V c 4 t : Vec Ideal S1x1024 .f32) = (V c main_v10 : S1x1024.Idx → Elt Ideal .f32) := by
  have e := index_facts2 t
  funext x
  unfold iblk2
  rw [View.read_apply]
  show V c main_v10 _ = V c main_v10 x
  refine congrArg _ (funext fun a => Fin.ext ?_)
  match a with
  | ⟨0, _⟩ => show win2_4.index t (0 : Fin 2) * 1 + 1 * (x 0).val = (x 0).val; rw [e.w4.1]; omega
  | ⟨1, _⟩ => show win2_4.index t (1 : Fin 2) * 1024 + 1 * (x 1).val = (x 1).val; rw [e.w4.2]; omega

/-- Window 5's block at every point is its whole array (the layer norm's shift row). -/
theorem iblk2_5_eq (c : Dev nD) (t : Fin cfg2.N) :
    (iblk2 V c 5 t : Vec Ideal S1x1024 .f32) = (V c main_v11 : S1x1024.Idx → Elt Ideal .f32) := by
  have e := index_facts2 t
  funext x
  unfold iblk2
  rw [View.read_apply]
  show V c main_v11 _ = V c main_v11 x
  refine congrArg _ (funext fun a => Fin.ext ?_)
  match a with
  | ⟨0, _⟩ => show win2_5.index t (0 : Fin 2) * 1 + 1 * (x 0).val = (x 0).val; rw [e.w5.1]; omega
  | ⟨1, _⟩ => show win2_5.index t (1 : Fin 2) * 1024 + 1 * (x 1).val = (x 1).val; rw [e.w5.2]; omega

/-- What point `t` writes back is row block `t` of `rowsNorm` of the arrays as the region finds them. -/
theorem flushed2_6_eq (hpay : PayloadAt) (c : Dev nD) (t : Fin cfg2.N) :
    (dat2 (F := Ideal) V c).flushed 6 t
      = ((cfg2.win 6).blk t).view.read (Elt Ideal)
          (rowsNorm (V c main_v7) (V c main_v8) (V c main_v9) (V c main_v12) (V c main_v10) (V c main_v11)) := by
  show (cfg2.win 6).cut (grid2.coords t) ((dat2 (F := Ideal) V c).after 6 t) = _
  rw [after2_6]
  unfold out2_6
  rw [View.canon_unit_zero zero_offsets2]
  simp only [View.ld_unit_zero (S := S512x1024) zero_offsets2, View.ld_unit_zero (S := S1024x1024) zero_offsets2,
    View.ld_unit_zero (S := S1x1024) zero_offsets2]
  rw [iblk2_1_eq V c t, iblk2_2_eq V c t, iblk2_4_eq V c t, iblk2_5_eq V c t]
  have e := index_facts2 t
  funext j
  show k2_pay1 (F := Ideal) (iblk2 V c 0 t) (V c main_v8) (V c main_v9) (iblk2 V c 3 t) (V c main_v10) (V c main_v11) j
    = rowsNorm (V c main_v7) (V c main_v8) (V c main_v9) (V c main_v12) (V c main_v10) (V c main_v11)
        (((cfg2.win 6).blk t).view.emb j)
  exact norm_block_at hpay (V c main_v7) (V c main_v8) (V c main_v9) (V c main_v12) (V c main_v10) (V c main_v11)
    (iblk2 V c 0 t) (iblk2 V c 3 t) t.val
    (fun x k h0 h1 => iblk2_0_apply V c t x k h0 h1) (fun x k h0 h1 => iblk2_3_apply V c t x k h0 h1)
    j (((cfg2.win 6).blk t).view.emb j)
    (by show win2_6.index t (0 : Fin 2) * 512 + 1 * (j 0).val = _; rw [e.w6.1]; omega)
    (by show win2_6.index t (1 : Fin 2) * 1024 + 1 * (j 1).val = _; rw [e.w6.2]; omega)

/-- An index of the output array is in point `t`'s block iff each coordinate is in the block's range on its axis. -/
theorem mem_blk2_6 (t : Fin cfg2.N) (i : S8192x1024.Idx) :
    i ∈ ((cfg2.win 6).blk t).view.set ↔ ∀ a : Fin 2, win2_6.index t a * S512x1024.size a ≤ (i a).val
      ∧ (i a).val < win2_6.index t a * S512x1024.size a + S512x1024.size a := by
  show i ∈ ((View.whole main_v13).slice (win2_6.rect t)).set ↔ _
  rw [View.set_slice_whole, Rect.mem_set_unit]
  exact Iff.rfl

/-- Every index of the output array is written back by some point: row `r` by point `r / 512`. -/
theorem covered2_6 (i : S8192x1024.Idx) :
    ∃ t : Fin cfg2.N, (cfg2.win 6).flush t = true ∧ i ∈ ((cfg2.win 6).blk t).view.set := by
  have hi0 : (i 0).val < 8192 := (i 0).isLt
  have hi1 : (i 1).val < 1024 := (i 1).isLt
  obtain ⟨t, ht⟩ : ∃ t : Fin cfg2.N, t.val = (i 0).val / 512 :=
    ⟨⟨(i 0).val / 512, by rw [show cfg2.N = 16 from N_2]; omega⟩, rfl⟩
  have e := index_facts2 t
  refine ⟨t, flush2_6 t, ?_⟩
  rw [mem_blk2_6]
  intro a
  match a with
  | ⟨0, _⟩ =>
    show win2_6.index t (0 : Fin 2) * 512 ≤ (i 0).val ∧ (i 0).val < win2_6.index t (0 : Fin 2) * 512 + 512
    rw [e.w6.1, ht]; omega
  | ⟨1, _⟩ =>
    show win2_6.index t (1 : Fin 2) * 1024 ≤ (i 1).val ∧ (i 1).val < win2_6.index t (1 : Fin 2) * 1024 + 1024
    rw [e.w6.2]; omega

/-- The output array after region 2's run, from the payload's value at an index: the layer-normed rows of the arrays
    the region found. -/
theorem final2_6_of (hpay : PayloadAt) (c : Dev nD) :
    (dat2 (F := Ideal) V c).arrAt 6 cfg2.N
      = rowsNorm (V c main_v7) (V c main_v8) (V c main_v9) (V c main_v12) (V c main_v10) (V c main_v11) :=
  (dat2 (F := Ideal) V c).arrAt_eq_of_cover 6
    (rowsNorm (V c main_v7) (V c main_v8) (V c main_v9) (V c main_v12) (V c main_v10) (V c main_v11))
    (fun t _ => flushed2_6_eq V hpay c t) covered2_6

end Cert.KernelIdeal.Hand

end
-- ==== Proof.KernelIdealPay2.lean ====
/-
  The output projection, residual and layer norm body's stored value read at an index, at the exact extended reals:
  row r, column n of a [512, 1024] block is scale · (deviation · rsqrt (variance + epsilon)) + shift, the deviation and
  variance taken over the row of (rows · weights + bias) + residual.
-/
import proofs.«113321_j206158430385_2_alg».proof.Proof.KernelIdealPay1
import proofs.«113321_j206158430385_2_alg».proof.Proof.KernelIdealNormSpec

noncomputable section

open scoped BigOperators

namespace Cert.KernelIdeal.Pay

open Idealize.ShloMosaic Idealize.ShloMosaic.ValueIdx
open Cert.KernelIdeal Cert.KernelIdeal.Gen

/-- The reciprocal square root at an index is that of the element. -/
theorem rsqrt_apply {s : Shape} {φ : FTy} (a : FVec Ideal s φ) (i : s.Idx) : rsqrt a i = Ideal.rsqrt (a i) := rfl

/-! ## The lane sum of a [512, 1024] block -/

/-- The reduced index (r) with the lane n inserted is (r, n). -/
theorem lift_row512 (r : Fin 512) (n : Fin 1024) : reduces_S512x1024_S512.lift (ix1 r) n = ix2 r n :=
  funext fun a => Fin.ext (by match a with | ⟨0, _⟩ => rfl | ⟨1, _⟩ => rfl)

/-- The lane sum: the sum over the row. -/
theorem rowSum512_apply (src : FVec Ideal S512x1024 .f32) (hφ : FKind.Formats .f32)
    (hacc : (0x00000000#32 : BitVec 32) = 0x00000000#32) (r : Fin 512) :
    multiReduction .add [1] S512 src 0x00000000#32 reduces_S512x1024_S512 hφ hacc (ix1 r)
      = ∑ n : Fin 1024, src (ix2 r n) := by
  refine (Ideal.multiReduction_add_single src 0x00000000#32 reduces_S512x1024_S512 hφ hacc (ix1 r)).trans ?_
  exact Finset.sum_congr rfl fun n _ => congrArg src (lift_row512 r n)

/-! ## The projection product read at an index -/

theorem proj_lhs_n (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem proj_lhs_c (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem proj_rhs_n (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl
theorem proj_rhs_c (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- The projection into a zero accumulator at (r, n): the sum over the 1024 features of a(r, ·) · w(·, n). -/
theorem proj_apply (a : FVec Ideal S512x1024 .bf16) (w : FVec Ideal S1024x1024 .bf16) (r : Fin 512) (n : Fin 1024) :
    matmul dot_S512x1024_S1024x1024_S512x1024_1_0_0_1_n_n none a w (constant S512x1024 .f32 0x00000000#32) (ix2 r n)
      = ∑ f : Fin 1024, a (ix2 r f) * w (ix2 f n) := by
  simp only [matmul]
  rw [Ideal.matmul_constant_zero_apply,
    ← Equiv.sum_comp (contrEquiv1 dot_S512x1024_S1024x1024_S512x1024_1_0_0_1_n_n 1024 rfl rfl).symm]
  refine Finset.sum_congr rfl fun f _ => ?_
  have hf := contrEquiv1_symm_val dot_S512x1024_S1024x1024_S512x1024_1_0_0_1_n_n 1024 rfl rfl f
  have el : dot_S512x1024_S1024x1024_S512x1024_1_0_0_1_n_n.lhsIdx (ix2 r n) ((contrEquiv1 dot_S512x1024_S1024x1024_S512x1024_1_0_0_1_n_n 1024 rfl rfl).symm f) = ix2 r f :=
    funext fun a => Fin.ext (by
      match a with
      | ⟨0, _⟩ => exact proj_lhs_n _ _
      | ⟨1, _⟩ => exact (proj_lhs_c _ _).trans hf)
  have er : dot_S512x1024_S1024x1024_S512x1024_1_0_0_1_n_n.rhsIdx (ix2 r n) ((contrEquiv1 dot_S512x1024_S1024x1024_S512x1024_1_0_0_1_n_n 1024 rfl rfl).symm f) = ix2 f n :=
    funext fun a => Fin.ext (by
      match a with
      | ⟨0, _⟩ => exact (proj_rhs_c _ _).trans hf
      | ⟨1, _⟩ => exact proj_rhs_n _ _)
  rw [el, er]

/-! ## The stored value -/

/-- The body's stored value at (r, n) is the layer norm's output of row r at column n. -/
theorem k2_pay1_ix2 (a : Vec Ideal S512x1024 .bf16) (w : Vec Ideal S1024x1024 .bf16) (bias : Vec Ideal S1x1024 .f32)
    (res : Vec Ideal S512x1024 .f32) (g bt : Vec Ideal S1x1024 .f32) (r : Fin 512) (n : Fin 1024) :
    k2_pay1 (F := Ideal) a w bias res g bt (ix2 r n) = normOut a w bias res g bt r n := by
  unfold k2_pay1 normOut normVr normDv normMu normY
  simp only [shapeCast_self, addf_apply, mulf_apply, subf_apply, divf_apply, rsqrt_apply, broadcast_apply, scalar_ofBits,
    broadcastTo_1b_ab_apply, broadcastTo_a1_ab_apply, shapeCast_a_a1_apply, proj_apply]
  repeat
    rw [rowSum512_apply]
    simp only [shapeCast_self, addf_apply, mulf_apply, subf_apply, divf_apply, rsqrt_apply, broadcast_apply, scalar_ofBits,
      broadcastTo_1b_ab_apply, broadcastTo_a1_ab_apply, shapeCast_a_a1_apply, proj_apply]

end Cert.KernelIdeal.Pay

end
-- ==== Proof.KernelIdealFinal2.lean ====
import proofs.«113321_j206158430385_2_alg».proof.Proof.KernelIdealBlocks2
import proofs.«113321_j206158430385_2_alg».proof.Proof.KernelIdealPay2

noncomputable section

namespace Cert.KernelIdeal.Hand

open Cert.KernelIdeal Cert.KernelIdeal.Gen
open Idealize.ShloMosaic Idealize.ShloMosaic.TcCoe Idealize.ShloMosaic.ValueIdx Idealize.SL.Sem

/-- The payload at an index of a block is the layer-normed row of the block. -/
theorem payloadAt : PayloadAt := fun a w bias res g bt r n => Pay.k2_pay1_ix2 a w bias res g bt r n

variable (V : (c : Dev nD) → (b : Ref sig .tc) → Buf (Elt Ideal) ((c : Thread nD τ).loc b))

/-- The output array after region 2's run: the layer-normed rows of the arrays the region found. -/
theorem final2_6 (c : Dev nD) :
    (dat2 (F := Ideal) V c).arrAt 6 cfg2.N
      = rowsNorm (V c main_v7) (V c main_v8) (V c main_v9) (V c main_v12) (V c main_v10) (V c main_v11) :=
  final2_6_of V payloadAt c

end Cert.KernelIdeal.Hand

end
-- ==== Proof.NormRows.lean ====
/-
  The output projection, residual and layer norm computed row by row over a flattened (batch · position) row axis are
  the specification's: if row r of the projected array is the merged heads at (b, l), row r of the residual is x at
  (b, l), and the weights, bias, scale and shift are W_p, b_p, γ, β, then at row r and channel n the row-wise layer norm
  (with the product by the reciprocal square root) is the specification's at (b, l, n). Each quantity at a row depends
  on that row only, so the statement is local to the row.
-/
import proofs.«113321_j206158430385_2_alg».proof.Proof.Spec
import proofs.«113321_j206158430385_2_alg».proof.Proof.KernelIdealNormSpec

noncomputable section

open scoped BigOperators

namespace Cert.Spec

open Idealize.ShloMosaic Idealize.ShloMosaic.ValueIdx Cert.KernelIdeal.Pay

section Rows

variable {x : FVec Ideal SAct .f32} {mask : FVec Ideal SMask .f32} {Wqkv : FVec Ideal SWqkv .f32}
  {bqkv : FVec Ideal SBqkv .f32} {Wp : FVec Ideal SWp .f32} {bp γ β : FVec Ideal SChan .f32}
  {R : ℕ} (a : (⟨2, ![R, 1024]⟩ : Shape).Idx → EReal) (w : (⟨2, ![1024, 1024]⟩ : Shape).Idx → EReal)
  (bias : (⟨2, ![1, 1024]⟩ : Shape).Idx → EReal) (res : (⟨2, ![R, 1024]⟩ : Shape).Idx → EReal)
  (g bt : (⟨2, ![1, 1024]⟩ : Shape).Idx → EReal)

/-- The projected row plus bias plus residual is the specification's. -/
theorem normY_eq_proj (b : Fin 8) (l : Fin 1024) (r : Fin R)
    (ha : ∀ f : Fin 1024, a (ix2 r f) = merged x mask Wqkv bqkv b l f)
    (hw : ∀ f n : Fin 1024, w (ix2 f n) = Wp (ix2 f n))
    (hb : ∀ n : Fin 1024, bias (ix2 (0 : Fin 1) n) = bp (ix1 n))
    (hres : ∀ n : Fin 1024, res (ix2 r n) = x (ix3 b l n)) (n : Fin 1024) :
    normY a w bias res r n = proj x mask Wqkv bqkv Wp bp b l n := by
  unfold normY proj
  rw [hb n, hres n]
  simp only [ha, hw]

theorem normMu_eq_mean (b : Fin 8) (l : Fin 1024) (r : Fin R)
    (ha : ∀ f : Fin 1024, a (ix2 r f) = merged x mask Wqkv bqkv b l f)
    (hw : ∀ f n : Fin 1024, w (ix2 f n) = Wp (ix2 f n))
    (hb : ∀ n : Fin 1024, bias (ix2 (0 : Fin 1) n) = bp (ix1 n))
    (hres : ∀ n : Fin 1024, res (ix2 r n) = x (ix3 b l n)) :
    normMu a w bias res r = mean x mask Wqkv bqkv Wp bp b l := by
  unfold normMu mean
  simp only [normY_eq_proj a w bias res b l r ha hw hb hres]

theorem normDv_eq_dev (b : Fin 8) (l : Fin 1024) (r : Fin R)
    (ha : ∀ f : Fin 1024, a (ix2 r f) = merged x mask Wqkv bqkv b l f)
    (hw : ∀ f n : Fin 1024, w (ix2 f n) = Wp (ix2 f n))
    (hb : ∀ n : Fin 1024, bias (ix2 (0 : Fin 1) n) = bp (ix1 n))
    (hres : ∀ n : Fin 1024, res (ix2 r n) = x (ix3 b l n)) (n : Fin 1024) :
    normDv a w bias res r n = dev x mask Wqkv bqkv Wp bp b l n := by
  unfold normDv dev
  rw [normY_eq_proj a w bias res b l r ha hw hb hres n, normMu_eq_mean a w bias res b l r ha hw hb hres]

theorem normVr_eq_var (b : Fin 8) (l : Fin 1024) (r : Fin R)
    (ha : ∀ f : Fin 1024, a (ix2 r f) = merged x mask Wqkv bqkv b l f)
    (hw : ∀ f n : Fin 1024, w (ix2 f n) = Wp (ix2 f n))
    (hb : ∀ n : Fin 1024, bias (ix2 (0 : Fin 1) n) = bp (ix1 n))
    (hres : ∀ n : Fin 1024, res (ix2 r n) = x (ix3 b l n)) :
    normVr a w bias res r = var x mask Wqkv bqkv Wp bp b l := by
  unfold normVr var
  simp only [normDv_eq_dev a w bias res b l r ha hw hb hres]

/-- THE ROW-WISE LAYER NORM IS THE SPECIFICATION'S, in the form with the product by the reciprocal square root. -/
theorem normOut_eq_normRsqrt (b : Fin 8) (l : Fin 1024) (r : Fin R)
    (ha : ∀ f : Fin 1024, a (ix2 r f) = merged x mask Wqkv bqkv b l f)
    (hw : ∀ f n : Fin 1024, w (ix2 f n) = Wp (ix2 f n))
    (hb : ∀ n : Fin 1024, bias (ix2 (0 : Fin 1) n) = bp (ix1 n))
    (hres : ∀ n : Fin 1024, res (ix2 r n) = x (ix3 b l n))
    (hg : ∀ n : Fin 1024, g (ix2 (0 : Fin 1) n) = γ (ix1 n))
    (hbt : ∀ n : Fin 1024, bt (ix2 (0 : Fin 1) n) = β (ix1 n)) (n : Fin 1024) :
    normOut a w bias res g bt r n = normRsqrt x mask Wqkv bqkv Wp bp γ β b l n := by
  unfold normOut normRsqrt
  rw [hg n, hbt n, normDv_eq_dev a w bias res b l r ha hw hb hres n, normVr_eq_var a w bias res b l r ha hw hb hres]

end Rows

end Cert.Spec

end
-- ==== Proof.KernelIdealStage2.lean ====
/-
  The last region's result, read after the re-laying that follows it: at (batch entry b, position l, channel n) the
  first result holds the specification's output projection, residual and layer norm (in the form with the product by the
  reciprocal square root) of the eight arguments, given that the attention region left the merged heads in its output
  array.
-/
import proofs.«113321_j206158430385_2_alg».proof.Proof.KernelIdealGlue
import proofs.«113321_j206158430385_2_alg».proof.Proof.KernelIdealFinal2
import proofs.«113321_j206158430385_2_alg».proof.Proof.NormRows
import proofs.«113321_j206158430385_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The first result at (b, l, n) is the specification's normalised output there: the last region leaves the
    layer-normed rows of the arrays it finds, row b·1024 + l of which is position l of batch entry b; those arrays are the
    merged heads, the arguments W_p, b_p, γ, β as rows, and the activations as the residual. -/
theorem stage_out (c : Dev nD)
    (hmerged : ∀ (b : Fin 8) (l f : Fin 1024), W4 (F := Ideal) m c (Proc.devRef .tc main_v6_0) (ix3 b l f)
      = Cert.Spec.merged (m ((c : Thread nD τ).loc main_arg0)) (m ((c : Thread nD τ).loc main_arg1))
          (m ((c : Thread nD τ).loc main_arg2)) (m ((c : Thread nD τ).loc main_arg3)) b l f)
    (b : Fin 8) (l n : Fin 1024) :
    W7 (F := Ideal) m c (Proc.devRef .tc main_v14) (ix3 b l n)
      = Cert.Spec.normRsqrt (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) b l n := by
  rw [glue_v14, show W6 (F := Ideal) m c (Proc.devRef .tc main_v13) = (dat2 (F := Ideal) (V5 m) c).arrAt 6 cfg2.N from W6_arr m c 6,
    final2_6 (V5 m) c, rowsNorm_ix2]
  exact Cert.Spec.normOut_eq_normRsqrt _ _ _ _ _ _ b l (rowOf b l)
    (fun f => (glue_v7 m c b l f).trans (hmerged b l f))
    (fun f n => congrFun (glue_v8 m c) (ix2 f n))
    (fun n => glue_v9 m c n)
    (fun n => glue_v12 m c b l n)
    (fun n => glue_v10 m c n)
    (fun n => glue_v11 m c n) n

/-- The first result as a whole array is the specification's. -/
theorem stage_out_eq (c : Dev nD)
    (hmerged : ∀ (b : Fin 8) (l f : Fin 1024), W4 (F := Ideal) m c (Proc.devRef .tc main_v6_0) (ix3 b l f)
      = Cert.Spec.merged (m ((c : Thread nD τ).loc main_arg0)) (m ((c : Thread nD τ).loc main_arg1))
          (m ((c : Thread nD τ).loc main_arg2)) (m ((c : Thread nD τ).loc main_arg3)) b l f) :
    W7 (F := Ideal) m c (Proc.devRef .tc main_v14)
      = Cert.Spec.outRsqrt (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine funext fun (idx : S8x1024x1024.Idx) => ?_
  obtain ⟨b, l, n, rfl⟩ : ∃ (b : Fin 8) (l n : Fin 1024), idx = ix3 b l n := ⟨idx 0, idx 1, idx 2, eq_ix3 idx⟩
  rw [Cert.Spec.outRsqrt_ix3]
  exact stage_out m c hmerged b l n

end Cert.KernelIdeal.Hand

end
-- ==== Proof.KernelIdealValue.lean ====
/-
  The kernel program's run at the exact extended reals, with its two results named: every execution ends, nothing
  faults, the first result is the specification's output with the normalisation written as a product by the reciprocal
  square root, the second is the specification's attention weights, and the eight arguments are as launched.
-/
import proofs.«113321_j206158430385_2_alg».proof.Proof.KernelIdealStage1
import proofs.«113321_j206158430385_2_alg».proof.Proof.KernelIdealStage2

set_option maxRecDepth 16384

noncomputable section

namespace Cert.KernelIdeal.Hand

open Cert.KernelIdeal Cert.KernelIdeal.Gen
open Idealize.ShloMosaic Idealize.ShloMosaic.TcCoe Idealize.SL.Sem

/-- The run of the whole program read at its two results and its arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14)
          = Cert.Spec.outRsqrt (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
      ∧ r.2.mem ((c.tc : Thread nD τ).loc main_v6_1)
          = Cert.Spec.attnOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v14 (by decide))).trans (stage_out_eq m c (stage_merged m c)),
     (h c _ (mem_uc main_v6_1 (by decide))).trans ((glue_attn m c).trans (stage_attn_eq m c)),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c)⟩) (run_all m ρ)

end Cert.KernelIdeal.Hand

end
-- ==== Proof.RefIsSpec.lean ====
/-
  The reference program's two results are the specification's functions of the argument arrays, index by index:
  each host operation's stage, read at an index given by its literal coordinates, is the corresponding stage of
  Cert.Spec. The layout operations (the three column thirds, the split into heads and its inverse, the broadcasts
  of row statistics) only re-index; the contractions are sums over one coordinate; the row maximum is a fold of max
  over the key positions, and taking the maximum with −∞ once more changes nothing; a sum started from the zero word
  is the sum.
-/
import proofs.«113321_j206158430385_2_alg».proof.Proof.Gen.ReferenceIdeal.Read
import proofs.«113321_j206158430385_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S8x1024x1024, .f32⟩ : BufTy).Contents (Elt Ideal)) (x1 : (⟨S8x1x1024x1024, .f32⟩ : BufTy).Contents (Elt Ideal))
  (x2 : (⟨S1024x3072, .f32⟩ : BufTy).Contents (Elt Ideal)) (x3 : (⟨S3072, .f32⟩ : BufTy).Contents (Elt Ideal))
  (x4 : (⟨S1024x1024, .f32⟩ : BufTy).Contents (Elt Ideal)) (x5 x6 x7 : (⟨S1024, .f32⟩ : BufTy).Contents (Elt Ideal))

/-! ## The fused projection and its three thirds, head by head -/

/-- The fused projection at (b, l, f). -/
theorem qkv_at (b : Fin 8) (l : Fin 1024) (f : Fin 3072) :
    val_main_v3 (F := Ideal) x0 x2 x3 (ix3 b l f) = Cert.Spec.qkv x0 x2 x3 b l f := by
  rw [val_main_v3_apply, val_main_v0_apply, val_main_v2_apply, val_main_v1_apply]
  have e : idx_main_v1 (idx_main_v2 (ix3 b l f)) = ix1 f :=
    funext fun a => Fin.ext (by match a with | ⟨0, _⟩ => rfl)
  rw [e]
  unfold Cert.Spec.qkv
  refine congrArg (· + x3 (ix1 f)) (Finset.sum_congr rfl fun d _ => ?_)
  have el : lidx_main_v0 (ix3 b l f) d = ix3 b l d :=
    funext fun a => Fin.ext (by match a with | ⟨0, _⟩ => rfl | ⟨1, _⟩ => rfl | ⟨2, _⟩ => rfl)
  have er : ridx_main_v0 (ix3 b l f) d = ix2 d f :=
    funext fun a => Fin.ext (by match a with | ⟨0, _⟩ => rfl | ⟨1, _⟩ => rfl)
  rw [el, er]

/-- Splitting a 1024-wide third into sixteen heads of 64 lanes and putting the head axis before the positions reads
    channel h·64 + d at position i: for the queries' third, … -/
theorem split_idx_q (b : Fin 8) (h : Fin 16) (i : Fin 1024) (d : Fin 64) :
    idx_main_v7 (idx_main_v8 (ix4 b h i d)) = ix3 b i (Cert.Spec.headCol h d) := by
  have hb := b.isLt; have hh := h.isLt; have hi := i.isLt; have hd := d.isLt
  funext a; refine Fin.ext ?_
  match a with
  | ⟨0, _⟩ => show (((b.val * 1024 + i.val) * 16 + h.val) * 64 + d.val) / 1048576 = b.val; omega
  | ⟨1, _⟩ => show (((b.val * 1024 + i.val) * 16 + h.val) * 64 + d.val) / 1024 % 1024 = i.val; omega
  | ⟨2, _⟩ => show (((b.val * 1024 + i.val) * 16 + h.val) * 64 + d.val) % 1024 = h.val * 64 + d.val; omega

/-- … the keys' … -/
theorem split_idx_k (b : Fin 8) (h : Fin 16) (i : Fin 1024) (d : Fin 64) :
    idx_main_v9 (idx_main_v10 (ix4 b h i d)) = ix3 b i (Cert.Spec.headCol h d) := by
  have hb := b.isLt; have hh := h.isLt; have hi := i.isLt; have hd := d.isLt
  funext a; refine Fin.ext ?_
  match a with
  | ⟨0, _⟩ => show (((b.val * 1024 + i.val) * 16 + h.val) * 64 + d.val) / 1048576 = b.val; omega
  | ⟨1, _⟩ => show (((b.val * 1024 + i.val) * 16 + h.val) * 64 + d.val) / 1024 % 1024 = i.val; omega
  | ⟨2, _⟩ => show (((b.val * 1024 + i.val) * 16 + h.val) * 64 + d.val) % 1024 = h.val * 64 + d.val; omega

/-- … and the values'. -/
theorem split_idx_v (b : Fin 8) (h : Fin 16) (i : Fin 1024) (d : Fin 64) :
    idx_main_v11 (idx_main_v12 (ix4 b h i d)) = ix3 b i (Cert.Spec.headCol h d) := by
  have hb := b.isLt; have hh := h.isLt; have hi := i.isLt; have hd := d.isLt
  funext a; refine Fin.ext ?_
  match a with
  | ⟨0, _⟩ => show (((b.val * 1024 + i.val) * 16 + h.val) * 64 + d.val) / 1048576 = b.val; omega
  | ⟨1, _⟩ => show (((b.val * 1024 + i.val) * 16 + h.val) * 64 + d.val) / 1024 % 1024 = i.val; omega
  | ⟨2, _⟩ => show (((b.val * 1024 + i.val) * 16 + h.val) * 64 + d.val) % 1024 = h.val * 64 + d.val; omega

/-- Head h's queries. -/
theorem q_at (b : Fin 8) (h : Fin 16) (i : Fin 1024) (d : Fin 64) :
    val_main_v8 (F := Ideal) x0 x2 x3 (ix4 b h i d) = Cert.Spec.q x0 x2 x3 b h i d := by
  rw [val_main_v8_apply, val_main_v7_apply, split_idx_q, val_main_v4_apply]
  have e : idx_main_v4 (ix3 b i (Cert.Spec.headCol h d)) = ix3 b i (Cert.Spec.qCol (Cert.Spec.headCol h d)) :=
    funext fun a => Fin.ext (by match a with | ⟨0, _⟩ => rfl | ⟨1, _⟩ => rfl | ⟨2, _⟩ => rfl)
  rw [e, qkv_at]; rfl

/-- Head h's keys. -/
theorem k_at (b : Fin 8) (h : Fin 16) (j : Fin 1024) (d : Fin 64) :
    val_main_v10 (F := Ideal) x0 x2 x3 (ix4 b h j d) = Cert.Spec.k x0 x2 x3 b h j d := by
  rw [val_main_v10_apply, val_main_v9_apply, split_idx_k, val_main_v5_apply]
  have e : idx_main_v5 (ix3 b j (Cert.Spec.headCol h d)) = ix3 b j (Cert.Spec.kCol (Cert.Spec.headCol h d)) :=
    funext fun a => Fin.ext (by match a with | ⟨0, _⟩ => rfl | ⟨1, _⟩ => rfl | ⟨2, _⟩ => rfl)
  rw [e, qkv_at]; rfl

/-- Head h's values. -/
theorem v_at (b : Fin 8) (h : Fin 16) (j : Fin 1024) (d : Fin 64) :
    val_main_v12 (F := Ideal) x0 x2 x3 (ix4 b h j d) = Cert.Spec.v x0 x2 x3 b h j d := by
  rw [val_main_v12_apply, val_main_v11_apply, split_idx_v, val_main_v6_apply]
  have e : idx_main_v6 (ix3 b j (Cert.Spec.headCol h d)) = ix3 b j (Cert.Spec.vCol (Cert.Spec.headCol h d)) :=
    funext fun a => Fin.ext (by match a with | ⟨0, _⟩ => rfl | ⟨1, _⟩ => rfl | ⟨2, _⟩ => rfl)
  rw [e, qkv_at]; rfl

/-! ## The scores, the row maximum, the exponentials and the weights -/

/-- The masked, scaled scores. -/
theorem scores_at (b : Fin 8) (h : Fin 16) (i j : Fin 1024) :
    val_main_v23 (F := Ideal) x0 x1 x2 x3 (ix4 b h i j) = Cert.Spec.scores x0 x1 x2 x3 b h i j := by
  have em : idx_main_v16 (ix4 b h i j) = ix4 b (0 : Fin 1) i j :=
    funext fun a => Fin.ext (by match a with | ⟨0, _⟩ => rfl | ⟨1, _⟩ => rfl | ⟨2, _⟩ => rfl | ⟨3, _⟩ => rfl)
  have em' : idx_main_v22 (ix4 b h i j) = ix4 b (0 : Fin 1) i j :=
    funext fun a => Fin.ext (by match a with | ⟨0, _⟩ => rfl | ⟨1, _⟩ => rfl | ⟨2, _⟩ => rfl | ⟨3, _⟩ => rfl)
  have es : (∑ d : Fin 64, val_main_v8 (F := Ideal) x0 x2 x3 (lidx_main_v13 (ix4 b h i j) d)
        * val_main_v10 (F := Ideal) x0 x2 x3 (ridx_main_v13 (ix4 b h i j) d))
      = ∑ d : Fin 64, Cert.Spec.q x0 x2 x3 b h i d * Cert.Spec.k x0 x2 x3 b h j d :=
    Finset.sum_congr rfl fun d _ => by
      have el : lidx_main_v13 (ix4 b h i j) d = ix4 b h i d :=
        funext fun a => Fin.ext (by match a with | ⟨0, _⟩ => rfl | ⟨1, _⟩ => rfl | ⟨2, _⟩ => rfl | ⟨3, _⟩ => rfl)
      have er : ridx_main_v13 (ix4 b h i j) d = ix4 b h j d :=
        funext fun a => Fin.ext (by match a with | ⟨0, _⟩ => rfl | ⟨1, _⟩ => rfl | ⟨2, _⟩ => rfl | ⟨3, _⟩ => rfl)
      rw [el, er, q_at, k_at]
  rw [val_main_v23_apply, val_main_v17_apply, val_main_v16_apply, em, val_main_v15_apply, val_main_v13_apply, es,
    val_main_v14_apply, val_main_cst_apply, val_main_v22_apply, em', val_main_v21_apply, val_main_v19_apply,
    val_main_v18_apply, val_main_cst_0_apply, val_main_v20_apply, val_main_cst_1_apply]
  rfl

/-- A row's maximum: the fold of max over the key positions from −∞; the maximum with −∞ once more is the same. -/
theorem rowMax_at (b : Fin 8) (h : Fin 16) (i : Fin 1024) :
    val_main_v26 (F := Ideal) x0 x1 x2 x3 (ix3 b h i) = Cert.Spec.rowMax x0 x1 x2 x3 b h i := by
  have hr : S8x16x1024x1024.Reduces [3] S8x16x1024 := by decide
  have hf : (val_main_v23 (F := Ideal) x0 x1 x2 x3 ∘ hr.lift (ix3 b h i))
      = fun j : Fin 1024 => Cert.Spec.scores x0 x1 x2 x3 b h i j := by
    funext j
    have e : hr.lift (ix3 b h i) j = ix4 b h i j :=
      funext fun a => Fin.ext (by match a with | ⟨0, _⟩ => rfl | ⟨1, _⟩ => rfl | ⟨2, _⟩ => rfl | ⟨3, _⟩ => rfl)
    show val_main_v23 (F := Ideal) x0 x1 x2 x3 (hr.lift (ix3 b h i) j) = _
    rw [e]; exact scores_at x0 x1 x2 x3 b h i j
  have hfold := Host.reduce_eq_fold_single (FloatOps.maximumf (F := Ideal) (φ := .f32))
    (val_main_v23 (F := Ideal) x0 x1 x2 x3) (val_main_cst_2 (F := Ideal))
    reducesTo_S8x16x1024x1024_S8x16x1024_d3 hr h_S_ (ix3 b h i)
  rw [hf] at hfold
  rw [val_main_v26_apply, val_main_v25_apply, val_main_cst_3_apply]
  refine (congrArg (fun t => FloatOps.maximumf (F := Ideal) (φ := .f32) (FloatOps.ofBits .f32 0xFF800000#32) t) hfold).trans ?_
  show max (Ideal.ofBits .f32 0xFF800000#32) ((Finset.univ : Finset (Fin 1024)).fold max (Ideal.ofBits .f32 0xFF800000#32)
      (fun j => Cert.Spec.scores x0 x1 x2 x3 b h i j))
    = (Finset.univ : Finset (Fin 1024)).fold max (Ideal.ofBits .f32 0xFF800000#32)
      (fun j => Cert.Spec.scores x0 x1 x2 x3 b h i j)
  exact max_eq_right ((Finset.le_fold_max _).mpr (Or.inl le_rfl))

/-- exp(score − the row's maximum). -/
theorem expo_at (b : Fin 8) (h : Fin 16) (i j : Fin 1024) :
    val_main_v30 (F := Ideal) x0 x1 x2 x3 (ix4 b h i j) = Cert.Spec.expo x0 x1 x2 x3 b h i j := by
  have e : idx_main_v27 (idx_main_v28 (ix4 b h i j)) = ix3 b h i :=
    funext fun a => Fin.ext (by match a with | ⟨0, _⟩ => rfl | ⟨1, _⟩ => rfl | ⟨2, _⟩ => rfl)
  rw [val_main_v30_apply, val_main_v29_apply, scores_at, val_main_v28_apply, val_main_v27_apply, e, rowMax_at]
  rfl

/-- The attention weights: the exponential over the row's sum of exponentials (a sum started from the zero word). -/
theorem attn_at (b : Fin 8) (h : Fin 16) (i j : Fin 1024) :
    val_main_v34 (F := Ideal) x0 x1 x2 x3 (ix4 b h i j) = Cert.Spec.attn x0 x1 x2 x3 b h i j := by
  have e : idx_main_v32 (idx_main_v33 (ix4 b h i j)) = ix3 b h i :=
    funext fun a => Fin.ext (by match a with | ⟨0, _⟩ => rfl | ⟨1, _⟩ => rfl | ⟨2, _⟩ => rfl)
  have es : (∑ k : Fin 1024, val_main_v30 (F := Ideal) x0 x1 x2 x3 (idx_main_v31 (ix3 b h i) k))
      = ∑ j' : Fin 1024, Cert.Spec.expo x0 x1 x2 x3 b h i j' :=
    Finset.sum_congr rfl fun k _ => by
      have ek : idx_main_v31 (ix3 b h i) k = ix4 b h i k :=
        funext fun a => Fin.ext (by match a with | ⟨0, _⟩ => rfl | ⟨1, _⟩ => rfl | ⟨2, _⟩ => rfl | ⟨3, _⟩ => rfl)
      rw [ek, expo_at]
  rw [val_main_v34_apply, expo_at, val_main_v33_apply, val_main_v32_apply, e, val_main_v31_apply, es,
    val_main_cst_4_apply]
  show Ideal.div _ (Ideal.ofBits .f32 0x00000000#32 + _) = _
  rw [Ideal.ofBits_zero_f32, zero_add]
  rfl

/-! ## The heads' outputs, merged and projected; the layer norm -/

/-- Head h's output: the weights against the values. -/
theorem headOut_at (b : Fin 8) (h : Fin 16) (i : Fin 1024) (d : Fin 64) :
    val_main_v35 (F := Ideal) x0 x1 x2 x3 (ix4 b h i d) = Cert.Spec.headOut x0 x1 x2 x3 b i h d := by
  rw [val_main_v35_apply]
  unfold Cert.Spec.headOut
  refine Finset.sum_congr rfl fun j _ => ?_
  have el : lidx_main_v35 (ix4 b h i d) j = ix4 b h i j := funext fun a => Fin.ext (by match a with | ⟨0, _⟩ => rfl | ⟨1, _⟩ => rfl | ⟨2, _⟩ => rfl | ⟨3, _⟩ => rfl)
  have er : ridx_main_v35 (ix4 b h i d) j = ix4 b h j d := funext fun a => Fin.ext (by match a with | ⟨0, _⟩ => rfl | ⟨1, _⟩ => rfl | ⟨2, _⟩ => rfl | ⟨3, _⟩ => rfl)
  rw [el, er, attn_at, v_at]

/-- Putting the positions before the heads again and joining head and lane into one channel axis reads, at channel f,
    lane (f mod 64) of head (f div 64). -/
theorem merge_idx (b : Fin 8) (l f : Fin 1024) :
    idx_main_v36 (idx_main_v37 (ix3 b l f)) = ix4 b (Cert.Spec.headOf f) l (Cert.Spec.laneOf f) := by
  have hb := b.isLt; have hl := l.isLt; have hf := f.isLt
  funext a; refine Fin.ext ?_
  match a with
  | ⟨0, _⟩ => show ((b.val * 1024 + l.val) * 1024 + f.val) / 1048576 = b.val; omega
  | ⟨1, _⟩ => show ((b.val * 1024 + l.val) * 1024 + f.val) / 64 % 16 = f.val / 64; omega
  | ⟨2, _⟩ => show ((b.val * 1024 + l.val) * 1024 + f.val) / 1024 % 1024 = l.val; omega
  | ⟨3, _⟩ => show ((b.val * 1024 + l.val) * 1024 + f.val) % 64 = f.val % 64; omega

/-- The heads side by side. -/
theorem merged_at (b : Fin 8) (l f : Fin 1024) :
    val_main_v37 (F := Ideal) x0 x1 x2 x3 (ix3 b l f) = Cert.Spec.merged x0 x1 x2 x3 b l f := by
  rw [val_main_v37_apply, val_main_v36_apply, merge_idx, headOut_at]; rfl

/-- The output projection, its bias and the residual. -/
theorem proj_at (b : Fin 8) (l n : Fin 1024) :
    val_main_v42 (F := Ideal) x0 x1 x2 x3 x4 x5 (ix3 b l n) = Cert.Spec.proj x0 x1 x2 x3 x4 x5 b l n := by
  have e : idx_main_v39 (idx_main_v40 (ix3 b l n)) = ix1 n := funext fun a => Fin.ext (by match a with | ⟨0, _⟩ => rfl)
  have es : (∑ k : Fin 1024, val_main_v37 (F := Ideal) x0 x1 x2 x3 (lidx_main_v38 (ix3 b l n) k) * x4 (ridx_main_v38 (ix3 b l n) k))
      = ∑ f : Fin 1024, Cert.Spec.merged x0 x1 x2 x3 b l f * x4 (ix2 f n) :=
    Finset.sum_congr rfl fun f _ => by
      have el : lidx_main_v38 (ix3 b l n) f = ix3 b l f := funext fun a => Fin.ext (by match a with | ⟨0, _⟩ => rfl | ⟨1, _⟩ => rfl | ⟨2, _⟩ => rfl)
      have er : ridx_main_v38 (ix3 b l n) f = ix2 f n := funext fun a => Fin.ext (by match a with | ⟨0, _⟩ => rfl | ⟨1, _⟩ => rfl)
      rw [el, er, merged_at]
  rw [val_main_v42_apply, val_main_v41_apply, val_main_v38_apply, es, val_main_v40_apply, val_main_v39_apply, e]
  rfl

/-- A row's mean over the channels (a sum started from the zero word, over 1024). -/
theorem mean_at (b : Fin 8) (l : Fin 1024) :
    val_main_v46 (F := Ideal) x0 x1 x2 x3 x4 x5 (ix3 b l (0 : Fin 1)) = Cert.Spec.mean x0 x1 x2 x3 x4 x5 b l := by
  have e : idx_main_v44 (ix3 b l (0 : Fin 1)) = ix2 b l := funext fun a => Fin.ext (by match a with | ⟨0, _⟩ => rfl | ⟨1, _⟩ => rfl)
  have es : (∑ k : Fin 1024, val_main_v42 (F := Ideal) x0 x1 x2 x3 x4 x5 (idx_main_v43 (ix2 b l) k))
      = ∑ n : Fin 1024, Cert.Spec.proj x0 x1 x2 x3 x4 x5 b l n :=
    Finset.sum_congr rfl fun n _ => by
      have ek : idx_main_v43 (ix2 b l) n = ix3 b l n := funext fun a => Fin.ext (by match a with | ⟨0, _⟩ => rfl | ⟨1, _⟩ => rfl | ⟨2, _⟩ => rfl)
      rw [ek, proj_at]
  rw [val_main_v46_apply, val_main_v44_apply, e, val_main_v43_apply, es, val_main_cst_5_apply, val_main_v45_apply,
    val_main_cst_6_apply]
  show Ideal.div (Ideal.ofBits .f32 0x00000000#32 + _) _ = _
  rw [Ideal.ofBits_zero_f32, zero_add]
  rfl

/-- The deviation from the mean, as the variance reads it … -/
theorem dev_at (b : Fin 8) (l n : Fin 1024) :
    val_main_v48 (F := Ideal) x0 x1 x2 x3 x4 x5 (ix3 b l n) = Cert.Spec.dev x0 x1 x2 x3 x4 x5 b l n := by
  have e : idx_main_v47 (ix3 b l n) = ix3 b l (0 : Fin 1) := funext fun a => Fin.ext (by match a with | ⟨0, _⟩ => rfl | ⟨1, _⟩ => rfl | ⟨2, _⟩ => rfl)
  rw [val_main_v48_apply, proj_at, val_main_v47_apply, e, mean_at]; rfl

/-- … and as the last step reads it: the same difference, computed a second time. -/
theorem dev_at' (b : Fin 8) (l n : Fin 1024) :
    val_main_v55 (F := Ideal) x0 x1 x2 x3 x4 x5 (ix3 b l n) = Cert.Spec.dev x0 x1 x2 x3 x4 x5 b l n := by
  have e : idx_main_v54 (ix3 b l n) = ix3 b l (0 : Fin 1) := funext fun a => Fin.ext (by match a with | ⟨0, _⟩ => rfl | ⟨1, _⟩ => rfl | ⟨2, _⟩ => rfl)
  rw [val_main_v55_apply, proj_at, val_main_v54_apply, e, mean_at]; rfl

/-- A row's variance. -/
theorem var_at (b : Fin 8) (l : Fin 1024) :
    val_main_v53 (F := Ideal) x0 x1 x2 x3 x4 x5 (ix3 b l (0 : Fin 1)) = Cert.Spec.var x0 x1 x2 x3 x4 x5 b l := by
  have e : idx_main_v51 (ix3 b l (0 : Fin 1)) = ix2 b l := funext fun a => Fin.ext (by match a with | ⟨0, _⟩ => rfl | ⟨1, _⟩ => rfl)
  have es : (∑ k : Fin 1024, val_main_v49 (F := Ideal) x0 x1 x2 x3 x4 x5 (idx_main_v50 (ix2 b l) k))
      = ∑ n : Fin 1024, Cert.Spec.dev x0 x1 x2 x3 x4 x5 b l n * Cert.Spec.dev x0 x1 x2 x3 x4 x5 b l n :=
    Finset.sum_congr rfl fun n _ => by
      have ek : idx_main_v50 (ix2 b l) n = ix3 b l n := funext fun a => Fin.ext (by match a with | ⟨0, _⟩ => rfl | ⟨1, _⟩ => rfl | ⟨2, _⟩ => rfl)
      rw [ek, val_main_v49_apply, dev_at]; rfl
  rw [val_main_v53_apply, val_main_v51_apply, e, val_main_v50_apply, es, val_main_cst_7_apply, val_main_v52_apply,
    val_main_cst_8_apply]
  show Ideal.div (Ideal.ofBits .f32 0x00000000#32 + _) _ = _
  rw [Ideal.ofBits_zero_f32, zero_add]
  rfl

/-- The layer norm's last step, with the quotient by the square root. -/
theorem norm_at (b : Fin 8) (l n : Fin 1024) :
    val_main_v66 (F := Ideal) x0 x1 x2 x3 x4 x5 x6 x7 (ix3 b l n) = Cert.Spec.normQuot x0 x1 x2 x3 x4 x5 x6 x7 b l n := by
  have eg : idx_main_v56 (idx_main_v57 (ix3 b l n)) = ix1 n := funext fun a => Fin.ext (by match a with | ⟨0, _⟩ => rfl)
  have eb : idx_main_v64 (idx_main_v65 (ix3 b l n)) = ix1 n := funext fun a => Fin.ext (by match a with | ⟨0, _⟩ => rfl)
  have e : idx_main_v62 (ix3 b l n) = ix3 b l (0 : Fin 1) := funext fun a => Fin.ext (by match a with | ⟨0, _⟩ => rfl | ⟨1, _⟩ => rfl | ⟨2, _⟩ => rfl)
  rw [val_main_v66_apply, val_main_v63_apply, val_main_v58_apply, val_main_v57_apply, val_main_v56_apply, eg, dev_at',
    val_main_v62_apply, e, val_main_v61_apply, val_main_v60_apply, var_at, val_main_v59_apply, val_main_cst_9_apply,
    val_main_v65_apply, val_main_v64_apply, eb]
  rfl

/-! ## The two results -/

/-- The attention-weights stage is the specification's array. -/
theorem attnOut_eq : val_main_v34 (F := Ideal) x0 x1 x2 x3 = Cert.Spec.attnOut x0 x1 x2 x3 := by
  funext idx
  obtain ⟨b, h, i, j, rfl⟩ : ∃ (b : Fin 8) (h : Fin 16) (i j : Fin 1024), idx = ix4 b h i j :=
    ⟨idx 0, idx 1, idx 2, idx 3, eq_ix4 idx⟩
  exact attn_at x0 x1 x2 x3 b h i j

/-- The output stage is the specification's array, in the form with the quotient by the square root. -/
theorem outQuot_eq : val_main_v66 (F := Ideal) x0 x1 x2 x3 x4 x5 x6 x7 = Cert.Spec.outQuot x0 x1 x2 x3 x4 x5 x6 x7 := by
  funext idx
  obtain ⟨b, l, n, rfl⟩ : ∃ (b : Fin 8) (l n : Fin 1024), idx = ix3 b l n := ⟨idx 0, idx 1, idx 2, eq_ix3 idx⟩
  exact norm_at x0 x1 x2 x3 x4 x5 x6 x7 b l n

open Idealize.SL.Sem Idealize.ShloMosaic.TcCoe in
/-- The reference's second result, as its run states it, is the attention weights of the argument arrays. -/
theorem res_out1_eq (m : (ℓ : Loc nD τ sig) → Buf (Elt Ideal) ℓ) (c : Dev nD) :
    Cert.ReferenceIdeal.Value.res_out1 (F := Ideal) m c
      = Cert.Spec.attnOut (m ((c.tc : Thread nD τ).loc main_arg0)) (m ((c.tc : Thread nD τ).loc main_arg1))
          (m ((c.tc : Thread nD τ).loc main_arg2)) (m ((c.tc : Thread nD τ).loc main_arg3)) :=
  (val_main_v34_eq (F := Ideal) m c).trans (attnOut_eq _ _ _ _)

open Idealize.SL.Sem Idealize.ShloMosaic.TcCoe in
/-- The reference's first result, as its run states it, is the block's output of the argument arrays. -/
theorem res_out0_eq (m : (ℓ : Loc nD τ sig) → Buf (Elt Ideal) ℓ) (c : Dev nD) :
    Cert.ReferenceIdeal.Value.res_out0 (F := Ideal) m c
      = Cert.Spec.outQuot (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v66_eq (F := Ideal) m c).trans (outQuot_eq _ _ _ _ _ _ _ _)

end Cert.ReferenceIdeal.RefValue

end
-- ==== Proof.RefRun.lean ====
/-
  The reference program's run with its two results stated as the specification's functions of the argument arrays:
  every weakly fair execution terminates with the block's output (in the form with the quotient by the square root)
  and the attention weights in the two result arrays, and the eight argument arrays unchanged.
-/
import proofs.«113321_j206158430385_2_alg».proof.Proof.RefIsSpec

noncomputable section

namespace Cert.ReferenceIdeal.RefValue

open Cert.ReferenceIdeal Cert.ReferenceIdeal.Gen Idealize.ShloMosaic Idealize.ShloMosaic.TcCoe Idealize.SL.Sem

/-- The reference's run, its results read as the specification. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
          = Cert.Spec.outQuot (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v34)
          = Cert.Spec.attnOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans (res_out0_eq m c), (h c).2.1.trans (res_out1_eq m c), (h c).2.2⟩)
    (Cert.ReferenceIdeal.Value.run (F := Ideal) m ρ)

end Cert.ReferenceIdeal.RefValue

end
-- ==== Proof.PreReal.lean ====
/-
  From the precondition to real-valued arguments. The precondition says, of each of the eight argument arrays, that
  every element's absolute value is below +∞ (the conjunction of eight "all elements" reductions is the one bit 1).
  An extended real whose absolute value max(a, −a) is below +∞ is neither +∞ nor −∞: it is a real number.
-/
import proofs.«113321_j206158430385_2_alg».proof.Defs
import Idealize.ShloMosaic.Lib.ReduceAll
import Idealize.ShloMosaic.Lib.ValueIdx

noncomputable section

namespace Cert.PreReal

open Idealize.ShloMosaic Idealize.ShloMosaic.ValueIdx Idealize.SL.Sem

/-- The scalar shape has one index. -/
instance : Subsingleton (Cert.Pre_finite_inputs.S_.Idx) := ⟨fun a b => funext fun d => d.elim0⟩

/-- The word 0x7F800000 is +∞. -/
theorem inf_eq : Ideal.ofBits .f32 0x7F800000#32 = ⊤ := by
  simp [Ideal.ofBits, Ideal.ieee]

/-- |a| < +∞ says that a is a real number. -/
theorem real_of_abs_lt (a : EReal)
    (h : Ideal.cmp .olt (max a (-a)) (Ideal.ofBits .f32 0x7F800000#32) = 1#1) : ∃ r : ℝ, a = (r : EReal) := by
  rw [inf_eq] at h
  induction a using EReal.rec with
  | bot => exact absurd h (by simp [Ideal.cmp])
  | coe r => exact ⟨r, rfl⟩
  | top => exact absurd h (by simp [Ideal.cmp])

/-- One array's "all elements have |·| < +∞" being 1 says every element is real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hS : 0 < Cert.Pre_finite_inputs.S_.numel)
    (e : Host.reduce IntOp.andi
        (cmpf .olt (Host.absf a) (broadcastInDim s ![] hb (constant (F := Ideal) Cert.Pre_finite_inputs.S_ .f32 0x7F800000#32)))
        (constantI Cert.Pre_finite_inputs.S_ 1 1#1) hr hS ix0 = 1#1) :
    ∀ i, ∃ r : ℝ, a i = (r : EReal) := fun i =>
  real_of_abs_lt (a i) (Host.reduce_andi_all _ _ hr hS ix0 e i)

section Fn

open Cert.Pre_finite_inputs Cert.Pre_finite_inputs.Facts

variable [Cert.Pre_finite_inputs.Facts]

/-- The precondition, as a function of eight arrays, says each is real-valued. -/
theorem fn_real (a0 : FVec Ideal S8x1024x1024 .f32) (a1 : FVec Ideal S8x1x1024x1024 .f32)
    (a2 : FVec Ideal S1024x3072 .f32) (a3 : FVec Ideal S3072 .f32) (a4 : FVec Ideal S1024x1024 .f32)
    (a5 a6 a7 : FVec Ideal S1024 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h0 := congrFun h ix0
  dsimp only [Cert.Pre_finite_inputs.fn, Cert.Pre_finite_inputs.fn_part1, Cert.Pre_finite_inputs.fn_part2,
    Idealize.ShloMosaic.andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7⟩

/-- Under the kernel's precondition all eight argument arrays are real-valued, on every device. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : FVec Ideal Cert.KernelIdeal.S8x1024x1024 .f32) i = (r : EReal))
      ∧ (∀ i, ∃ r : ℝ, (m ((c.tc : Thread Cert.KernelIdeal.nD Cert.KernelIdeal.τ).loc Cert.KernelIdeal.main_arg1) : FVec Ideal Cert.KernelIdeal.S8x1x1024x1024 .f32) i = (r : EReal))
      ∧ (∀ i, ∃ r : ℝ, (m ((c.tc : Thread Cert.KernelIdeal.nD Cert.KernelIdeal.τ).loc Cert.KernelIdeal.main_arg2) : FVec Ideal Cert.KernelIdeal.S1024x3072 .f32) i = (r : EReal))
      ∧ (∀ i, ∃ r : ℝ, (m ((c.tc : Thread Cert.KernelIdeal.nD Cert.KernelIdeal.τ).loc Cert.KernelIdeal.main_arg3) : FVec Ideal Cert.KernelIdeal.S3072 .f32) i = (r : EReal))
      ∧ (∀ i, ∃ r : ℝ, (m ((c.tc : Thread Cert.KernelIdeal.nD Cert.KernelIdeal.τ).loc Cert.KernelIdeal.main_arg4) : FVec Ideal Cert.KernelIdeal.S1024x1024 .f32) i = (r : EReal))
      ∧ (∀ i, ∃ r : ℝ, (m ((c.tc : Thread Cert.KernelIdeal.nD Cert.KernelIdeal.τ).loc Cert.KernelIdeal.main_arg5) : FVec Ideal Cert.KernelIdeal.S1024 .f32) i = (r : EReal))
      ∧ (∀ i, ∃ r : ℝ, (m ((c.tc : Thread Cert.KernelIdeal.nD Cert.KernelIdeal.τ).loc Cert.KernelIdeal.main_arg6) : FVec Ideal Cert.KernelIdeal.S1024 .f32) i = (r : EReal))
      ∧ (∀ i, ∃ r : ℝ, (m ((c.tc : Thread Cert.KernelIdeal.nD Cert.KernelIdeal.τ).loc Cert.KernelIdeal.main_arg7) : FVec Ideal Cert.KernelIdeal.S1024 .f32) i = (r : EReal)) :=
  fn_real _ _ _ _ _ _ _ _ (h c)

theorem arg0_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg0) : FVec Ideal Cert.KernelIdeal.S8x1024x1024 .f32) i = (r : EReal) :=
  (args_real m h c).1
theorem arg1_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg1) : FVec Ideal Cert.KernelIdeal.S8x1x1024x1024 .f32) i = (r : EReal) :=
  (args_real m h c).2.1
theorem arg2_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg2) : FVec Ideal Cert.KernelIdeal.S1024x3072 .f32) i = (r : EReal) :=
  (args_real m h c).2.2.1
theorem arg3_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg3) : FVec Ideal Cert.KernelIdeal.S3072 .f32) i = (r : EReal) :=
  (args_real m h c).2.2.2.1
theorem arg4_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg4) : FVec Ideal Cert.KernelIdeal.S1024x1024 .f32) i = (r : EReal) :=
  (args_real m h c).2.2.2.2.1
theorem arg5_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg5) : FVec Ideal Cert.KernelIdeal.S1024 .f32) i = (r : EReal) :=
  (args_real m h c).2.2.2.2.2.1
theorem arg6_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg6) : FVec Ideal Cert.KernelIdeal.S1024 .f32) i = (r : EReal) :=
  (args_real m h c).2.2.2.2.2.2.1
theorem arg7_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg7) : FVec Ideal Cert.KernelIdeal.S1024 .f32) i = (r : EReal) :=
  (args_real m h c).2.2.2.2.2.2.2

end Fn

end Cert.PreReal

end
-- ==== Proof.Algebraic.lean ====
/-
  The equality of the two programs' results, from the kernel's run. At the exact extended reals the kernel's run ends
  with the block's output in the form with the product by the reciprocal square root and with the attention weights,
  both as the specification's functions of the argument arrays; the reference's run ends with the output in the form
  with the quotient by the square root and with the same attention weights. Under the precondition every argument
  entry is a real number, so the two forms of the output are one function; and the two memories agree on the
  arguments, so the reference's results are the same functions of the kernel's arguments.
-/
import proofs.«113321_j206158430385_2_alg».proof.Defs
import proofs.«113321_j206158430385_2_alg».proof.Proof.Gen.KernelIdeal
import proofs.«113321_j206158430385_2_alg».proof.Proof.Gen.ReferenceIdeal
import proofs.«113321_j206158430385_2_alg».proof.Proof.Gen.Pre_finite_inputs
import proofs.«113321_j206158430385_2_alg».proof.Proof.RefRun
import proofs.«113321_j206158430385_2_alg».proof.Proof.PreReal
import proofs.«113321_j206158430385_2_alg».proof.Proof.SpecReal

noncomputable section

namespace Cert.Proof.AlgebraicClaim

open Idealize.ShloMosaic Idealize.ShloMosaic.TcCoe Idealize.SL.Sem

/-- If every run of the kernel ends with the specification's two results (the output with the product by the
    reciprocal square root) and unchanged arguments, then the kernel and the reference, from memories agreeing on the
    arguments, end with equal results. -/
theorem algebraic_of_kernel_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v14) = Cert.Spec.outRsqrt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
          ∧ r.2.mem ((c.tc : Thread Cert.KernelIdeal.nD Cert.KernelIdeal.τ).loc Cert.KernelIdeal.main_v6_1) = Cert.Spec.attnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))) :
    Cert.algebraic_KernelIdeal_ReferenceIdeal := by
  intro m g m' g' hpre hagree
  refine ⟨fun c => Cert.Spec.outQuot (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.attnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run (Cert.KernelIdeal.defs (F := Ideal)) _ _).mono (fun _ h c => ⟨(h c).1.trans ?_, (h c).2⟩) (hrun m g)
    exact Cert.Spec.outRsqrt_eq_outQuot _ _ _ _ _ _ _ _
      (Cert.PreReal.arg0_real m hpre c) (Cert.PreReal.arg1_real m hpre c) (Cert.PreReal.arg2_real m hpre c)
      (Cert.PreReal.arg3_real m hpre c) (Cert.PreReal.arg4_real m hpre c) (Cert.PreReal.arg5_real m hpre c)
      (Cert.PreReal.arg6_real m hpre c) (Cert.PreReal.arg7_real m hpre c)
  · refine (θ_run (Cert.ReferenceIdeal.defs (F := Ideal)) _ _).mono (fun _ h c => ?_)
      (Cert.ReferenceIdeal.RefValue.run_spec m' g')
    obtain ⟨h0, h1, hargs⟩ := h c
    refine ⟨h0.trans ?_, h1.trans ?_, hargs⟩
    · rw [(hagree c).1, (hagree c).2.1, (hagree c).2.2.1, (hagree c).2.2.2.1, (hagree c).2.2.2.2.1, (hagree c).2.2.2.2.2.1, (hagree c).2.2.2.2.2.2.1, (hagree c).2.2.2.2.2.2.2]
    · rw [(hagree c).1, (hagree c).2.1, (hagree c).2.2.1, (hagree c).2.2.2.1]

end Cert.Proof.AlgebraicClaim

end
-- ==== Proof.lean ====
/-
  The certificate of one transformer attention block: the fused query/key/value projection, causal-mask softmax attention
  over sixteen heads, the output projection with its residual, and a layer normalisation — computed by three kernels
  (row tiles of the projection; one batch entry, one tile of query rows and one pair of heads of the attention; row
  tiles of the output projection and normalisation) — against the same block written with whole-array operations.
  * Each of the three programs runs to the end without a fault and leaves its eight argument arrays as launched: for the
    two kernel programs this is the run of @main's seven items, every unscoped buffer followed through them; for the
    whole-array program it is its run with the results dropped.
  * The idealised kernel program is the kernel program's own text read at the exact extended reals: nothing to state.
  * At the exact extended reals the two programs end with the same two results, index by index.
-/
import proofs.«113321_j206158430385_2_alg».proof.Defs
import proofs.«113321_j206158430385_2_alg».proof.Proof.Gen.Kernel
import proofs.«113321_j206158430385_2_alg».proof.Proof.Gen.KernelIdeal
import proofs.«113321_j206158430385_2_alg».proof.Proof.Gen.ReferenceIdeal
import proofs.«113321_j206158430385_2_alg».proof.Proof.Gen.Pre_finite_inputs
import proofs.«113321_j206158430385_2_alg».proof.Proof.KernelRun
import proofs.«113321_j206158430385_2_alg».proof.Proof.KernelIdealRun
import proofs.«113321_j206158430385_2_alg».proof.Proof.RefFrame
import proofs.«113321_j206158430385_2_alg».proof.Proof.KernelIdealValue
import proofs.«113321_j206158430385_2_alg».proof.Proof.Algebraic
import Idealize.ShloMosaic.Adequacy
import Idealize.ShloMosaic.Init

noncomputable section

namespace Cert.Proof

open Idealize.ShloMosaic Idealize.SL.Sem

/-- The kernel program, at the machine's words: its run, read at the arguments. -/
theorem frame_k : Cert.frame_Kernel := fun m ρ _ => Cert.Kernel.Hand.frame (F := Bits) m ρ

/-- The same program at the exact extended reals: the same run. -/
theorem frame_ki : Cert.frame_KernelIdeal := fun m ρ _ => Cert.KernelIdeal.Hand.frame (F := Ideal) m ρ

/-- The idealisation rewrote no operation. -/
theorem preserves : Cert.preserves_Kernel_KernelIdeal := trivial

/-- The kernel program ends with the specification's two results (its normalisation a product by the reciprocal square
    root), the whole-array program with the same two (its normalisation a quotient by the square root); on arguments that
    are real numbers — what the precondition says — the two forms of the normalisation agree. -/
theorem algebraic : Cert.algebraic_KernelIdeal_ReferenceIdeal :=
  Cert.Proof.AlgebraicClaim.algebraic_of_kernel_run fun m ρ => Cert.KernelIdeal.Hand.run_value m ρ

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, preserves, algebraic⟩

end Cert.Proof

end
